-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S64x64 : Shape := ⟨2, ![64, 64]⟩
abbrev S64 : Shape := ⟨1, ![64]⟩
abbrev S144x15 : Shape := ⟨2, ![144, 15]⟩
abbrev S15 : Shape := ⟨1, ![15]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S144x15 : S_.BroadcastsInDim S144x15 (![] : Fin 0 → Fin S144x15.rank)
  reducesTo_S144x15_S_d0_1 : S144x15.ReducesTo [0, 1] S_
  bcast_S_S15 : S_.BroadcastsInDim S15 (![] : Fin 0 → Fin S15.rank)
  reducesTo_S15_S_d0 : S15.ReducesTo [0] S_

variable [Facts]

def fn_part2 {F : FTy → Type} [FloatOps F] (main_arg8 : FVec F S64 .f32) (main_arg9 : FVec F S144x15 .f32) (main_arg10 : FVec F S15 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S144x15 .f32 := Host.absf main_arg9
  let main_cst_14 : FVec F S_ .f32 := constant S_ .f32 0x7F800000#32
  let main_v40 : FVec F S144x15 .f32 := broadcastInDim S144x15 ![] bcast_S_S144x15 main_cst_14
  let main_v41 : IVec S144x15 1 := cmpf .olt main_v39 main_v40
  let main_c_15 : IVec S_ 1 := constantI S_ 1 1#1
  let main_v42 : IVec S_ 1 := (fun x v => Host.reduce IntOp.andi x v reducesTo_S144x15_S_d0_1 h_S_) main_v41 main_c_15
  let main_v43 : IVec S_ 1 := andi main_v38 main_v42
  let main_v44 : FVec F S15 .f32 := Host.absf main_arg10
  let main_cst_16 : FVec F S_ .f32 := constant S_ .f32 0x7F800000#32
  let main_v45 : FVec F S15 .f32 := broadcastInDim S15 ![] bcast_S_S15 main_cst_16
  let main_v46 : IVec S15 1 := cmpf .olt main_v44 main_v45
  let main_c_17 : IVec S_ 1 := constantI S_ 1 1#1
  let main_v47 : IVec S_ 1 := (fun x v => Host.reduce IntOp.andi x v reducesTo_S15_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S144x15 .f32) (main_arg10 : FVec F S15 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S1600000x16 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S144x15 .f32) (main_arg10 : FVec F S15 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S64x64 : Shape := ⟨2, ![64, 64]⟩
abbrev S64 : Shape := ⟨1, ![64]⟩
abbrev S144x15 : Shape := ⟨2, ![144, 15]⟩
abbrev S15 : Shape := ⟨1, ![15]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S64x15 : Shape := ⟨2, ![64, 15]⟩
abbrev S16x15 : Shape := ⟨2, ![16, 15]⟩
abbrev S1x15 : Shape := ⟨2, ![1, 15]⟩
abbrev S1600000x15 : Shape := ⟨2, ![1600000, 15]⟩
abbrev S4000x64 : Shape := ⟨2, ![4000, 64]⟩
abbrev S4000x16 : Shape := ⟨2, ![4000, 16]⟩
abbrev S4000x15 : Shape := ⟨2, ![4000, 15]⟩
abbrev S4000 : Shape := ⟨1, ![4000]⟩
abbrev S4000x1 : Shape := ⟨2, ![4000, 1]⟩

abbrev nBuf : Space → Nat
  | .hbm => 136
  | .vmem => 34
  | .smem => 0
  | _ => 0

abbrev hbmTy0_0 (i : Nat) : BufTy := match i % 128 with
  | 0 => ⟨S100000x64, .f32⟩
  | 1 => ⟨S2x1600000, .i32⟩
  | 2 => ⟨S1600000x16, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S144x15, .f32⟩
  | 10 => ⟨S15, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S1x1600000, .i32⟩
  | 110 => ⟨S1600000, .i32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1x1600000, .i32⟩
  | 121 => ⟨S1600000, .i32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S64x15, .f32⟩
  | 4 => ⟨S64x15, .f32⟩
  | 5 => ⟨S16x15, .f32⟩
  | 6 => ⟨S1x15, .f32⟩
  | 7 => ⟨S1600000x15, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x16, .f32⟩
  | .local _ .vmem, ⟨27, _⟩ => ⟨S4000x16, .f32⟩
  | .local _ .vmem, ⟨28, _⟩ => ⟨S64x15, .f32⟩
  | .local _ .vmem, ⟨29, _⟩ => ⟨S64x15, .f32⟩
  | .local _ .vmem, ⟨30, _⟩ => ⟨S16x15, .f32⟩
  | .local _ .vmem, ⟨31, _⟩ => ⟨S1x15, .f32⟩
  | .local _ .vmem, ⟨32, _⟩ => ⟨S4000x15, .f32⟩
  | .local _ .vmem, ⟨33, _⟩ => ⟨S4000x15, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_16 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32
abbrev cc4_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x15 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x15 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x15 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x15 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x15 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x15_S64x15_0_0 : S144x15.Slices ![0, 0] S64x15
  slices_S144x15_S64x15_64_0 : S144x15.Slices ![64, 0] S64x15
  slices_S144x15_S16x15_128_0 : S144x15.Slices ![128, 0] S16x15
  shapeCasts_S15_S1x15 : S15.ShapeCasts S1x15
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x16_S4000x16_0_0 : ∀ a, (![0, 0] : Fin 2 → Nat) a + S4000x16.size a ≤ S4000x16.size a
  h_S4000x16 : 0 < S4000x16.numel
  inb_S64x15_S64x15_0_0 : ∀ a, (![0, 0] : Fin 2 → Nat) a + S64x15.size a ≤ S64x15.size a
  h_S64x15 : 0 < S64x15.numel
  shapeCasts_S64x15_S64x15 : S64x15.ShapeCasts S64x15
  inb_S16x15_S16x15_0_0 : ∀ a, (![0, 0] : Fin 2 → Nat) a + S16x15.size a ≤ S16x15.size a
  h_S16x15 : 0 < S16x15.numel
  shapeCasts_S16x15_S16x15 : S16x15.ShapeCasts S16x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S4000x15 : S1x15.Broadcasts S4000x15
  reduces_S4000x15_S4000 : S4000x15.Reduces [1] S4000
  shapeCasts_S4000_S4000x1 : S4000.ShapeCasts S4000x1
  broadcasts_S4000x1_S4000x15 : S4000x1.Broadcasts S4000x15
  inb_S4000x15_S4000x15_0_0 : ∀ a, (![0, 0] : Fin 2 → Nat) a + S4000x15.size a ≤ S4000x15.size a
  h_S4000x15 : 0 < S4000x15.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S4000x64_S64x15_S4000x15_1_0_0_1_n_n_wf : DotDims.WF S4000x64 S64x15 S4000x15 [1] [0] [0] [1] [] []
  dot_S4000x16_S16x15_S4000x15_1_0_0_1_n_n_wf : DotDims.WF S4000x16 S16x15 S4000x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S1600000x64.size a
  hwx4_0 : ∀ i : grid4.Coords, EltTy.bits .f32 = 32 ∨ (Rect.block (s := S1600000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S1600000x64.size a
  hwx4_1 : ∀ i : grid4.Coords, EltTy.bits .f32 = 32 ∨ (Rect.block (s := S1600000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S1600000x16.size a
  hwx4_2 : ∀ i : grid4.Coords, EltTy.bits .f32 = 32 ∨ (Rect.block (s := S1600000x16) S4000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x15.size a ≤ S64x15.size a
  hwx4_3 : ∀ i : grid4.Coords, EltTy.bits .f32 = 32 ∨ (Rect.block (s := S64x15) S64x15.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x15.size a ≤ S64x15.size a
  hwx4_4 : ∀ i : grid4.Coords, EltTy.bits .f32 = 32 ∨ (Rect.block (s := S64x15) S64x15.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x15.size a ≤ S16x15.size a
  hwx4_5 : ∀ i : grid4.Coords, EltTy.bits .f32 = 32 ∨ (Rect.block (s := S16x15) S16x15.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x15.size a ≤ S1x15.size a
  hwx4_6 : ∀ i : grid4.Coords, EltTy.bits .f32 = 32 ∨ (Rect.block (s := S1x15) S1x15.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x15.size a ≤ S1600000x15.size a
  hwx4_7 : ∀ i : grid4.Coords, EltTy.bits .f32 = 32 ∨ (Rect.block (s := S1600000x15) S4000x15.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x64_S64x15_S4000x15_1_0_0_1_n_n : DotDims S4000x64 S64x15 S4000x15 where
  lhsContracting := [1]
  rhsContracting := [0]
  lhsNonContracting := [0]
  rhsNonContracting := [1]
  lhsBatch := []
  rhsBatch := []
  wf := dot_S4000x64_S64x15_S4000x15_1_0_0_1_n_n_wf
def dot_S4000x16_S16x15_S4000x15_1_0_0_1_n_n : DotDims S4000x16 S16x15 S4000x15 where
  lhsContracting := [1]
  rhsContracting := [0]
  lhsNonContracting := [0]
  rhsNonContracting := [1]
  lhsBatch := []
  rhsBatch := []
  wf := dot_S4000x16_S16x15_S4000x15_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S4000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v96) S64x15.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S64x15.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S16x15.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v99) S1x15.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v100) S4000x15.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S64x64 : Shape := ⟨2, ![64, 64]⟩
abbrev S64 : Shape := ⟨1, ![64]⟩
abbrev S144x15 : Shape := ⟨2, ![144, 15]⟩
abbrev S15 : Shape := ⟨1, ![15]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x144 : Shape := ⟨2, ![1600000, 144]⟩
abbrev S1600000x15 : Shape := ⟨2, ![1600000, 15]⟩
abbrev S1x15 : Shape := ⟨2, ![1, 15]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S2x1600000, .i32⟩
  | 2 => ⟨S1600000x16, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S144x15, .f32⟩
  | 10 => ⟨S15, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S1x1600000, .i32⟩
  | 124 => ⟨S1600000, .i32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1x1600000, .i32⟩
  | 7 => ⟨S1600000, .i32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x144, .f32⟩
  | 18 => ⟨S1600000x15, .f32⟩
  | 19 => ⟨S1x15, .f32⟩
  | 20 => ⟨S1600000x15, .f32⟩
  | 21 => ⟨S1600000x15, .f32⟩
  | 22 => ⟨S_, .f32⟩
  | 23 => ⟨S1600000, .f32⟩
  | 24 => ⟨S_, .f32⟩
  | 25 => ⟨S1600000, .f32⟩
  | 26 => ⟨S1600000, .f32⟩
  | 27 => ⟨S1600000x1, .f32⟩
  | 28 => ⟨S1600000x15, .f32⟩
  | 29 => ⟨S1600000x15, .f32⟩
  | 30 => ⟨S1600000x15, .f32⟩
  | 31 => ⟨S_, .f32⟩
  | 32 => ⟨S1600000, .f32⟩
  | 33 => ⟨S1600000x1, .f32⟩
  | 34 => ⟨S1600000x1, .f32⟩
  | 35 => ⟨S1600000x15, .f32⟩
  | 36 => ⟨S1600000x15, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_16 : Ref sig .tc := ⟨.hbm, 125, rfl⟩
abbrev main_v88 : Ref sig .tc := ⟨.hbm, 126, rfl⟩
abbrev main_v89 : Ref sig .tc := ⟨.hbm, 127, rfl⟩
abbrev main_c_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call4_cst : Ref sig .tc := ⟨.hbm, 150, rfl⟩
abbrev main_call4_v0 : Ref sig .tc := ⟨.hbm, 151, rfl⟩
abbrev main_call4_cst_0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_cst_1 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_v109 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S15_S1x15_1 : S15.BroadcastsInDim S1x15 (![1] : Fin 1 → Fin S1x15.rank)
  bcast_S1x15_S1600000x15_0_1 : S1x15.BroadcastsInDim S1600000x15 (![0, 1] : Fin 2 → Fin S1600000x15.rank)
  reducesTo_S1600000x15_S1600000_d1 : S1600000x15.ReducesTo [1] S1600000
  h_S_ : 0 < S_.numel
  bcast_S1600000x1_S1600000x15_0_1 : S1600000x1.BroadcastsInDim S1600000x15 (![0, 1] : Fin 2 → Fin S1600000x15.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S1600000x144_S144x15_S1600000x15_1_0_0_1_n_n_wf : DotDims.WF S1600000x144 S144x15 S1600000x15 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x15_S1600000x15_1_0_0_1_n_n : DotDims S1600000x144 S144x15 S1600000x15 where
  lhsContracting := [1]
  rhsContracting := [0]
  lhsNonContracting := [0]
  rhsNonContracting := [1]
  lhsBatch := []
  rhsBatch := []
  wf := dot_S1600000x144_S144x15_S1600000x15_1_0_0_1_n_n_wf

class Facts : Prop extends Facts₀ where

variable [Facts]
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference's run, read chunk by chunk.

  The reference's @main is a line of 154 host operations. Its contents at the end are the fold of the operations over the
  launch memory, and the fold of a concatenation is the fold of the second part over the fold of the first. Cut at the ends
  of the network's stages — the index vectors and edge normalisation, then the three layers, then the edge classifier —
  and where a buffer has several readers, the line is nine chunks, and each chunk computes its stages (a function of the arguments named in the read-at-an-index
  module) from the stages before it and the arguments, which no operation writes. So the result buffer ends at the last
  stage of the arguments, and each argument as launched.
-/
import proofs.«149527_j74560632259283_2_alg».proof.Proof.RefOps
import proofs.«149527_j74560632259283_2_alg».proof.Proof.RefReadP
import proofs.«149527_j74560632259283_2_alg».proof.Proof.LibAfter
import Idealize.ShloMosaic.Lib.StableHlo.Run
import Idealize.ShloMosaic.PureOps.Ideal

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section Chunks
variable {F : FTy → Type} [FloatOps F]

/-- Operations 1–21 of @main. -/
abbrev chunk1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- Operations 22–24 of @main. -/
abbrev chunk2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- Operations 25–43 of @main. -/
abbrev chunk3 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Operations 44–67 of @main. -/
abbrev chunk4 : List (HloOp τ sig (Elt F)) :=
  [ binary main_arg0 main_arg3 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 68–90 of @main. -/
abbrev chunk5 : List (HloOp τ sig (Elt F)) :=
  [ nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf,
    binary main_v67 main_arg7 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 91–112 of @main. -/
abbrev chunk6 : List (HloOp τ sig (Elt F)) :=
  [ nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v84) (TRef.of (T := ⟨S100000x64, .f32⟩) main_call3_v0) (TRef.of (T := ⟨S100000x64, .f32⟩) main_v85) maximumf ]

/-- Operations 113–134 of @main. -/
abbrev chunk7 : List (HloOp τ sig (Elt F)) :=
  [ unary main_arg1 main_v86 ((extractStridedSlice S1x1600000 ![0, 0] · slices_S2x1600000_S1x1600000_0_0) : (⟨S2x1600000, .i32⟩ : BufTy).Contents (Elt F) → (⟨S1x1600000, .i32⟩ : BufTy).Contents (Elt F)),
    reshape main_v86 main_v87 rfl shapeCasts_S1x1600000_S1600000,
    nullary main_c_16 (constantI S_ 32 0#32),
    unary main_c_16 main_v88 (broadcastInDim S1600000 ![] bcast_S_S1600000 : (⟨S_, .i32⟩ : BufTy).Contents (Elt F) → (⟨S1600000, .i32⟩ : BufTy).Contents (Elt F)),
    binary main_v87 main_v88 main_v89 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v90 (broadcastInDim S1600000 ![] bcast_S_S1600000 : (⟨S_, .i32⟩ : BufTy).Contents (Elt F) → (⟨S1600000, .i32⟩ : BufTy).Contents (Elt F)),
    binary main_v87 main_v90 main_v91 (addi : (⟨S1600000, .i32⟩ : BufTy).Contents (Elt F) → (⟨S1600000, .i32⟩ : BufTy).Contents (Elt F) → (⟨S1600000, .i32⟩ : BufTy).Contents (Elt F)),
    ternary main_v89 main_v91 main_v87 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v92 main_v93 (broadcastInDim S1600000x1 ![0] bcast_S1600000_S1600000x1_0 : (⟨S1600000, .i32⟩ : BufTy).Contents (Elt F) → (⟨S1600000x1, .i32⟩ : BufTy).Contents (Elt F)),
    binary main_v85 main_v93 main_v94 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg1 main_v95 ((extractStridedSlice S1x1600000 ![1, 0] · slices_S2x1600000_S1x1600000_1_0) : (⟨S2x1600000, .i32⟩ : BufTy).Contents (Elt F) → (⟨S1x1600000, .i32⟩ : BufTy).Contents (Elt F)),
    reshape main_v95 main_v96 rfl shapeCasts_S1x1600000_S1600000,
    nullary main_c_18 (constantI S_ 32 0#32),
    unary main_c_18 main_v97 (broadcastInDim S1600000 ![] bcast_S_S1600000 : (⟨S_, .i32⟩ : BufTy).Contents (Elt F) → (⟨S1600000, .i32⟩ : BufTy).Contents (Elt F)),
    binary main_v96 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v99 (broadcastInDim S1600000 ![] bcast_S_S1600000 : (⟨S_, .i32⟩ : BufTy).Contents (Elt F) → (⟨S1600000, .i32⟩ : BufTy).Contents (Elt F)),
    binary main_v96 main_v99 main_v100 (addi : (⟨S1600000, .i32⟩ : BufTy).Contents (Elt F) → (⟨S1600000, .i32⟩ : BufTy).Contents (Elt F) → (⟨S1600000, .i32⟩ : BufTy).Contents (Elt F)),
    ternary main_v98 main_v100 main_v96 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v101 main_v102 (broadcastInDim S1600000x1 ![0] bcast_S1600000_S1600000x1_0 : (⟨S1600000, .i32⟩ : BufTy).Contents (Elt F) → (⟨S1600000x1, .i32⟩ : BufTy).Contents (Elt F)),
    binary main_v85 main_v102 main_v103 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- Operations 135–139 of @main. -/
abbrev chunk8 : List (HloOp τ sig (Elt F)) :=
  [ nary ![main_v94, main_v103, main_arg2] main_v104 (fun u => concatenate S1600000x144 1 [⟨S1600000x64, u 0⟩, ⟨S1600000x64, u 1⟩, ⟨S1600000x16, u 2⟩] concatenates_S1600000x64_S1600000x64_S1600000x16_S1600000x144_d1),
    binary main_v104 main_arg9 main_v105 ((fun l r => Host.dotGeneral dot_S1600000x144_S144x15_S1600000x15_1_0_0_1_n_n none l r) : (⟨S1600000x144, .f32⟩ : BufTy).Contents (Elt F) → (⟨S144x15, .f32⟩ : BufTy).Contents (Elt F) → (⟨S1600000x15, .f32⟩ : BufTy).Contents (Elt F)),
    unary main_arg10 main_v106 (broadcastInDim S1x15 ![1] bcast_S15_S1x15_1 : (⟨S15, .f32⟩ : BufTy).Contents (Elt F) → (⟨S1x15, .f32⟩ : BufTy).Contents (Elt F)),
    unary main_v106 main_v107 (broadcastInDim S1600000x15 ![0, 1] bcast_S1x15_S1600000x15_0_1 : (⟨S1x15, .f32⟩ : BufTy).Contents (Elt F) → (⟨S1600000x15, .f32⟩ : BufTy).Contents (Elt F)),
    binary main_v105 main_v107 main_v108 (addf : (⟨S1600000x15, .f32⟩ : BufTy).Contents (Elt F) → (⟨S1600000x15, .f32⟩ : BufTy).Contents (Elt F) → (⟨S1600000x15, .f32⟩ : BufTy).Contents (Elt F)) ]

/-- Operations 140–154 of @main. -/
abbrev chunk9 : List (HloOp τ sig (Elt F)) :=
  [ TRef.nullary (TRef.of (T := ⟨S_, .f32⟩) main_call4_cst) (constant S_ .f32 0xFF800000#32),
    TRef.binary (TRef.of (T := ⟨S1600000x15, .f32⟩) main_v108) (TRef.of (T := ⟨S_, .f32⟩) main_call4_cst) (TRef.of (T := ⟨S1600000, .f32⟩) main_call4_v0) (fun x v => Host.reduce FloatOps.maximumf x v reducesTo_S1600000x15_S1600000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S1600000, .f32⟩) main_call4_v1) (broadcastInDim S1600000 ![] bcast_S_S1600000),
    TRef.binary (TRef.of (T := ⟨S1600000, .f32⟩) main_call4_v1) (TRef.of (T := ⟨S1600000, .f32⟩) main_call4_v0) (TRef.of (T := ⟨S1600000, .f32⟩) main_call4_v2) maximumf,
    TRef.unary (TRef.of (T := ⟨S1600000, .f32⟩) main_call4_v2) (TRef.of (T := ⟨S1600000x1, .f32⟩) main_call4_v3) (broadcastInDim S1600000x1 ![0] bcast_S1600000_S1600000x1_0),
    TRef.unary (TRef.of (T := ⟨S1600000x1, .f32⟩) main_call4_v3) (TRef.of (T := ⟨S1600000x15, .f32⟩) main_call4_v4) (broadcastInDim S1600000x15 ![0, 1] bcast_S1600000x1_S1600000x15_0_1),
    TRef.binary (TRef.of (T := ⟨S1600000x15, .f32⟩) main_v108) (TRef.of (T := ⟨S1600000x15, .f32⟩) main_call4_v4) (TRef.of (T := ⟨S1600000x15, .f32⟩) main_call4_v5) subf,
    TRef.unary (TRef.of (T := ⟨S1600000x15, .f32⟩) main_call4_v5) (TRef.of (T := ⟨S1600000x15, .f32⟩) main_call4_v6) Host.exp,
    TRef.nullary (TRef.of (T := ⟨S_, .f32⟩) main_call4_cst_1) (constant S_ .f32 0x00000000#32),
    TRef.binary (TRef.of (T := ⟨S1600000x15, .f32⟩) main_call4_v6) (TRef.of (T := ⟨S_, .f32⟩) main_call4_cst_1) (TRef.of (T := ⟨S1600000, .f32⟩) main_call4_v7) (fun x v => Host.reduceAdd x v reducesTo_S1600000x15_S1600000_d1 h_S_),
    TRef.unary (TRef.of (T := ⟨S1600000, .f32⟩) main_call4_v7) (TRef.of (T := ⟨S1600000x1, .f32⟩) main_call4_v8) (broadcastInDim S1600000x1 ![0] bcast_S1600000_S1600000x1_0),
    TRef.unary (TRef.of (T := ⟨S1600000x1, .f32⟩) main_call4_v8) (TRef.of (T := ⟨S1600000x1, .f32⟩) main_call4_v9) Host.log,
    TRef.unary (TRef.of (T := ⟨S1600000x1, .f32⟩) main_call4_v9) (TRef.of (T := ⟨S1600000x15, .f32⟩) main_call4_v10) (broadcastInDim S1600000x15 ![0, 1] bcast_S1600000x1_S1600000x15_0_1),
    TRef.binary (TRef.of (T := ⟨S1600000x15, .f32⟩) main_call4_v5) (TRef.of (T := ⟨S1600000x15, .f32⟩) main_call4_v10) (TRef.of (T := ⟨S1600000x15, .f32⟩) main_v109) subf ]

/-- The line of operations is its nine chunks end to end. -/
theorem ops_chunks : (ops : List (HloOp τ sig (Elt F))) = chunk1 ++ chunk2 ++ chunk3 ++ chunk4 ++ chunk5 ++ chunk6 ++ chunk7 ++ chunk8 ++ chunk9 := rfl

/-- A buffer none of these 21 operations writes holds, after them, what it held before. -/
theorem kept_chunk1 (W : Valuation τ sig (Elt F)) (b : Ref sig .tc)
    (hb : b ∉ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc))) :
    after (chunk1 (F := F)) W (Proc.devRef .tc b) = W (Proc.devRef .tc b) := by
  refine after_of_forall_not_mem (b := Proc.devRef .tc b) _ _ (List.forall_iff_forall_mem.mp ?_)
  simp only [chunk1, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 3 operations writes holds, after them, what it held before. -/
theorem kept_chunk2 (W : Valuation τ sig (Elt F)) (b : Ref sig .tc)
    (hb : b ∉ ([main_call0_v0, main_call0_v1, main_v16] : List (Ref sig .tc))) :
    after (chunk2 (F := F)) W (Proc.devRef .tc b) = W (Proc.devRef .tc b) := by
  refine after_of_forall_not_mem (b := Proc.devRef .tc b) _ _ (List.forall_iff_forall_mem.mp ?_)
  simp only [chunk2, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 19 operations writes holds, after them, what it held before. -/
theorem kept_chunk3 (W : Valuation τ sig (Elt F)) (b : Ref sig .tc)
    (hb : b ∉ ([main_c, main_v17, main_v18, main_c_4, main_v19, main_v20, main_v21, main_v22, main_v23, main_c_5, main_v24, main_v25, main_c_6, main_v26, main_v27, main_v28, main_v29, main_v30, main_v31] : List (Ref sig .tc))) :
    after (chunk3 (F := F)) W (Proc.devRef .tc b) = W (Proc.devRef .tc b) := by
  refine after_of_forall_not_mem (b := Proc.devRef .tc b) _ _ (List.forall_iff_forall_mem.mp ?_)
  simp only [chunk3, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 24 operations writes holds, after them, what it held before. -/
theorem kept_chunk4 (W : Valuation τ sig (Elt F)) (b : Ref sig .tc)
    (hb : b ∉ ([main_v32, main_c_7, main_v33, main_v34, main_c_8, main_v35, main_v36, main_v37, main_v38, main_v39, main_v40, main_v41, main_v42, main_cst_9, main_v43, main_v44, main_v45, main_v46, main_v47, main_v48, main_call1_cst, main_call1_v0, main_v49, main_v50] : List (Ref sig .tc))) :
    after (chunk4 (F := F)) W (Proc.devRef .tc b) = W (Proc.devRef .tc b) := by
  refine after_of_forall_not_mem (b := Proc.devRef .tc b) _ _ (List.forall_iff_forall_mem.mp ?_)
  simp only [chunk4, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 23 operations writes holds, after them, what it held before. -/
theorem kept_chunk5 (W : Valuation τ sig (Elt F)) (b : Ref sig .tc)
    (hb : b ∉ ([main_c_10, main_v51, main_v52, main_c_11, main_v53, main_v54, main_v55, main_v56, main_v57, main_v58, main_v59, main_v60, main_cst_12, main_v61, main_v62, main_v63, main_v64, main_v65, main_v66, main_call2_cst, main_call2_v0, main_v67, main_v68] : List (Ref sig .tc))) :
    after (chunk5 (F := F)) W (Proc.devRef .tc b) = W (Proc.devRef .tc b) := by
  refine after_of_forall_not_mem (b := Proc.devRef .tc b) _ _ (List.forall_iff_forall_mem.mp ?_)
  simp only [chunk5, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 22 operations writes holds, after them, what it held before. -/
theorem kept_chunk6 (W : Valuation τ sig (Elt F)) (b : Ref sig .tc)
    (hb : b ∉ ([main_c_13, main_v69, main_v70, main_c_14, main_v71, main_v72, main_v73, main_v74, main_v75, main_v76, main_v77, main_v78, main_cst_15, main_v79, main_v80, main_v81, main_v82, main_v83, main_v84, main_call3_cst, main_call3_v0, main_v85] : List (Ref sig .tc))) :
    after (chunk6 (F := F)) W (Proc.devRef .tc b) = W (Proc.devRef .tc b) := by
  refine after_of_forall_not_mem (b := Proc.devRef .tc b) _ _ (List.forall_iff_forall_mem.mp ?_)
  simp only [chunk6, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 22 operations writes holds, after them, what it held before. -/
theorem kept_chunk7 (W : Valuation τ sig (Elt F)) (b : Ref sig .tc)
    (hb : b ∉ ([main_v86, main_v87, main_c_16, main_v88, main_v89, main_c_17, main_v90, main_v91, main_v92, main_v93, main_v94, main_v95, main_v96, main_c_18, main_v97, main_v98, main_c_19, main_v99, main_v100, main_v101, main_v102, main_v103] : List (Ref sig .tc))) :
    after (chunk7 (F := F)) W (Proc.devRef .tc b) = W (Proc.devRef .tc b) := by
  refine after_of_forall_not_mem (b := Proc.devRef .tc b) _ _ (List.forall_iff_forall_mem.mp ?_)
  simp only [chunk7, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 5 operations writes holds, after them, what it held before. -/
theorem kept_chunk8 (W : Valuation τ sig (Elt F)) (b : Ref sig .tc)
    (hb : b ∉ ([main_v104, main_v105, main_v106, main_v107, main_v108] : List (Ref sig .tc))) :
    after (chunk8 (F := F)) W (Proc.devRef .tc b) = W (Proc.devRef .tc b) := by
  refine after_of_forall_not_mem (b := Proc.devRef .tc b) _ _ (List.forall_iff_forall_mem.mp ?_)
  simp only [chunk8, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-- A buffer none of these 15 operations writes holds, after them, what it held before. -/
theorem kept_chunk9 (W : Valuation τ sig (Elt F)) (b : Ref sig .tc)
    (hb : b ∉ ([main_call4_cst, main_call4_v0, main_call4_cst_0, main_call4_v1, main_call4_v2, main_call4_v3, main_call4_v4, main_call4_v5, main_call4_v6, main_call4_cst_1, main_call4_v7, main_call4_v8, main_call4_v9, main_call4_v10, main_v109] : List (Ref sig .tc))) :
    after (chunk9 (F := F)) W (Proc.devRef .tc b) = W (Proc.devRef .tc b) := by
  refine after_of_forall_not_mem (b := Proc.devRef .tc b) _ _ (List.forall_iff_forall_mem.mp ?_)
  simp only [chunk9, List.Forall, nullary_writes, unary_writes, binary_writes, ternary_writes, quaternary_writes,
    reshape_writes, binaryIndexed_writes, nary_writes, Finset.mem_singleton]
  repeat' apply And.intro
  all_goals
    apply devRef_ne_of_ne
    intro e
    subst e
    exact hb (by simp)

/-! ## The outlined functions' operations in plain spelling -/

/-- Chunk 2 with its outlined function's operations written with the plain builders at their buffers. -/
abbrev chunk2p : List (HloOp τ sig (Elt F)) :=
  [ unary main_cst_3 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-! An outlined operation is the plain builder at its buffers, whatever function it carries. -/
theorem plain2_call0_v0 (f : (⟨S_, .f32⟩ : BufTy).Contents (Elt F) → (⟨S_, .f32⟩ : BufTy).Contents (Elt F)) :
    (TRef.unary (TRef.of (T := ⟨S_, .f32⟩) main_cst_3) (TRef.of (T := ⟨S_, .f32⟩) main_call0_v0) f : HloOp τ sig (Elt F)) = unary main_cst_3 main_call0_v0 f := rfl
theorem plain2_call0_v1 (f : (⟨S_, .f32⟩ : BufTy).Contents (Elt F) → (⟨S100000, .f32⟩ : BufTy).Contents (Elt F)) :
    (TRef.unary (TRef.of (T := ⟨S_, .f32⟩) main_call0_v0) (TRef.of (T := ⟨S100000, .f32⟩) main_call0_v1) f : HloOp τ sig (Elt F)) = unary main_call0_v0 main_call0_v1 f := rfl
theorem plain2_v16 (f : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) :
    (TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) f : HloOp τ sig (Elt F)) = ternary main_v12 main_v15 main_call0_v1 main_v16 f := rfl

/-- The two spellings are one list, entry by entry. -/
theorem chunk2_plain : (chunk2 : List (HloOp τ sig (Elt F))) = chunk2p :=
  congrArg₂ List.cons (plain2_call0_v0 _) (congrArg₂ List.cons (plain2_call0_v1 _) (congrArg₂ List.cons (plain2_v16 _) (rfl)))

/-- Chunk 4 with its outlined function's operations written with the plain builders at their buffers. -/
abbrev chunk4p : List (HloOp τ sig (Elt F)) :=
  [ binary main_arg0 main_arg3 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0x00000000#32) : (⟨S_, .f32⟩ : BufTy).Contents (Elt F)),
    unary main_call1_cst main_call1_v0 ((broadcastInDim S100000x64 ![] bcast_S_S100000x64) : (⟨S_, .f32⟩ : BufTy).Contents (Elt F) → (⟨S100000x64, .f32⟩ : BufTy).Contents (Elt F)),
    binary main_v48 main_call1_v0 main_v49 (maximumf : (⟨S100000x64, .f32⟩ : BufTy).Contents (Elt F) → (⟨S100000x64, .f32⟩ : BufTy).Contents (Elt F) → (⟨S100000x64, .f32⟩ : BufTy).Contents (Elt F)),
    binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-! An outlined operation is the plain builder at its buffers, whatever function it carries. -/
theorem plain4_call1_cst (f : (⟨S_, .f32⟩ : BufTy).Contents (Elt F)) :
    (TRef.nullary (TRef.of (T := ⟨S_, .f32⟩) main_call1_cst) f : HloOp τ sig (Elt F)) = nullary main_call1_cst f := rfl
theorem plain4_call1_v0 (f : (⟨S_, .f32⟩ : BufTy).Contents (Elt F) → (⟨S100000x64, .f32⟩ : BufTy).Contents (Elt F)) :
    (TRef.unary (TRef.of (T := ⟨S_, .f32⟩) main_call1_cst) (TRef.of (T := ⟨S100000x64, .f32⟩) main_call1_v0) f : HloOp τ sig (Elt F)) = unary main_call1_cst main_call1_v0 f := rfl
theorem plain4_v49 (f : (⟨S100000x64, .f32⟩ : BufTy).Contents (Elt F) → (⟨S100000x64, .f32⟩ : BufTy).Contents (Elt F) → (⟨S100000x64, .f32⟩ : BufTy).Contents (Elt F)) :
    (TRef.binary (TRef.of (T := ⟨S100000x64, .f32⟩) main_v48) (TRef.of (T := ⟨S100000x64, .f32⟩) main_call1_v0) (TRef.of (T := ⟨S100000x64, .f32⟩) main_v49) f : HloOp τ sig (Elt F)) = binary main_v48 main_call1_v0 main_v49 f := rfl

/-- The two spellings are one list, entry by entry. -/
theorem chunk4_plain : (chunk4 : List (HloOp τ sig (Elt F))) = chunk4p :=
  congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons (plain4_call1_cst _) (congrArg₂ List.cons (plain4_call1_v0 _) (congrArg₂ List.cons (plain4_v49 _) (congrArg₂ List.cons rfl (rfl))))))))))))))))))))))))

/-- Chunk 5 with its outlined function's operations written with the plain builders at their buffers. -/
abbrev chunk5p : List (HloOp τ sig (Elt F)) :=
  [ nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    nullary main_call2_cst ((constant S_ .f32 0x00000000#32) : (⟨S_, .f32⟩ : BufTy).Contents (Elt F)),
    unary main_call2_cst main_call2_v0 ((broadcastInDim S100000x64 ![] bcast_S_S100000x64) : (⟨S_, .f32⟩ : BufTy).Contents (Elt F) → (⟨S100000x64, .f32⟩ : BufTy).Contents (Elt F)),
    binary main_v66 main_call2_v0 main_v67 (maximumf : (⟨S100000x64, .f32⟩ : BufTy).Contents (Elt F) → (⟨S100000x64, .f32⟩ : BufTy).Contents (Elt F) → (⟨S100000x64, .f32⟩ : BufTy).Contents (Elt F)),
    binary main_v67 main_arg7 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-! An outlined operation is the plain builder at its buffers, whatever function it carries. -/
theorem plain5_call2_cst (f : (⟨S_, .f32⟩ : BufTy).Contents (Elt F)) :
    (TRef.nullary (TRef.of (T := ⟨S_, .f32⟩) main_call2_cst) f : HloOp τ sig (Elt F)) = nullary main_call2_cst f := rfl
theorem plain5_call2_v0 (f : (⟨S_, .f32⟩ : BufTy).Contents (Elt F) → (⟨S100000x64, .f32⟩ : BufTy).Contents (Elt F)) :
    (TRef.unary (TRef.of (T := ⟨S_, .f32⟩) main_call2_cst) (TRef.of (T := ⟨S100000x64, .f32⟩) main_call2_v0) f : HloOp τ sig (Elt F)) = unary main_call2_cst main_call2_v0 f := rfl
theorem plain5_v67 (f : (⟨S100000x64, .f32⟩ : BufTy).Contents (Elt F) → (⟨S100000x64, .f32⟩ : BufTy).Contents (Elt F) → (⟨S100000x64, .f32⟩ : BufTy).Contents (Elt F)) :
    (TRef.binary (TRef.of (T := ⟨S100000x64, .f32⟩) main_v66) (TRef.of (T := ⟨S100000x64, .f32⟩) main_call2_v0) (TRef.of (T := ⟨S100000x64, .f32⟩) main_v67) f : HloOp τ sig (Elt F)) = binary main_v66 main_call2_v0 main_v67 f := rfl

/-- The two spellings are one list, entry by entry. -/
theorem chunk5_plain : (chunk5 : List (HloOp τ sig (Elt F))) = chunk5p :=
  congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons (plain5_call2_cst _) (congrArg₂ List.cons (plain5_call2_v0 _) (congrArg₂ List.cons (plain5_v67 _) (congrArg₂ List.cons rfl (rfl)))))))))))))))))))))))

/-- Chunk 6 with its outlined function's operations written with the plain builders at their buffers. -/
abbrev chunk6p : List (HloOp τ sig (Elt F)) :=
  [ nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    nullary main_call3_cst ((constant S_ .f32 0x00000000#32) : (⟨S_, .f32⟩ : BufTy).Contents (Elt F)),
    unary main_call3_cst main_call3_v0 ((broadcastInDim S100000x64 ![] bcast_S_S100000x64) : (⟨S_, .f32⟩ : BufTy).Contents (Elt F) → (⟨S100000x64, .f32⟩ : BufTy).Contents (Elt F)),
    binary main_v84 main_call3_v0 main_v85 (maximumf : (⟨S100000x64, .f32⟩ : BufTy).Contents (Elt F) → (⟨S100000x64, .f32⟩ : BufTy).Contents (Elt F) → (⟨S100000x64, .f32⟩ : BufTy).Contents (Elt F)) ]

/-! An outlined operation is the plain builder at its buffers, whatever function it carries. -/
theorem plain6_call3_cst (f : (⟨S_, .f32⟩ : BufTy).Contents (Elt F)) :
    (TRef.nullary (TRef.of (T := ⟨S_, .f32⟩) main_call3_cst) f : HloOp τ sig (Elt F)) = nullary main_call3_cst f := rfl
theorem plain6_call3_v0 (f : (⟨S_, .f32⟩ : BufTy).Contents (Elt F) → (⟨S100000x64, .f32⟩ : BufTy).Contents (Elt F)) :
    (TRef.unary (TRef.of (T := ⟨S_, .f32⟩) main_call3_cst) (TRef.of (T := ⟨S100000x64, .f32⟩) main_call3_v0) f : HloOp τ sig (Elt F)) = unary main_call3_cst main_call3_v0 f := rfl
theorem plain6_v85 (f : (⟨S100000x64, .f32⟩ : BufTy).Contents (Elt F) → (⟨S100000x64, .f32⟩ : BufTy).Contents (Elt F) → (⟨S100000x64, .f32⟩ : BufTy).Contents (Elt F)) :
    (TRef.binary (TRef.of (T := ⟨S100000x64, .f32⟩) main_v84) (TRef.of (T := ⟨S100000x64, .f32⟩) main_call3_v0) (TRef.of (T := ⟨S100000x64, .f32⟩) main_v85) f : HloOp τ sig (Elt F)) = binary main_v84 main_call3_v0 main_v85 f := rfl

/-- The two spellings are one list, entry by entry. -/
theorem chunk6_plain : (chunk6 : List (HloOp τ sig (Elt F))) = chunk6p :=
  congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons (plain6_call3_cst _) (congrArg₂ List.cons (plain6_call3_v0 _) (congrArg₂ List.cons (plain6_v85 _) (rfl))))))))))))))))))))))

/-- Chunk 9 with its outlined function's operations written with the plain builders at their buffers. -/
abbrev chunk9p : List (HloOp τ sig (Elt F)) :=
  [ nullary main_call4_cst ((constant S_ .f32 0xFF800000#32) : (⟨S_, .f32⟩ : BufTy).Contents (Elt F)),
    binary main_v108 main_call4_cst main_call4_v0 ((fun x v => Host.reduce FloatOps.maximumf x v reducesTo_S1600000x15_S1600000_d1 h_S_) : (⟨S1600000x15, .f32⟩ : BufTy).Contents (Elt F) → (⟨S_, .f32⟩ : BufTy).Contents (Elt F) → (⟨S1600000, .f32⟩ : BufTy).Contents (Elt F)),
    nullary main_call4_cst_0 ((constant S_ .f32 0xFF800000#32) : (⟨S_, .f32⟩ : BufTy).Contents (Elt F)),
    unary main_call4_cst_0 main_call4_v1 ((broadcastInDim S1600000 ![] bcast_S_S1600000) : (⟨S_, .f32⟩ : BufTy).Contents (Elt F) → (⟨S1600000, .f32⟩ : BufTy).Contents (Elt F)),
    binary main_call4_v1 main_call4_v0 main_call4_v2 (maximumf : (⟨S1600000, .f32⟩ : BufTy).Contents (Elt F) → (⟨S1600000, .f32⟩ : BufTy).Contents (Elt F) → (⟨S1600000, .f32⟩ : BufTy).Contents (Elt F)),
    unary main_call4_v2 main_call4_v3 ((broadcastInDim S1600000x1 ![0] bcast_S1600000_S1600000x1_0) : (⟨S1600000, .f32⟩ : BufTy).Contents (Elt F) → (⟨S1600000x1, .f32⟩ : BufTy).Contents (Elt F)),
    unary main_call4_v3 main_call4_v4 ((broadcastInDim S1600000x15 ![0, 1] bcast_S1600000x1_S1600000x15_0_1) : (⟨S1600000x1, .f32⟩ : BufTy).Contents (Elt F) → (⟨S1600000x15, .f32⟩ : BufTy).Contents (Elt F)),
    binary main_v108 main_call4_v4 main_call4_v5 (subf : (⟨S1600000x15, .f32⟩ : BufTy).Contents (Elt F) → (⟨S1600000x15, .f32⟩ : BufTy).Contents (Elt F) → (⟨S1600000x15, .f32⟩ : BufTy).Contents (Elt F)),
    unary main_call4_v5 main_call4_v6 (Host.exp : (⟨S1600000x15, .f32⟩ : BufTy).Contents (Elt F) → (⟨S1600000x15, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S1600000x15_S1600000_d1 h_S_) : (⟨S1600000x15, .f32⟩ : BufTy).Contents (Elt F) → (⟨S_, .f32⟩ : BufTy).Contents (Elt F) → (⟨S1600000, .f32⟩ : BufTy).Contents (Elt F)),
    unary main_call4_v7 main_call4_v8 ((broadcastInDim S1600000x1 ![0] bcast_S1600000_S1600000x1_0) : (⟨S1600000, .f32⟩ : BufTy).Contents (Elt F) → (⟨S1600000x1, .f32⟩ : BufTy).Contents (Elt F)),
    unary main_call4_v8 main_call4_v9 (Host.log : (⟨S1600000x1, .f32⟩ : BufTy).Contents (Elt F) → (⟨S1600000x1, .f32⟩ : BufTy).Contents (Elt F)),
    unary main_call4_v9 main_call4_v10 ((broadcastInDim S1600000x15 ![0, 1] bcast_S1600000x1_S1600000x15_0_1) : (⟨S1600000x1, .f32⟩ : BufTy).Contents (Elt F) → (⟨S1600000x15, .f32⟩ : BufTy).Contents (Elt F)),
    binary main_call4_v5 main_call4_v10 main_v109 (subf : (⟨S1600000x15, .f32⟩ : BufTy).Contents (Elt F) → (⟨S1600000x15, .f32⟩ : BufTy).Contents (Elt F) → (⟨S1600000x15, .f32⟩ : BufTy).Contents (Elt F)) ]

/-! An outlined operation is the plain builder at its buffers, whatever function it carries. -/
theorem plain9_call4_cst (f : (⟨S_, .f32⟩ : BufTy).Contents (Elt F)) :
    (TRef.nullary (TRef.of (T := ⟨S_, .f32⟩) main_call4_cst) f : HloOp τ sig (Elt F)) = nullary main_call4_cst f := rfl
theorem plain9_call4_v0 (f : (⟨S1600000x15, .f32⟩ : BufTy).Contents (Elt F) → (⟨S_, .f32⟩ : BufTy).Contents (Elt F) → (⟨S1600000, .f32⟩ : BufTy).Contents (Elt F)) :
    (TRef.binary (TRef.of (T := ⟨S1600000x15, .f32⟩) main_v108) (TRef.of (T := ⟨S_, .f32⟩) main_call4_cst) (TRef.of (T := ⟨S1600000, .f32⟩) main_call4_v0) f : HloOp τ sig (Elt F)) = binary main_v108 main_call4_cst main_call4_v0 f := rfl
theorem plain9_call4_cst_0 (f : (⟨S_, .f32⟩ : BufTy).Contents (Elt F)) :
    (TRef.nullary (TRef.of (T := ⟨S_, .f32⟩) main_call4_cst_0) f : HloOp τ sig (Elt F)) = nullary main_call4_cst_0 f := rfl
theorem plain9_call4_v1 (f : (⟨S_, .f32⟩ : BufTy).Contents (Elt F) → (⟨S1600000, .f32⟩ : BufTy).Contents (Elt F)) :
    (TRef.unary (TRef.of (T := ⟨S_, .f32⟩) main_call4_cst_0) (TRef.of (T := ⟨S1600000, .f32⟩) main_call4_v1) f : HloOp τ sig (Elt F)) = unary main_call4_cst_0 main_call4_v1 f := rfl
theorem plain9_call4_v2 (f : (⟨S1600000, .f32⟩ : BufTy).Contents (Elt F) → (⟨S1600000, .f32⟩ : BufTy).Contents (Elt F) → (⟨S1600000, .f32⟩ : BufTy).Contents (Elt F)) :
    (TRef.binary (TRef.of (T := ⟨S1600000, .f32⟩) main_call4_v1) (TRef.of (T := ⟨S1600000, .f32⟩) main_call4_v0) (TRef.of (T := ⟨S1600000, .f32⟩) main_call4_v2) f : HloOp τ sig (Elt F)) = binary main_call4_v1 main_call4_v0 main_call4_v2 f := rfl
theorem plain9_call4_v3 (f : (⟨S1600000, .f32⟩ : BufTy).Contents (Elt F) → (⟨S1600000x1, .f32⟩ : BufTy).Contents (Elt F)) :
    (TRef.unary (TRef.of (T := ⟨S1600000, .f32⟩) main_call4_v2) (TRef.of (T := ⟨S1600000x1, .f32⟩) main_call4_v3) f : HloOp τ sig (Elt F)) = unary main_call4_v2 main_call4_v3 f := rfl
theorem plain9_call4_v4 (f : (⟨S1600000x1, .f32⟩ : BufTy).Contents (Elt F) → (⟨S1600000x15, .f32⟩ : BufTy).Contents (Elt F)) :
    (TRef.unary (TRef.of (T := ⟨S1600000x1, .f32⟩) main_call4_v3) (TRef.of (T := ⟨S1600000x15, .f32⟩) main_call4_v4) f : HloOp τ sig (Elt F)) = unary main_call4_v3 main_call4_v4 f := rfl
theorem plain9_call4_v5 (f : (⟨S1600000x15, .f32⟩ : BufTy).Contents (Elt F) → (⟨S1600000x15, .f32⟩ : BufTy).Contents (Elt F) → (⟨S1600000x15, .f32⟩ : BufTy).Contents (Elt F)) :
    (TRef.binary (TRef.of (T := ⟨S1600000x15, .f32⟩) main_v108) (TRef.of (T := ⟨S1600000x15, .f32⟩) main_call4_v4) (TRef.of (T := ⟨S1600000x15, .f32⟩) main_call4_v5) f : HloOp τ sig (Elt F)) = binary main_v108 main_call4_v4 main_call4_v5 f := rfl
theorem plain9_call4_v6 (f : (⟨S1600000x15, .f32⟩ : BufTy).Contents (Elt F) → (⟨S1600000x15, .f32⟩ : BufTy).Contents (Elt F)) :
    (TRef.unary (TRef.of (T := ⟨S1600000x15, .f32⟩) main_call4_v5) (TRef.of (T := ⟨S1600000x15, .f32⟩) main_call4_v6) f : HloOp τ sig (Elt F)) = unary main_call4_v5 main_call4_v6 f := rfl
theorem plain9_call4_cst_1 (f : (⟨S_, .f32⟩ : BufTy).Contents (Elt F)) :
    (TRef.nullary (TRef.of (T := ⟨S_, .f32⟩) main_call4_cst_1) f : HloOp τ sig (Elt F)) = nullary main_call4_cst_1 f := rfl
theorem plain9_call4_v7 (f : (⟨S1600000x15, .f32⟩ : BufTy).Contents (Elt F) → (⟨S_, .f32⟩ : BufTy).Contents (Elt F) → (⟨S1600000, .f32⟩ : BufTy).Contents (Elt F)) :
    (TRef.binary (TRef.of (T := ⟨S1600000x15, .f32⟩) main_call4_v6) (TRef.of (T := ⟨S_, .f32⟩) main_call4_cst_1) (TRef.of (T := ⟨S1600000, .f32⟩) main_call4_v7) f : HloOp τ sig (Elt F)) = binary main_call4_v6 main_call4_cst_1 main_call4_v7 f := rfl
theorem plain9_call4_v8 (f : (⟨S1600000, .f32⟩ : BufTy).Contents (Elt F) → (⟨S1600000x1, .f32⟩ : BufTy).Contents (Elt F)) :
    (TRef.unary (TRef.of (T := ⟨S1600000, .f32⟩) main_call4_v7) (TRef.of (T := ⟨S1600000x1, .f32⟩) main_call4_v8) f : HloOp τ sig (Elt F)) = unary main_call4_v7 main_call4_v8 f := rfl
theorem plain9_call4_v9 (f : (⟨S1600000x1, .f32⟩ : BufTy).Contents (Elt F) → (⟨S1600000x1, .f32⟩ : BufTy).Contents (Elt F)) :
    (TRef.unary (TRef.of (T := ⟨S1600000x1, .f32⟩) main_call4_v8) (TRef.of (T := ⟨S1600000x1, .f32⟩) main_call4_v9) f : HloOp τ sig (Elt F)) = unary main_call4_v8 main_call4_v9 f := rfl
theorem plain9_call4_v10 (f : (⟨S1600000x1, .f32⟩ : BufTy).Contents (Elt F) → (⟨S1600000x15, .f32⟩ : BufTy).Contents (Elt F)) :
    (TRef.unary (TRef.of (T := ⟨S1600000x1, .f32⟩) main_call4_v9) (TRef.of (T := ⟨S1600000x15, .f32⟩) main_call4_v10) f : HloOp τ sig (Elt F)) = unary main_call4_v9 main_call4_v10 f := rfl
theorem plain9_v109 (f : (⟨S1600000x15, .f32⟩ : BufTy).Contents (Elt F) → (⟨S1600000x15, .f32⟩ : BufTy).Contents (Elt F) → (⟨S1600000x15, .f32⟩ : BufTy).Contents (Elt F)) :
    (TRef.binary (TRef.of (T := ⟨S1600000x15, .f32⟩) main_call4_v5) (TRef.of (T := ⟨S1600000x15, .f32⟩) main_call4_v10) (TRef.of (T := ⟨S1600000x15, .f32⟩) main_v109) f : HloOp τ sig (Elt F)) = binary main_call4_v5 main_call4_v10 main_v109 f := rfl

/-- The two spellings are one list, entry by entry. -/
theorem chunk9_plain : (chunk9 : List (HloOp τ sig (Elt F))) = chunk9p :=
  congrArg₂ List.cons (plain9_call4_cst _) (congrArg₂ List.cons (plain9_call4_v0 _) (congrArg₂ List.cons (plain9_call4_cst_0 _) (congrArg₂ List.cons (plain9_call4_v1 _) (congrArg₂ List.cons (plain9_call4_v2 _) (congrArg₂ List.cons (plain9_call4_v3 _) (congrArg₂ List.cons (plain9_call4_v4 _) (congrArg₂ List.cons (plain9_call4_v5 _) (congrArg₂ List.cons (plain9_call4_v6 _) (congrArg₂ List.cons (plain9_call4_cst_1 _) (congrArg₂ List.cons (plain9_call4_v7 _) (congrArg₂ List.cons (plain9_call4_v8 _) (congrArg₂ List.cons (plain9_call4_v9 _) (congrArg₂ List.cons (plain9_call4_v10 _) (congrArg₂ List.cons (plain9_v109 _) (rfl)))))))))))))))

end Chunks

/-! ## Each chunk computes its stages from the stages before it -/

/-- Chunk 1 leaves stage v3 of the arguments in its buffer. -/
theorem stage_v3 (W : Valuation τ sig (Elt Ideal)) (x1 : (⟨S2x1600000, .i32⟩ : BufTy).Contents (Elt Ideal))
    (h1 : W (Proc.devRef .tc main_arg1) = x1) :
    after (chunk1 (F := Ideal)) W (Proc.devRef .tc main_v3) = val_main_v3 (F := Ideal) x1 := by
  simp only [chunk1]
  after_results
  rw [h1]
  rfl

/-- Chunk 1 leaves stage v6 of the arguments in its buffer. -/
theorem stage_v6 (W : Valuation τ sig (Elt Ideal)) (x1 : (⟨S2x1600000, .i32⟩ : BufTy).Contents (Elt Ideal))
    (h1 : W (Proc.devRef .tc main_arg1) = x1) :
    after (chunk1 (F := Ideal)) W (Proc.devRef .tc main_v6) = val_main_v6 (F := Ideal) x1 := by
  simp only [chunk1]
  after_results
  rw [h1]
  rfl

/-- Chunk 1 leaves stage v12 of the arguments in its buffer. -/
theorem stage_v12 (W : Valuation τ sig (Elt Ideal)) (x1 : (⟨S2x1600000, .i32⟩ : BufTy).Contents (Elt Ideal))
    (h1 : W (Proc.devRef .tc main_arg1) = x1) :
    after (chunk1 (F := Ideal)) W (Proc.devRef .tc main_v12) = val_main_v12 (F := Ideal) x1 := by
  simp only [chunk1]
  after_results
  rw [h1]
  rfl

/-- Chunk 1 leaves stage v15 of the arguments in its buffer. -/
theorem stage_v15 (W : Valuation τ sig (Elt Ideal)) (x1 : (⟨S2x1600000, .i32⟩ : BufTy).Contents (Elt Ideal))
    (h1 : W (Proc.devRef .tc main_arg1) = x1) :
    after (chunk1 (F := Ideal)) W (Proc.devRef .tc main_v15) = val_main_v15 (F := Ideal) x1 := by
  simp only [chunk1]
  after_results
  rw [h1]
  rfl

/-- Chunk 1 leaves stage cst_3 of the arguments in its buffer. -/
theorem stage_cst_3 (W : Valuation τ sig (Elt Ideal)) :
    after (chunk1 (F := Ideal)) W (Proc.devRef .tc main_cst_3) = val_main_cst_3 (F := Ideal) := by
  simp only [chunk1]
  after_results
  rfl

/-- Chunk 2 leaves stage v16 of the arguments in its buffer. -/
theorem stage_v16 (W : Valuation τ sig (Elt Ideal)) (x1 : (⟨S2x1600000, .i32⟩ : BufTy).Contents (Elt Ideal))
    (h_v12 : W (Proc.devRef .tc main_v12) = val_main_v12 (F := Ideal) x1)
    (h_v15 : W (Proc.devRef .tc main_v15) = val_main_v15 (F := Ideal) x1)
    (h_cst_3 : W (Proc.devRef .tc main_cst_3) = val_main_cst_3 (F := Ideal)) :
    after (chunk2 (F := Ideal)) W (Proc.devRef .tc main_v16) = val_main_v16 (F := Ideal) x1 := by
  rw [chunk2_plain]
  simp only [chunk2p]
  after_results_simp
  rw [h_v12, h_v15, h_cst_3]
  rfl

/-- Chunk 3 leaves stage v31 of the arguments in its buffer. -/
theorem stage_v31 (W : Valuation τ sig (Elt Ideal)) (x1 : (⟨S2x1600000, .i32⟩ : BufTy).Contents (Elt Ideal))
    (h_v16 : W (Proc.devRef .tc main_v16) = val_main_v16 (F := Ideal) x1)
    (h_v3 : W (Proc.devRef .tc main_v3) = val_main_v3 (F := Ideal) x1)
    (h_v6 : W (Proc.devRef .tc main_v6) = val_main_v6 (F := Ideal) x1) :
    after (chunk3 (F := Ideal)) W (Proc.devRef .tc main_v31) = val_main_v31 (F := Ideal) x1 := by
  simp only [chunk3]
  after_results_simp
  rw [h_v16, h_v3, h_v6]
  rfl

/-- Chunk 4 leaves stage v50 of the arguments in its buffer. -/
theorem stage_v50 (W : Valuation τ sig (Elt Ideal)) (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal))
    (h0 : W (Proc.devRef .tc main_arg0) = x0)
    (h3 : W (Proc.devRef .tc main_arg3) = x3)
    (h4 : W (Proc.devRef .tc main_arg4) = x4)
    (h5 : W (Proc.devRef .tc main_arg5) = x5)
    (h_v3 : W (Proc.devRef .tc main_v3) = val_main_v3 (F := Ideal) x1)
    (h_v6 : W (Proc.devRef .tc main_v6) = val_main_v6 (F := Ideal) x1)
    (h_v31 : W (Proc.devRef .tc main_v31) = val_main_v31 (F := Ideal) x1) :
    after (chunk4 (F := Ideal)) W (Proc.devRef .tc main_v50) = val_main_v50 (F := Ideal) x0 x1 x3 x4 x5 := by
  rw [chunk4_plain]
  simp only [chunk4p]
  after_results_simp
  rw [h0, h3, h4, h5, h_v3, h_v6, h_v31]
  rfl

/-- Chunk 5 leaves stage v68 of the arguments in its buffer. -/
theorem stage_v68 (W : Valuation τ sig (Elt Ideal)) (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (h6 : W (Proc.devRef .tc main_arg6) = x6)
    (h7 : W (Proc.devRef .tc main_arg7) = x7)
    (h_v50 : W (Proc.devRef .tc main_v50) = val_main_v50 (F := Ideal) x0 x1 x3 x4 x5)
    (h_v3 : W (Proc.devRef .tc main_v3) = val_main_v3 (F := Ideal) x1)
    (h_v6 : W (Proc.devRef .tc main_v6) = val_main_v6 (F := Ideal) x1)
    (h_v31 : W (Proc.devRef .tc main_v31) = val_main_v31 (F := Ideal) x1) :
    after (chunk5 (F := Ideal)) W (Proc.devRef .tc main_v68) = val_main_v68 (F := Ideal) x0 x1 x3 x4 x5 x6 x7 := by
  rw [chunk5_plain]
  simp only [chunk5p]
  after_results_simp
  rw [h6, h7, h_v50, h_v3, h_v6, h_v31]
  rfl

/-- Chunk 6 leaves stage v85 of the arguments in its buffer. -/
theorem stage_v85 (W : Valuation τ sig (Elt Ideal)) (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (h8 : W (Proc.devRef .tc main_arg8) = x8)
    (h_v68 : W (Proc.devRef .tc main_v68) = val_main_v68 (F := Ideal) x0 x1 x3 x4 x5 x6 x7)
    (h_v3 : W (Proc.devRef .tc main_v3) = val_main_v3 (F := Ideal) x1)
    (h_v6 : W (Proc.devRef .tc main_v6) = val_main_v6 (F := Ideal) x1)
    (h_v31 : W (Proc.devRef .tc main_v31) = val_main_v31 (F := Ideal) x1) :
    after (chunk6 (F := Ideal)) W (Proc.devRef .tc main_v85) = val_main_v85 (F := Ideal) x0 x1 x3 x4 x5 x6 x7 x8 := by
  rw [chunk6_plain]
  simp only [chunk6p]
  after_results_simp
  rw [h8, h_v68, h_v3, h_v6, h_v31]
  rfl

/-- Chunk 7 leaves stage v94 of the arguments in its buffer. -/
theorem stage_v94 (W : Valuation τ sig (Elt Ideal)) (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (h1 : W (Proc.devRef .tc main_arg1) = x1)
    (h_v85 : W (Proc.devRef .tc main_v85) = val_main_v85 (F := Ideal) x0 x1 x3 x4 x5 x6 x7 x8) :
    after (chunk7 (F := Ideal)) W (Proc.devRef .tc main_v94) = val_main_v94 (F := Ideal) x0 x1 x3 x4 x5 x6 x7 x8 := by
  simp only [chunk7]
  after_results_simp
  rw [h1, h_v85]
  rfl

/-- Chunk 7 leaves stage v103 of the arguments in its buffer. -/
theorem stage_v103 (W : Valuation τ sig (Elt Ideal)) (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (h1 : W (Proc.devRef .tc main_arg1) = x1)
    (h_v85 : W (Proc.devRef .tc main_v85) = val_main_v85 (F := Ideal) x0 x1 x3 x4 x5 x6 x7 x8) :
    after (chunk7 (F := Ideal)) W (Proc.devRef .tc main_v103) = val_main_v103 (F := Ideal) x0 x1 x3 x4 x5 x6 x7 x8 := by
  simp only [chunk7]
  after_results_simp
  rw [h1, h_v85]
  rfl

/-- Chunk 8 leaves stage v108 of the arguments in its buffer. -/
theorem stage_v108 (W : Valuation τ sig (Elt Ideal)) (x0 : (⟨S100000x64, .f32⟩ : BufTy).Contents (Elt Ideal)) (x1 : (⟨S2x1600000, .i32⟩ : BufTy).Contents (Elt Ideal)) (x2 : (⟨S1600000x16, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S144x15, .f32⟩ : BufTy).Contents (Elt Ideal)) (x10 : (⟨S15, .f32⟩ : BufTy).Contents (Elt Ideal))
    (h2 : W (Proc.devRef .tc main_arg2) = x2)
    (h9 : W (Proc.devRef .tc main_arg9) = x9)
    (h10 : W (Proc.devRef .tc main_arg10) = x10)
    (h_v94 : W (Proc.devRef .tc main_v94) = val_main_v94 (F := Ideal) x0 x1 x3 x4 x5 x6 x7 x8)
    (h_v103 : W (Proc.devRef .tc main_v103) = val_main_v103 (F := Ideal) x0 x1 x3 x4 x5 x6 x7 x8) :
    after (chunk8 (F := Ideal)) W (Proc.devRef .tc main_v108) = val_main_v108 (F := Ideal) x0 x1 x2 x3 x4 x5 x6 x7 x8 x9 x10 := by
  simp only [chunk8]
  after_results
  simp only [val_main_v108, val_main_v107, val_main_v106, val_main_v105, val_main_v104]
  rw [← h_v94, ← h_v103, ← h2, ← h9, ← h10]
  rfl

/-- Chunk 9 leaves stage v109 of the arguments in its buffer. -/
theorem stage_v109 (W : Valuation τ sig (Elt Ideal)) (x0 : (⟨S100000x64, .f32⟩ : BufTy).Contents (Elt Ideal)) (x1 : (⟨S2x1600000, .i32⟩ : BufTy).Contents (Elt Ideal)) (x2 : (⟨S1600000x16, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S144x15, .f32⟩ : BufTy).Contents (Elt Ideal)) (x10 : (⟨S15, .f32⟩ : BufTy).Contents (Elt Ideal))
    (h_v108 : W (Proc.devRef .tc main_v108) = val_main_v108 (F := Ideal) x0 x1 x2 x3 x4 x5 x6 x7 x8 x9 x10) :
    after (chunk9 (F := Ideal)) W (Proc.devRef .tc main_v109) = val_main_v109 (F := Ideal) x0 x1 x2 x3 x4 x5 x6 x7 x8 x9 x10 := by
  rw [chunk9_plain]
  simp only [chunk9p]
  after_results_simp
  rw [h_v108]
  rfl

/-! ## The contents after each chunk -/

variable (m : (ℓ : Loc nD τ sig) → Buf (Elt Ideal) ℓ) (c : Dev nD)

/-- The contents at launch, and after each chunk. -/
abbrev Wk0 : Valuation τ sig (Elt Ideal) := launchContents m c
abbrev Wk1 : Valuation τ sig (Elt Ideal) := after (chunk1 (F := Ideal)) (Wk0 m c)
abbrev Wk2 : Valuation τ sig (Elt Ideal) := after (chunk2 (F := Ideal)) (Wk1 m c)
abbrev Wk3 : Valuation τ sig (Elt Ideal) := after (chunk3 (F := Ideal)) (Wk2 m c)
abbrev Wk4 : Valuation τ sig (Elt Ideal) := after (chunk4 (F := Ideal)) (Wk3 m c)
abbrev Wk5 : Valuation τ sig (Elt Ideal) := after (chunk5 (F := Ideal)) (Wk4 m c)
abbrev Wk6 : Valuation τ sig (Elt Ideal) := after (chunk6 (F := Ideal)) (Wk5 m c)
abbrev Wk7 : Valuation τ sig (Elt Ideal) := after (chunk7 (F := Ideal)) (Wk6 m c)
abbrev Wk8 : Valuation τ sig (Elt Ideal) := after (chunk8 (F := Ideal)) (Wk7 m c)
abbrev Wk9 : Valuation τ sig (Elt Ideal) := after (chunk9 (F := Ideal)) (Wk8 m c)

theorem at0_arg0 : Wk0 m c (Proc.devRef .tc main_arg0) = m ((c.tc : Thread nD τ).loc main_arg0) := rfl
theorem at0_arg1 : Wk0 m c (Proc.devRef .tc main_arg1) = m ((c.tc : Thread nD τ).loc main_arg1) := rfl
theorem at0_arg10 : Wk0 m c (Proc.devRef .tc main_arg10) = m ((c.tc : Thread nD τ).loc main_arg10) := rfl
theorem at0_arg2 : Wk0 m c (Proc.devRef .tc main_arg2) = m ((c.tc : Thread nD τ).loc main_arg2) := rfl
theorem at0_arg3 : Wk0 m c (Proc.devRef .tc main_arg3) = m ((c.tc : Thread nD τ).loc main_arg3) := rfl
theorem at0_arg4 : Wk0 m c (Proc.devRef .tc main_arg4) = m ((c.tc : Thread nD τ).loc main_arg4) := rfl
theorem at0_arg5 : Wk0 m c (Proc.devRef .tc main_arg5) = m ((c.tc : Thread nD τ).loc main_arg5) := rfl
theorem at0_arg6 : Wk0 m c (Proc.devRef .tc main_arg6) = m ((c.tc : Thread nD τ).loc main_arg6) := rfl
theorem at0_arg7 : Wk0 m c (Proc.devRef .tc main_arg7) = m ((c.tc : Thread nD τ).loc main_arg7) := rfl
theorem at0_arg8 : Wk0 m c (Proc.devRef .tc main_arg8) = m ((c.tc : Thread nD τ).loc main_arg8) := rfl
theorem at0_arg9 : Wk0 m c (Proc.devRef .tc main_arg9) = m ((c.tc : Thread nD τ).loc main_arg9) := rfl

theorem at1_arg0 : Wk1 m c (Proc.devRef .tc main_arg0) = m ((c.tc : Thread nD τ).loc main_arg0) :=
  (kept_chunk1 (F := Ideal) _ main_arg0 (by decide)).trans (at0_arg0 m c)
theorem at1_arg1 : Wk1 m c (Proc.devRef .tc main_arg1) = m ((c.tc : Thread nD τ).loc main_arg1) :=
  (kept_chunk1 (F := Ideal) _ main_arg1 (by decide)).trans (at0_arg1 m c)
theorem at1_arg10 : Wk1 m c (Proc.devRef .tc main_arg10) = m ((c.tc : Thread nD τ).loc main_arg10) :=
  (kept_chunk1 (F := Ideal) _ main_arg10 (by decide)).trans (at0_arg10 m c)
theorem at1_arg2 : Wk1 m c (Proc.devRef .tc main_arg2) = m ((c.tc : Thread nD τ).loc main_arg2) :=
  (kept_chunk1 (F := Ideal) _ main_arg2 (by decide)).trans (at0_arg2 m c)
theorem at1_arg3 : Wk1 m c (Proc.devRef .tc main_arg3) = m ((c.tc : Thread nD τ).loc main_arg3) :=
  (kept_chunk1 (F := Ideal) _ main_arg3 (by decide)).trans (at0_arg3 m c)
theorem at1_arg4 : Wk1 m c (Proc.devRef .tc main_arg4) = m ((c.tc : Thread nD τ).loc main_arg4) :=
  (kept_chunk1 (F := Ideal) _ main_arg4 (by decide)).trans (at0_arg4 m c)
theorem at1_arg5 : Wk1 m c (Proc.devRef .tc main_arg5) = m ((c.tc : Thread nD τ).loc main_arg5) :=
  (kept_chunk1 (F := Ideal) _ main_arg5 (by decide)).trans (at0_arg5 m c)
theorem at1_arg6 : Wk1 m c (Proc.devRef .tc main_arg6) = m ((c.tc : Thread nD τ).loc main_arg6) :=
  (kept_chunk1 (F := Ideal) _ main_arg6 (by decide)).trans (at0_arg6 m c)
theorem at1_arg7 : Wk1 m c (Proc.devRef .tc main_arg7) = m ((c.tc : Thread nD τ).loc main_arg7) :=
  (kept_chunk1 (F := Ideal) _ main_arg7 (by decide)).trans (at0_arg7 m c)
theorem at1_arg8 : Wk1 m c (Proc.devRef .tc main_arg8) = m ((c.tc : Thread nD τ).loc main_arg8) :=
  (kept_chunk1 (F := Ideal) _ main_arg8 (by decide)).trans (at0_arg8 m c)
theorem at1_arg9 : Wk1 m c (Proc.devRef .tc main_arg9) = m ((c.tc : Thread nD τ).loc main_arg9) :=
  (kept_chunk1 (F := Ideal) _ main_arg9 (by decide)).trans (at0_arg9 m c)
theorem at1_cst_3 : Wk1 m c (Proc.devRef .tc main_cst_3) = val_main_cst_3 (F := Ideal) :=
  stage_cst_3 (Wk0 m c)
theorem at1_v12 : Wk1 m c (Proc.devRef .tc main_v12) = val_main_v12 (F := Ideal) (m ((c.tc : Thread nD τ).loc main_arg1)) :=
  stage_v12 (Wk0 m c) _ (at0_arg1 m c)
theorem at1_v15 : Wk1 m c (Proc.devRef .tc main_v15) = val_main_v15 (F := Ideal) (m ((c.tc : Thread nD τ).loc main_arg1)) :=
  stage_v15 (Wk0 m c) _ (at0_arg1 m c)
theorem at1_v3 : Wk1 m c (Proc.devRef .tc main_v3) = val_main_v3 (F := Ideal) (m ((c.tc : Thread nD τ).loc main_arg1)) :=
  stage_v3 (Wk0 m c) _ (at0_arg1 m c)
theorem at1_v6 : Wk1 m c (Proc.devRef .tc main_v6) = val_main_v6 (F := Ideal) (m ((c.tc : Thread nD τ).loc main_arg1)) :=
  stage_v6 (Wk0 m c) _ (at0_arg1 m c)

theorem at2_arg0 : Wk2 m c (Proc.devRef .tc main_arg0) = m ((c.tc : Thread nD τ).loc main_arg0) :=
  (kept_chunk2 (F := Ideal) _ main_arg0 (by decide)).trans (at1_arg0 m c)
theorem at2_arg1 : Wk2 m c (Proc.devRef .tc main_arg1) = m ((c.tc : Thread nD τ).loc main_arg1) :=
  (kept_chunk2 (F := Ideal) _ main_arg1 (by decide)).trans (at1_arg1 m c)
theorem at2_arg10 : Wk2 m c (Proc.devRef .tc main_arg10) = m ((c.tc : Thread nD τ).loc main_arg10) :=
  (kept_chunk2 (F := Ideal) _ main_arg10 (by decide)).trans (at1_arg10 m c)
theorem at2_arg2 : Wk2 m c (Proc.devRef .tc main_arg2) = m ((c.tc : Thread nD τ).loc main_arg2) :=
  (kept_chunk2 (F := Ideal) _ main_arg2 (by decide)).trans (at1_arg2 m c)
theorem at2_arg3 : Wk2 m c (Proc.devRef .tc main_arg3) = m ((c.tc : Thread nD τ).loc main_arg3) :=
  (kept_chunk2 (F := Ideal) _ main_arg3 (by decide)).trans (at1_arg3 m c)
theorem at2_arg4 : Wk2 m c (Proc.devRef .tc main_arg4) = m ((c.tc : Thread nD τ).loc main_arg4) :=
  (kept_chunk2 (F := Ideal) _ main_arg4 (by decide)).trans (at1_arg4 m c)
theorem at2_arg5 : Wk2 m c (Proc.devRef .tc main_arg5) = m ((c.tc : Thread nD τ).loc main_arg5) :=
  (kept_chunk2 (F := Ideal) _ main_arg5 (by decide)).trans (at1_arg5 m c)
theorem at2_arg6 : Wk2 m c (Proc.devRef .tc main_arg6) = m ((c.tc : Thread nD τ).loc main_arg6) :=
  (kept_chunk2 (F := Ideal) _ main_arg6 (by decide)).trans (at1_arg6 m c)
theorem at2_arg7 : Wk2 m c (Proc.devRef .tc main_arg7) = m ((c.tc : Thread nD τ).loc main_arg7) :=
  (kept_chunk2 (F := Ideal) _ main_arg7 (by decide)).trans (at1_arg7 m c)
theorem at2_arg8 : Wk2 m c (Proc.devRef .tc main_arg8) = m ((c.tc : Thread nD τ).loc main_arg8) :=
  (kept_chunk2 (F := Ideal) _ main_arg8 (by decide)).trans (at1_arg8 m c)
theorem at2_arg9 : Wk2 m c (Proc.devRef .tc main_arg9) = m ((c.tc : Thread nD τ).loc main_arg9) :=
  (kept_chunk2 (F := Ideal) _ main_arg9 (by decide)).trans (at1_arg9 m c)
theorem at2_v16 : Wk2 m c (Proc.devRef .tc main_v16) = val_main_v16 (F := Ideal) (m ((c.tc : Thread nD τ).loc main_arg1)) :=
  stage_v16 (Wk1 m c) _ (at1_v12 m c) (at1_v15 m c) (at1_cst_3 m c)
theorem at2_v3 : Wk2 m c (Proc.devRef .tc main_v3) = val_main_v3 (F := Ideal) (m ((c.tc : Thread nD τ).loc main_arg1)) :=
  (kept_chunk2 (F := Ideal) _ main_v3 (by decide)).trans (at1_v3 m c)
theorem at2_v6 : Wk2 m c (Proc.devRef .tc main_v6) = val_main_v6 (F := Ideal) (m ((c.tc : Thread nD τ).loc main_arg1)) :=
  (kept_chunk2 (F := Ideal) _ main_v6 (by decide)).trans (at1_v6 m c)

theorem at3_arg0 : Wk3 m c (Proc.devRef .tc main_arg0) = m ((c.tc : Thread nD τ).loc main_arg0) :=
  (kept_chunk3 (F := Ideal) _ main_arg0 (by decide)).trans (at2_arg0 m c)
theorem at3_arg1 : Wk3 m c (Proc.devRef .tc main_arg1) = m ((c.tc : Thread nD τ).loc main_arg1) :=
  (kept_chunk3 (F := Ideal) _ main_arg1 (by decide)).trans (at2_arg1 m c)
theorem at3_arg10 : Wk3 m c (Proc.devRef .tc main_arg10) = m ((c.tc : Thread nD τ).loc main_arg10) :=
  (kept_chunk3 (F := Ideal) _ main_arg10 (by decide)).trans (at2_arg10 m c)
theorem at3_arg2 : Wk3 m c (Proc.devRef .tc main_arg2) = m ((c.tc : Thread nD τ).loc main_arg2) :=
  (kept_chunk3 (F := Ideal) _ main_arg2 (by decide)).trans (at2_arg2 m c)
theorem at3_arg3 : Wk3 m c (Proc.devRef .tc main_arg3) = m ((c.tc : Thread nD τ).loc main_arg3) :=
  (kept_chunk3 (F := Ideal) _ main_arg3 (by decide)).trans (at2_arg3 m c)
theorem at3_arg4 : Wk3 m c (Proc.devRef .tc main_arg4) = m ((c.tc : Thread nD τ).loc main_arg4) :=
  (kept_chunk3 (F := Ideal) _ main_arg4 (by decide)).trans (at2_arg4 m c)
theorem at3_arg5 : Wk3 m c (Proc.devRef .tc main_arg5) = m ((c.tc : Thread nD τ).loc main_arg5) :=
  (kept_chunk3 (F := Ideal) _ main_arg5 (by decide)).trans (at2_arg5 m c)
theorem at3_arg6 : Wk3 m c (Proc.devRef .tc main_arg6) = m ((c.tc : Thread nD τ).loc main_arg6) :=
  (kept_chunk3 (F := Ideal) _ main_arg6 (by decide)).trans (at2_arg6 m c)
theorem at3_arg7 : Wk3 m c (Proc.devRef .tc main_arg7) = m ((c.tc : Thread nD τ).loc main_arg7) :=
  (kept_chunk3 (F := Ideal) _ main_arg7 (by decide)).trans (at2_arg7 m c)
theorem at3_arg8 : Wk3 m c (Proc.devRef .tc main_arg8) = m ((c.tc : Thread nD τ).loc main_arg8) :=
  (kept_chunk3 (F := Ideal) _ main_arg8 (by decide)).trans (at2_arg8 m c)
theorem at3_arg9 : Wk3 m c (Proc.devRef .tc main_arg9) = m ((c.tc : Thread nD τ).loc main_arg9) :=
  (kept_chunk3 (F := Ideal) _ main_arg9 (by decide)).trans (at2_arg9 m c)
theorem at3_v3 : Wk3 m c (Proc.devRef .tc main_v3) = val_main_v3 (F := Ideal) (m ((c.tc : Thread nD τ).loc main_arg1)) :=
  (kept_chunk3 (F := Ideal) _ main_v3 (by decide)).trans (at2_v3 m c)
theorem at3_v31 : Wk3 m c (Proc.devRef .tc main_v31) = val_main_v31 (F := Ideal) (m ((c.tc : Thread nD τ).loc main_arg1)) :=
  stage_v31 (Wk2 m c) _ (at2_v16 m c) (at2_v3 m c) (at2_v6 m c)
theorem at3_v6 : Wk3 m c (Proc.devRef .tc main_v6) = val_main_v6 (F := Ideal) (m ((c.tc : Thread nD τ).loc main_arg1)) :=
  (kept_chunk3 (F := Ideal) _ main_v6 (by decide)).trans (at2_v6 m c)

theorem at4_arg1 : Wk4 m c (Proc.devRef .tc main_arg1) = m ((c.tc : Thread nD τ).loc main_arg1) :=
  (kept_chunk4 (F := Ideal) _ main_arg1 (by decide)).trans (at3_arg1 m c)
theorem at4_arg10 : Wk4 m c (Proc.devRef .tc main_arg10) = m ((c.tc : Thread nD τ).loc main_arg10) :=
  (kept_chunk4 (F := Ideal) _ main_arg10 (by decide)).trans (at3_arg10 m c)
theorem at4_arg2 : Wk4 m c (Proc.devRef .tc main_arg2) = m ((c.tc : Thread nD τ).loc main_arg2) :=
  (kept_chunk4 (F := Ideal) _ main_arg2 (by decide)).trans (at3_arg2 m c)
theorem at4_arg6 : Wk4 m c (Proc.devRef .tc main_arg6) = m ((c.tc : Thread nD τ).loc main_arg6) :=
  (kept_chunk4 (F := Ideal) _ main_arg6 (by decide)).trans (at3_arg6 m c)
theorem at4_arg7 : Wk4 m c (Proc.devRef .tc main_arg7) = m ((c.tc : Thread nD τ).loc main_arg7) :=
  (kept_chunk4 (F := Ideal) _ main_arg7 (by decide)).trans (at3_arg7 m c)
theorem at4_arg8 : Wk4 m c (Proc.devRef .tc main_arg8) = m ((c.tc : Thread nD τ).loc main_arg8) :=
  (kept_chunk4 (F := Ideal) _ main_arg8 (by decide)).trans (at3_arg8 m c)
theorem at4_arg9 : Wk4 m c (Proc.devRef .tc main_arg9) = m ((c.tc : Thread nD τ).loc main_arg9) :=
  (kept_chunk4 (F := Ideal) _ main_arg9 (by decide)).trans (at3_arg9 m c)
theorem at4_v3 : Wk4 m c (Proc.devRef .tc main_v3) = val_main_v3 (F := Ideal) (m ((c.tc : Thread nD τ).loc main_arg1)) :=
  (kept_chunk4 (F := Ideal) _ main_v3 (by decide)).trans (at3_v3 m c)
theorem at4_v31 : Wk4 m c (Proc.devRef .tc main_v31) = val_main_v31 (F := Ideal) (m ((c.tc : Thread nD τ).loc main_arg1)) :=
  (kept_chunk4 (F := Ideal) _ main_v31 (by decide)).trans (at3_v31 m c)
theorem at4_v50 : Wk4 m c (Proc.devRef .tc main_v50) = val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  stage_v50 (Wk3 m c) _ _ _ _ _ (at3_arg0 m c) (at3_arg3 m c) (at3_arg4 m c) (at3_arg5 m c) (at3_v3 m c) (at3_v6 m c) (at3_v31 m c)
theorem at4_v6 : Wk4 m c (Proc.devRef .tc main_v6) = val_main_v6 (F := Ideal) (m ((c.tc : Thread nD τ).loc main_arg1)) :=
  (kept_chunk4 (F := Ideal) _ main_v6 (by decide)).trans (at3_v6 m c)

theorem at5_arg1 : Wk5 m c (Proc.devRef .tc main_arg1) = m ((c.tc : Thread nD τ).loc main_arg1) :=
  (kept_chunk5 (F := Ideal) _ main_arg1 (by decide)).trans (at4_arg1 m c)
theorem at5_arg10 : Wk5 m c (Proc.devRef .tc main_arg10) = m ((c.tc : Thread nD τ).loc main_arg10) :=
  (kept_chunk5 (F := Ideal) _ main_arg10 (by decide)).trans (at4_arg10 m c)
theorem at5_arg2 : Wk5 m c (Proc.devRef .tc main_arg2) = m ((c.tc : Thread nD τ).loc main_arg2) :=
  (kept_chunk5 (F := Ideal) _ main_arg2 (by decide)).trans (at4_arg2 m c)
theorem at5_arg8 : Wk5 m c (Proc.devRef .tc main_arg8) = m ((c.tc : Thread nD τ).loc main_arg8) :=
  (kept_chunk5 (F := Ideal) _ main_arg8 (by decide)).trans (at4_arg8 m c)
theorem at5_arg9 : Wk5 m c (Proc.devRef .tc main_arg9) = m ((c.tc : Thread nD τ).loc main_arg9) :=
  (kept_chunk5 (F := Ideal) _ main_arg9 (by decide)).trans (at4_arg9 m c)
theorem at5_v3 : Wk5 m c (Proc.devRef .tc main_v3) = val_main_v3 (F := Ideal) (m ((c.tc : Thread nD τ).loc main_arg1)) :=
  (kept_chunk5 (F := Ideal) _ main_v3 (by decide)).trans (at4_v3 m c)
theorem at5_v31 : Wk5 m c (Proc.devRef .tc main_v31) = val_main_v31 (F := Ideal) (m ((c.tc : Thread nD τ).loc main_arg1)) :=
  (kept_chunk5 (F := Ideal) _ main_v31 (by decide)).trans (at4_v31 m c)
theorem at5_v6 : Wk5 m c (Proc.devRef .tc main_v6) = val_main_v6 (F := Ideal) (m ((c.tc : Thread nD τ).loc main_arg1)) :=
  (kept_chunk5 (F := Ideal) _ main_v6 (by decide)).trans (at4_v6 m c)
theorem at5_v68 : Wk5 m c (Proc.devRef .tc main_v68) = val_main_v68 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stage_v68 (Wk4 m c) _ _ _ _ _ _ _ (at4_arg6 m c) (at4_arg7 m c) (at4_v50 m c) (at4_v3 m c) (at4_v6 m c) (at4_v31 m c)

theorem at6_arg1 : Wk6 m c (Proc.devRef .tc main_arg1) = m ((c.tc : Thread nD τ).loc main_arg1) :=
  (kept_chunk6 (F := Ideal) _ main_arg1 (by decide)).trans (at5_arg1 m c)
theorem at6_arg10 : Wk6 m c (Proc.devRef .tc main_arg10) = m ((c.tc : Thread nD τ).loc main_arg10) :=
  (kept_chunk6 (F := Ideal) _ main_arg10 (by decide)).trans (at5_arg10 m c)
theorem at6_arg2 : Wk6 m c (Proc.devRef .tc main_arg2) = m ((c.tc : Thread nD τ).loc main_arg2) :=
  (kept_chunk6 (F := Ideal) _ main_arg2 (by decide)).trans (at5_arg2 m c)
theorem at6_arg9 : Wk6 m c (Proc.devRef .tc main_arg9) = m ((c.tc : Thread nD τ).loc main_arg9) :=
  (kept_chunk6 (F := Ideal) _ main_arg9 (by decide)).trans (at5_arg9 m c)
theorem at6_v85 : Wk6 m c (Proc.devRef .tc main_v85) = val_main_v85 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  stage_v85 (Wk5 m c) _ _ _ _ _ _ _ _ (at5_arg8 m c) (at5_v68 m c) (at5_v3 m c) (at5_v6 m c) (at5_v31 m c)

theorem at7_arg10 : Wk7 m c (Proc.devRef .tc main_arg10) = m ((c.tc : Thread nD τ).loc main_arg10) :=
  (kept_chunk7 (F := Ideal) _ main_arg10 (by decide)).trans (at6_arg10 m c)
theorem at7_arg2 : Wk7 m c (Proc.devRef .tc main_arg2) = m ((c.tc : Thread nD τ).loc main_arg2) :=
  (kept_chunk7 (F := Ideal) _ main_arg2 (by decide)).trans (at6_arg2 m c)
theorem at7_arg9 : Wk7 m c (Proc.devRef .tc main_arg9) = m ((c.tc : Thread nD τ).loc main_arg9) :=
  (kept_chunk7 (F := Ideal) _ main_arg9 (by decide)).trans (at6_arg9 m c)
theorem at7_v103 : Wk7 m c (Proc.devRef .tc main_v103) = val_main_v103 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  stage_v103 (Wk6 m c) _ _ _ _ _ _ _ _ (at6_arg1 m c) (at6_v85 m c)
theorem at7_v94 : Wk7 m c (Proc.devRef .tc main_v94) = val_main_v94 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  stage_v94 (Wk6 m c) _ _ _ _ _ _ _ _ (at6_arg1 m c) (at6_v85 m c)

theorem at8_v108 : Wk8 m c (Proc.devRef .tc main_v108) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  stage_v108 (Wk7 m c) _ _ _ _ _ _ _ _ _ _ _ (at7_arg2 m c) (at7_arg9 m c) (at7_arg10 m c) (at7_v94 m c) (at7_v103 m c)

theorem at9_v109 : Wk9 m c (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  stage_v109 (Wk8 m c) _ _ _ _ _ _ _ _ _ _ _ (at8_v108 m c)

/-! ## The whole line -/

/-- An argument array is written by no operation. -/
theorem arg_kept (b : Ref sig .tc) (hb : b ∈ ([main_arg0, main_arg1, main_arg2, main_arg3, main_arg4, main_arg5, main_arg6, main_arg7,
      main_arg8, main_arg9, main_arg10] : List (Ref sig .tc))) (W : Valuation τ sig (Elt Ideal)) :
    after (ops (F := Ideal)) W (Proc.devRef .tc b) = W (Proc.devRef .tc b) := by
  rw [ops_chunks, after_append, after_append, after_append, after_append, after_append, after_append, after_append, after_append]
  simp only [List.mem_cons, List.not_mem_nil, or_false] at hb
  rcases hb with rfl | rfl | rfl | rfl | rfl | rfl | rfl | rfl | rfl | rfl | rfl <;>
  exact (kept_chunk9 _ _ (by decide)).trans ((kept_chunk8 _ _ (by decide)).trans ((kept_chunk7 _ _ (by decide)).trans ((kept_chunk6 _ _ (by decide)).trans ((kept_chunk5 _ _ (by decide)).trans ((kept_chunk4 _ _ (by decide)).trans ((kept_chunk3 _ _ (by decide)).trans ((kept_chunk2 _ _ (by decide)).trans (kept_chunk1 _ _ (by decide)))))))))

/-- The result buffer ends at the last stage of the launch contents of the arguments. -/
theorem result : after (ops (F := Ideal)) (launchContents m c) (Proc.devRef .tc main_v109)
    = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_chunks, after_append, after_append, after_append, after_append, after_append, after_append, after_append, after_append]
  exact at9_v109 m c

/-- Every weakly fair execution of the reference's @main terminates with the result buffer at the last stage of the arguments'
    launch contents, and every argument array unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v109).trans (result m c),
      (h c main_arg0).trans (arg_kept main_arg0 (by simp) _),
      (h c main_arg1).trans (arg_kept main_arg1 (by simp) _),
      (h c main_arg2).trans (arg_kept main_arg2 (by simp) _),
      (h c main_arg3).trans (arg_kept main_arg3 (by simp) _),
      (h c main_arg4).trans (arg_kept main_arg4 (by simp) _),
      (h c main_arg5).trans (arg_kept main_arg5 (by simp) _),
      (h c main_arg6).trans (arg_kept main_arg6 (by simp) _),
      (h c main_arg7).trans (arg_kept main_arg7 (by simp) _),
      (h c main_arg8).trans (arg_kept main_arg8 (by simp) _),
      (h c main_arg9).trans (arg_kept main_arg9 (by simp) _),
      (h c main_arg10).trans (arg_kept main_arg10 (by simp) _)⟩)
    (run_seq scopedRefs_eq scopedSems_eq defs main (fun _ => ops) main_eq (fun _ => ops_sub) m ρ)

end Cert.ReferenceIdeal.Whole

end
-- ==== Proof.KRun.lean ====
/-
  The kernel program's run with its memory named at the end.

  @main is twelve segments: stretches of host operations and five kernel regions. The contents of every buffer at each
  segment boundary form a chain from the launch memory: a stretch applies its operations to what it finds, a region
  replaces each of its arrays by what its grid points write back and leaves every other buffer alone. The last link of the
  chain is the memory every weakly fair execution ends in — on every buffer that outlives the kernel bodies. From that one
  fact both the result array and the unchanged argument arrays are read.
-/
import proofs.«149527_j74560632259283_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every buffer that outlives the kernel bodies ends at the last
    link of the chain of boundary contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core is dealt a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      -- each core makes its first thread state from its own launch holdings: the buffers at the launch memory
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      -- the last thread state holds every such buffer at the chain's last link: read it against the final state
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result array ends at the last region's output as the chain names it, and every argument array as launched. -/
theorem run_value : θ_run defs (onTc (τ := τ) (main (F := F))) ⟨m, fun _ => 0, ρ⟩ (fun r => ∀ c : Dev nD,
      r.2.mem ((c.tc : Thread nD τ).loc main_v100) = W12 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v100 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)
    (run_mem m ρ)

end Cert.KernelIdeal.Whole

end
-- ==== Proof.Spec.lean ====
/-
  What each stage of the network computes, as ONE function of whole arrays over the extended reals, index by index.

  A node-feature array has 100000 rows of 64 entries; an edge array 1600000 rows. The three graph-convolution layers use
  * `proj x W` — every row of `x` times the 64×64 matrix `W`: entry (r, c) is the sum over k of x[r, k] · W[k, c];
  * `act a b` — the bias row `b` added to every row of `a`, then the positive part: entry (r, c) is max (a[r, c] + b[0, c]) 0.
  The edge classifier's logits at (e, c) are the three products' sums — source features against the first 64 rows of the
  classifier matrix, target features against the next 64, edge attributes against the last 16 — plus the bias, and the result
  is the row-wise log-softmax: with m the row's maximum, z[e, c] − m − log (sum over q of exp (z[e, q] − m)).
  Sums of extended reals are sums in a commutative monoid, so no finiteness is used anywhere below.
-/
import Idealize.ShloMosaic.PureOps.Ideal
import Idealize.ShloMosaic.Lib.ValueIdx

noncomputable section

namespace Cert.Spec

open Idealize.ShloMosaic Idealize.ShloMosaic.ValueIdx

/-- An array of extended reals with `n` rows and `p` columns. -/
abbrev Arr (n p : Nat) := (⟨2, ![n, p]⟩ : Shape).Idx → EReal

/-- A vector of 64 entries as one row. -/
def row64 (b : (⟨1, ![64]⟩ : Shape).Idx → EReal) : Arr 1 64 := fun j => b (ix1 (j 1))

/-- A vector of 15 entries as one row. -/
def row15 (b : (⟨1, ![15]⟩ : Shape).Idx → EReal) : Arr 1 15 := fun j => b (ix1 (j 1))

/-- Every row of `x` times `W`: entry (r, c) is the sum over k of x[r, k] · W[k, c]. -/
def proj (x : Arr 100000 64) (W : Arr 64 64) : Arr 100000 64 :=
  fun i => ∑ k : Fin 64, x (ix2 (i 0) k) * W (ix2 k (i 1))

/-- The bias row added to every row, then the positive part. -/
def act (a : Arr 100000 64) (b : Arr 1 64) : Arr 100000 64 :=
  fun i => max (a i + b (ix2 0 (i 1))) 0

/-- The classifier matrix has 144 rows: 64 for the source node's features, 64 for the target's, 16 for the edge's. -/
def wSrc (W : Arr 144 15) : Arr 64 15 := fun j => W (ix2 ⟨(j 0).val, by have : (j 0).val < 64 := (j 0).isLt; omega⟩ (j 1))

/-- Rows 64–127 of the classifier matrix. -/
def wDst (W : Arr 144 15) : Arr 64 15 := fun j => W (ix2 ⟨64 + (j 0).val, by have : (j 0).val < 64 := (j 0).isLt; omega⟩ (j 1))

/-- Rows 128–143 of the classifier matrix. -/
def wAttr (W : Arr 144 15) : Arr 16 15 := fun j => W (ix2 ⟨128 + (j 0).val, by have : (j 0).val < 16 := (j 0).isLt; omega⟩ (j 1))

/-- A sum over the 144 rows is the sum over the three groups of rows. -/
theorem sum_rows {M : Type*} [AddCommMonoid M] (f : Fin 144 → M) :
    ∑ k : Fin 144, f k = (∑ k : Fin 64, f ⟨k.val, by omega⟩) + (∑ k : Fin 64, f ⟨64 + k.val, by omega⟩)
      + (∑ k : Fin 16, f ⟨128 + k.val, by omega⟩) := by
  have h1 : ∑ k : Fin (128 + 16), f k = (∑ k : Fin 128, f (Fin.castAdd 16 k)) + ∑ k : Fin 16, f (Fin.natAdd 128 k) :=
    Fin.sum_univ_add (a := 128) (b := 16) (fun k : Fin (128 + 16) => f k)
  have h2 : ∑ k : Fin (64 + 64), f (Fin.castAdd 16 k) = (∑ k : Fin 64, f (Fin.castAdd 16 (Fin.castAdd 64 k)))
      + ∑ k : Fin 64, f (Fin.castAdd 16 (Fin.natAdd 64 k)) :=
    Fin.sum_univ_add (a := 64) (b := 64) (fun k : Fin (64 + 64) => f (Fin.castAdd 16 k))
  exact h1.trans (congrArg₂ (· + ·) h2 rfl)

/-- The edge classifier's logits: source, target and attribute products, then the bias. -/
def logits (hs hd : Arr 1600000 64) (ea : Arr 1600000 16) (ws wd : Arr 64 15) (we : Arr 16 15) (bf : Arr 1 15) :
    Arr 1600000 15 :=
  fun i => (∑ k : Fin 64, hs (ix2 (i 0) k) * ws (ix2 k (i 1))) + (∑ k : Fin 64, hd (ix2 (i 0) k) * wd (ix2 k (i 1)))
    + (∑ k : Fin 16, ea (ix2 (i 0) k) * we (ix2 k (i 1))) + bf (ix2 0 (i 1))

/-- A row's maximum, folded from −∞ (the f32 word 0xFF800000) over its 15 entries. -/
def rowMax (z : Arr 1600000 15) (e : Fin 1600000) : EReal :=
  (Finset.univ : Finset (Fin 15)).fold max (Ideal.ofBits .f32 0xFF800000#32) (fun q => z (ix2 e q))

/-- The row-wise log-softmax of the logits. -/
def logSoftmax (z : Arr 1600000 15) : Arr 1600000 15 :=
  fun i => (z i - rowMax z (i 0)) - Ideal.log (∑ q : Fin 15, Ideal.exp (z (ix2 (i 0) q) - rowMax z (i 0)))

end Cert.Spec

end
-- ==== Proof.RefStages.lean ====
/-
  The reference's node-array stages as the network's whole-array functions.

  The reference computes a layer as a matrix product (a sum over the 64 features of the left row's entries times the
  right column's), after adding the bias vector — broadcast first to one row, then to every row — to the previous
  aggregate and taking the positive part (the maximum with a zero splat). Read at an index, each of these is the matching
  function of Spec: `proj` for the product, `act` for bias and positive part, the bias vector seen as one row.
-/
import proofs.«149527_j74560632259283_2_alg».proof.Proof.RefReadP
import proofs.«149527_j74560632259283_2_alg».proof.Proof.Spec

noncomputable section

namespace Cert.ReferenceIdeal.Whole

open Idealize.ShloMosaic Idealize.ShloMosaic.TcCoe Idealize.ShloMosaic.ValueIdx Cert.ReferenceIdeal Cert.ReferenceIdeal.ReadP

/-- Stage 32: the node features times the first layer's matrix. -/
theorem v32_spec (x0 : (⟨S100000x64, .f32⟩ : BufTy).Contents (Elt Ideal)) (x3 : (⟨S64x64, .f32⟩ : BufTy).Contents (Elt Ideal)) :
    val_main_v32 (F := Ideal) x0 x3 = Cert.Spec.proj x0 x3 := by
  funext i
  rw [val_main_v32_apply]
  unfold Cert.Spec.proj
  refine Finset.sum_congr rfl fun k _ => ?_
  have el : lidx_main_v32 i k = ix2 (i 0) k := funext fun a => Fin.ext (by
    match a with
    | ⟨0, _⟩ => rfl
    | ⟨1, _⟩ => rfl)
  have er : ridx_main_v32 i k = ix2 k (i 1) := funext fun a => Fin.ext (by
    match a with
    | ⟨0, _⟩ => rfl
    | ⟨1, _⟩ => rfl)
  rw [el, er]
  rfl

/-- Layer 1's bias row added and the positive part taken, read at one entry. -/
theorem act1_at (a : (⟨S100000x64, .f32⟩ : BufTy).Contents (Elt Ideal)) (x4 : (⟨S64, .f32⟩ : BufTy).Contents (Elt Ideal)) (j : S100000x64.Idx) :
    (FloatOps.maximumf (FloatOps.addf (a j) (val_main_v47 (F := Ideal) x4 j)) (val_main_call1_v0 (F := Ideal) j) : Ideal .f32)
      = Cert.Spec.act a (Cert.Spec.row64 x4) j := by
  rw [val_main_call1_v0_apply, val_main_call1_cst_apply, val_main_v47_apply, val_main_v46_apply]
  unfold Cert.Spec.act Cert.Spec.row64
  simp only [Ideal.maximumf_def, Ideal.addf_def, Ideal.ofBits_def, Ideal.ofBits_zero_f32]
  have eb : idx_main_v46 (idx_main_v47 j) = ix1 ((ix2 (0 : Fin 1) (j 1) : (⟨2, ![1, 64]⟩ : Shape).Idx) 1) :=
    funext fun b => Fin.ext (by
      match b with
      | ⟨0, _⟩ => rfl)
  rw [eb]
  rfl

/-- Layer 2's bias row added and the positive part taken, read at one entry. -/
theorem act2_at (a : (⟨S100000x64, .f32⟩ : BufTy).Contents (Elt Ideal)) (x6 : (⟨S64, .f32⟩ : BufTy).Contents (Elt Ideal)) (j : S100000x64.Idx) :
    (FloatOps.maximumf (FloatOps.addf (a j) (val_main_v65 (F := Ideal) x6 j)) (val_main_call2_v0 (F := Ideal) j) : Ideal .f32)
      = Cert.Spec.act a (Cert.Spec.row64 x6) j := by
  rw [val_main_call2_v0_apply, val_main_call2_cst_apply, val_main_v65_apply, val_main_v64_apply]
  unfold Cert.Spec.act Cert.Spec.row64
  simp only [Ideal.maximumf_def, Ideal.addf_def, Ideal.ofBits_def, Ideal.ofBits_zero_f32]
  have eb : idx_main_v64 (idx_main_v65 j) = ix1 ((ix2 (0 : Fin 1) (j 1) : (⟨2, ![1, 64]⟩ : Shape).Idx) 1) :=
    funext fun b => Fin.ext (by
      match b with
      | ⟨0, _⟩ => rfl)
  rw [eb]
  rfl

/-- Layer 3's bias row added and the positive part taken, read at one entry. -/
theorem act3_at (a : (⟨S100000x64, .f32⟩ : BufTy).Contents (Elt Ideal)) (x8 : (⟨S64, .f32⟩ : BufTy).Contents (Elt Ideal)) (j : S100000x64.Idx) :
    (FloatOps.maximumf (FloatOps.addf (a j) (val_main_v83 (F := Ideal) x8 j)) (val_main_call3_v0 (F := Ideal) j) : Ideal .f32)
      = Cert.Spec.act a (Cert.Spec.row64 x8) j := by
  rw [val_main_call3_v0_apply, val_main_call3_cst_apply, val_main_v83_apply, val_main_v82_apply]
  unfold Cert.Spec.act Cert.Spec.row64
  simp only [Ideal.maximumf_def, Ideal.addf_def, Ideal.ofBits_def, Ideal.ofBits_zero_f32]
  have eb : idx_main_v82 (idx_main_v83 j) = ix1 ((ix2 (0 : Fin 1) (j 1) : (⟨2, ![1, 64]⟩ : Shape).Idx) 1) :=
    funext fun b => Fin.ext (by
      match b with
      | ⟨0, _⟩ => rfl)
  rw [eb]
  rfl

/-- Stage 50: the previous aggregate plus the bias row, its positive part, times the layer's matrix. -/
theorem v50_spec (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v50 (F := Ideal) x0 x1 x3 x4 x5 = Cert.Spec.proj (Cert.Spec.act (val_main_v45 (F := Ideal) x0 x1 x3) (Cert.Spec.row64 x4)) x5 := by
  funext i
  rw [val_main_v50_apply]
  unfold Cert.Spec.proj
  refine Finset.sum_congr rfl fun k _ => ?_
  rw [val_main_v49_apply, val_main_v48_apply, act1_at]
  have el : lidx_main_v50 i k = ix2 (i 0) k := funext fun a => Fin.ext (by
    match a with
    | ⟨0, _⟩ => rfl
    | ⟨1, _⟩ => rfl)
  have er : ridx_main_v50 i k = ix2 k (i 1) := funext fun a => Fin.ext (by
    match a with
    | ⟨0, _⟩ => rfl
    | ⟨1, _⟩ => rfl)
  rw [el, er]
  rfl

/-- Stage 68: the previous aggregate plus the bias row, its positive part, times the layer's matrix. -/
theorem v68_spec (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v68 (F := Ideal) x0 x1 x3 x4 x5 x6 x7 = Cert.Spec.proj (Cert.Spec.act (val_main_v63 (F := Ideal) x0 x1 x3 x4 x5) (Cert.Spec.row64 x6)) x7 := by
  funext i
  rw [val_main_v68_apply]
  unfold Cert.Spec.proj
  refine Finset.sum_congr rfl fun k _ => ?_
  rw [val_main_v67_apply, val_main_v66_apply, act2_at]
  have el : lidx_main_v68 i k = ix2 (i 0) k := funext fun a => Fin.ext (by
    match a with
    | ⟨0, _⟩ => rfl
    | ⟨1, _⟩ => rfl)
  have er : ridx_main_v68 i k = ix2 k (i 1) := funext fun a => Fin.ext (by
    match a with
    | ⟨0, _⟩ => rfl
    | ⟨1, _⟩ => rfl)
  rw [el, er]
  rfl

/-- Stage 85: the third aggregate plus the bias row, its positive part. -/
theorem v85_spec (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v85 (F := Ideal) x0 x1 x3 x4 x5 x6 x7 x8
      = Cert.Spec.act (val_main_v81 (F := Ideal) x0 x1 x3 x4 x5 x6 x7) (Cert.Spec.row64 x8) := by
  funext i
  rw [val_main_v85_apply, val_main_v84_apply]
  exact act3_at _ x8 i

end Cert.ReferenceIdeal.Whole

end
-- ==== Proof.RefSoftmax.lean ====
/-
  The reference's log-softmax chain is the row-wise log-softmax.

  Over a 1600000×15 array z of logits the reference computes, in order: each row's maximum, as the reduction of the row with a
  maximum body from −∞ and then the maximum with −∞ once more; that vector as a column, repeated across the 15 columns; the
  shifted array s = z − M; the exponential of s; each row's sum of it, from zero; that vector as a column; its logarithm;
  the column repeated across the 15 columns; and s minus it. Read at (e, q): the reduction over a row is the fold of max
  over the row's 15 entries from −∞, and the maximum of −∞ with such a fold is the fold, so M e is the row's folded maximum;
  a repeated column reads its row's entry; the sum from zero is the row's sum. So the result at (e, q) is
  z e q − M e − log (∑ q', exp (z e q' − M e)), the row-wise log-softmax. Sums of extended reals are sums in a commutative
  monoid, so nothing about finiteness is used.
-/
import proofs.«149527_j74560632259283_2_alg».proof.Proof.Gen.ReferenceIdeal
import proofs.«149527_j74560632259283_2_alg».proof.Proof.Spec
import Idealize.ShloMosaic.Lib.Pipeline.Value
import Idealize.ShloMosaic.Lib.ValueIdx
import Idealize.ShloMosaic.PureOps.Ideal.Laws
noncomputable section
namespace Cert.ReferenceIdeal.Whole
open Idealize.ShloMosaic Idealize.ShloMosaic.TcCoe Idealize.ShloMosaic.ValueIdx Idealize.ShloMosaic.Pipeline Cert.ReferenceIdeal Cert.ReferenceIdeal.Gen

namespace RefSoftmax

/-! ## Layout operations read at an index -/

section Layout
variable {α : Type}

/-- A scalar repeated along 1600000 entries reads the scalar everywhere. -/
theorem fromScalar_apply (y : S_.Idx → α) (i : S1600000.Idx) :
    broadcastInDim S1600000 ![] bcast_S_S1600000 y i = y ix0 :=
  broadcastInDim_apply _ bcast_S_S1600000 y i ix0 (fun a => a.elim0)

/-- A vector of 1600000 entries as a column reads, at `(e, u)`, the vector at `e`. -/
theorem toColumn_apply (y : S1600000.Idx → α) (e : Fin 1600000) (u : Fin 1) :
    broadcastInDim S1600000x1 ![0] bcast_S1600000_S1600000x1_0 y (ix2 e u) = y (ix1 e) :=
  broadcastInDim_apply _ bcast_S1600000_S1600000x1_0 y (ix2 e u) (ix1 e) (fun a => match a with
    | ⟨0, _⟩ => by show e.val = if (1600000 : Nat) = 1 then 0 else e.val; rw [if_neg (by decide)])

/-- A column repeated across 15 columns reads, at `(e, q)`, the column at row `e`. -/
theorem acrossColumns_apply (y : S1600000x1.Idx → α) (e : Fin 1600000) (q : Fin 15) :
    broadcastInDim S1600000x15 ![0, 1] bcast_S1600000x1_S1600000x15_0_1 y (ix2 e q) = y (ix2 e (0 : Fin 1)) :=
  broadcastInDim_apply _ bcast_S1600000x1_S1600000x15_0_1 y (ix2 e q) (ix2 e (0 : Fin 1)) (fun a => match a with
    | ⟨0, _⟩ => by show e.val = if (1600000 : Nat) = 1 then 0 else e.val; rw [if_neg (by decide)]
    | ⟨1, _⟩ => by show 0 = if (1 : Nat) = 1 then 0 else q.val; rw [if_pos rfl])

end Layout

/-! ## The two reductions over a row's 15 entries -/

/-- The index of row `e` with column `k` put back. -/
theorem lift_row (h : S1600000x15.Reduces [1] S1600000) (e : Fin 1600000) (k : Fin 15) : h.lift (ix1 e) k = ix2 e k :=
  funext fun a => Fin.ext (by
    match a with
    | ⟨0, _⟩ => rfl
    | ⟨1, _⟩ => rfl)

/-- The reduction with a maximum body from the word 0xFF800000, at row `e`: the fold of `max` over the row. -/
theorem reduceMax_apply (x : FVec Ideal S1600000x15 .f32) (e : Fin 1600000) :
    Host.reduce FloatOps.maximumf x (constant (F := Ideal) S_ .f32 0xFF800000#32) reducesTo_S1600000x15_S1600000_d1 h_S_ (ix1 e)
      = (Finset.univ : Finset (Fin 15)).fold max (Ideal.ofBits .f32 0xFF800000#32) (fun q => x (ix2 e q)) := by
  rw [Host.reduce_eq_fold_single FloatOps.maximumf x _ reducesTo_S1600000x15_S1600000_d1 (by decide) h_S_]
  exact congrArg (fun f => Finset.fold max (Ideal.ofBits .f32 0xFF800000#32) f (Finset.univ : Finset (Fin 15)))
    (funext fun k => congrArg x (lift_row _ e k))

/-- The sum reduction from zero, at row `e`: the row's sum. -/
theorem reduceAdd_apply (x : FVec Ideal S1600000x15 .f32) (e : Fin 1600000) :
    Host.reduceAdd x (constant (F := Ideal) S_ .f32 0x00000000#32) reducesTo_S1600000x15_S1600000_d1 h_S_ (ix1 e)
      = ∑ q : Fin 15, x (ix2 e q) := by
  simp only [Host.reduceAdd, Ideal.hostReduceAdd_def]
  rw [Ideal.hostReduceAdd_single reducesTo_S1600000x15_S1600000_d1 (by decide)]
  show Ideal.ofBits .f32 0x00000000#32 + _ = _
  rw [Ideal.ofBits_zero_f32, zero_add]
  exact Finset.sum_congr rfl fun k _ => congrArg x (lift_row _ e k)

/-- Exponential and logarithm of an array, read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The chain -/

/-- Every row's maximum: the reduction, then the maximum with −∞ again. -/
def rowMaxima (x : FVec Ideal S1600000x15 .f32) : FVec Ideal S1600000 .f32 :=
  (maximumf (broadcastInDim S1600000 ![] bcast_S_S1600000 (constant (F := Ideal) S_ .f32 0xFF800000#32)) (Host.reduce FloatOps.maximumf x (constant (F := Ideal) S_ .f32 0xFF800000#32) reducesTo_S1600000x15_S1600000_d1 h_S_))

theorem rowMaxima_apply (x : FVec Ideal S1600000x15 .f32) (e : Fin 1600000) :
    rowMaxima x (ix1 e) = Cert.Spec.rowMax x e := by
  unfold rowMaxima
  rw [maximumf_apply, fromScalar_apply, reduceMax_apply]
  exact max_eq_right ((Finset.le_fold_max _).mpr (Or.inl le_rfl))

/-- Every row shifted by its maximum. -/
def shifted (x : FVec Ideal S1600000x15 .f32) : FVec Ideal S1600000x15 .f32 :=
  subf x (broadcastInDim S1600000x15 ![0, 1] bcast_S1600000x1_S1600000x15_0_1 (broadcastInDim S1600000x1 ![0] bcast_S1600000_S1600000x1_0 (rowMaxima x)))

theorem shifted_apply (x : FVec Ideal S1600000x15 .f32) (e : Fin 1600000) (q : Fin 15) :
    shifted x (ix2 e q) = x (ix2 e q) - Cert.Spec.rowMax x e := by
  unfold shifted
  rw [subf_apply, acrossColumns_apply, toColumn_apply, rowMaxima_apply]

/-- The logarithm of each row's sum of exponentials, subtracted from the row. -/
def subLogSumExp (s : FVec Ideal S1600000x15 .f32) : FVec Ideal S1600000x15 .f32 :=
  subf s (broadcastInDim S1600000x15 ![0, 1] bcast_S1600000x1_S1600000x15_0_1 (Host.log (broadcastInDim S1600000x1 ![0] bcast_S1600000_S1600000x1_0 (Host.reduceAdd (Host.exp s) (constant (F := Ideal) S_ .f32 0x00000000#32) reducesTo_S1600000x15_S1600000_d1 h_S_))))

theorem subLogSumExp_apply (s : FVec Ideal S1600000x15 .f32) (e : Fin 1600000) (q : Fin 15) :
    subLogSumExp s (ix2 e q) = s (ix2 e q) - Ideal.log (∑ q' : Fin 15, Ideal.exp (s (ix2 e q'))) := by
  unfold subLogSumExp
  rw [subf_apply, acrossColumns_apply, hostLog_apply, toColumn_apply, reduceAdd_apply]
  rfl

/-- The chain is the row-wise log-softmax. -/
theorem chain_eq (x : FVec Ideal S1600000x15 .f32) : subLogSumExp (shifted x) = Cert.Spec.logSoftmax x := by
  funext i
  obtain ⟨e, q, rfl⟩ : ∃ (e : Fin 1600000) (q : Fin 15), i = ix2 e q := ⟨i 0, i 1, eq_ix2 i⟩
  rw [subLogSumExp_apply]
  simp only [shifted_apply]
  rfl

end RefSoftmax

variable (z : (⟨S1600000x15, .f32⟩ : BufTy).Contents (Elt Ideal))

/-- THE REFERENCE'S LOG-SOFTMAX CHAIN, written out over the logits `z`, is the row-wise log-softmax of `z`. -/
theorem hostLogSoftmax_eq :
    (subf (subf z (broadcastInDim S1600000x15 ![0, 1] bcast_S1600000x1_S1600000x15_0_1 (broadcastInDim S1600000x1 ![0] bcast_S1600000_S1600000x1_0 (maximumf (broadcastInDim S1600000 ![] bcast_S_S1600000 (constant (F := Ideal) S_ .f32 0xFF800000#32)) (Host.reduce FloatOps.maximumf z (constant (F := Ideal) S_ .f32 0xFF800000#32) reducesTo_S1600000x15_S1600000_d1 h_S_))))) (broadcastInDim S1600000x15 ![0, 1] bcast_S1600000x1_S1600000x15_0_1 (Host.log (broadcastInDim S1600000x1 ![0] bcast_S1600000_S1600000x1_0 (Host.reduceAdd (Host.exp (subf z (broadcastInDim S1600000x15 ![0, 1] bcast_S1600000x1_S1600000x15_0_1 (broadcastInDim S1600000x1 ![0] bcast_S1600000_S1600000x1_0 (maximumf (broadcastInDim S1600000 ![] bcast_S_S1600000 (constant (F := Ideal) S_ .f32 0xFF800000#32)) (Host.reduce FloatOps.maximumf z (constant (F := Ideal) S_ .f32 0xFF800000#32) reducesTo_S1600000x15_S1600000_d1 h_S_)))))) (constant (F := Ideal) S_ .f32 0x00000000#32) reducesTo_S1600000x15_S1600000_d1 h_S_)))))
      = Cert.Spec.logSoftmax z :=
  RefSoftmax.chain_eq z

end Cert.ReferenceIdeal.Whole
end
-- ==== Proof.RefEdge.lean ====
/-
  The reference's edge classifier as the network's whole-array function.

  The reference joins, per edge, the source node's 64 features, the target node's 64 and the edge's own 16 into one row of
  144, multiplies by the 144×15 classifier matrix and adds the bias. A sum over the 144 joined columns is the sum over the
  three groups of columns, and in each group the joined row reads the piece it came from, the matrix the matching group of
  its rows: these are the three products of `Spec.logits`. The log-softmax that follows is the same chain of host operations whatever the logits are, and that chain is
  `Spec.logSoftmax` (RefSoftmax).
-/
import proofs.«149527_j74560632259283_2_alg».proof.Proof.RefReadP
import proofs.«149527_j74560632259283_2_alg».proof.Proof.Spec
import proofs.«149527_j74560632259283_2_alg».proof.Proof.RefSoftmax
import Idealize.ShloMosaic.Lib.Pipeline.Value
import Idealize.ShloMosaic.Lib.ValueIdx
import Idealize.ShloMosaic.PureOps.Ideal.Laws

noncomputable section

namespace Cert.ReferenceIdeal.Whole

open Idealize.ShloMosaic Idealize.ShloMosaic.TcCoe Idealize.ShloMosaic.ValueIdx Idealize.ShloMosaic.Pipeline
open Cert.ReferenceIdeal Cert.ReferenceIdeal.Gen Cert.ReferenceIdeal.ReadP

section Joined
variable (a b : S1600000x64.Idx → EReal) (d : S1600000x16.Idx → EReal)

/-- The first 64 columns of the joined edge features are the source node's features. -/
theorem cat_src (j : S1600000x144.Idx) (e : Fin 1600000) (k : Fin 64) (h0 : (j 0).val = e.val) (h1 : (j 1).val = k.val) :
    concatenate S1600000x144 1 [⟨S1600000x64, a⟩, ⟨S1600000x64, b⟩, ⟨S1600000x16, d⟩]
      concatenates_S1600000x64_S1600000x64_S1600000x16_S1600000x144_d1 j = a (ix2 e k) := by
  refine concatenate_apply_piece (1 : Fin S1600000x144.rank) [⟨S1600000x64, a⟩, ⟨S1600000x64, b⟩, ⟨S1600000x16, d⟩] concatenates_S1600000x64_S1600000x64_S1600000x16_S1600000x144_d1 j 0 (show 0 < 3 by omega) S1600000x64 a rfl rfl 0 rfl (ix2 e k) ?_ ?_
  · intro c hc
    match c with
    | ⟨0, _⟩ => exact h0.symm
    | ⟨1, _⟩ => exact absurd rfl hc
  · show 0 + k.val = (j 1).val
    omega

/-- Columns 64–127 are the target node's features. -/
theorem cat_dst (j : S1600000x144.Idx) (e : Fin 1600000) (k : Fin 64) (h0 : (j 0).val = e.val) (h1 : (j 1).val = 64 + k.val) :
    concatenate S1600000x144 1 [⟨S1600000x64, a⟩, ⟨S1600000x64, b⟩, ⟨S1600000x16, d⟩]
      concatenates_S1600000x64_S1600000x64_S1600000x16_S1600000x144_d1 j = b (ix2 e k) := by
  refine concatenate_apply_piece (1 : Fin S1600000x144.rank) [⟨S1600000x64, a⟩, ⟨S1600000x64, b⟩, ⟨S1600000x16, d⟩] concatenates_S1600000x64_S1600000x64_S1600000x16_S1600000x144_d1 j 1 (show 1 < 3 by omega) S1600000x64 b rfl rfl 64 rfl (ix2 e k) ?_ ?_
  · intro c hc
    match c with
    | ⟨0, _⟩ => exact h0.symm
    | ⟨1, _⟩ => exact absurd rfl hc
  · show 64 + k.val = (j 1).val
    omega

/-- Columns 128–143 are the edge's own attributes. -/
theorem cat_attr (j : S1600000x144.Idx) (e : Fin 1600000) (k : Fin 16) (h0 : (j 0).val = e.val) (h1 : (j 1).val = 128 + k.val) :
    concatenate S1600000x144 1 [⟨S1600000x64, a⟩, ⟨S1600000x64, b⟩, ⟨S1600000x16, d⟩]
      concatenates_S1600000x64_S1600000x64_S1600000x16_S1600000x144_d1 j = d (ix2 e k) := by
  refine concatenate_apply_piece (1 : Fin S1600000x144.rank) [⟨S1600000x64, a⟩, ⟨S1600000x64, b⟩, ⟨S1600000x16, d⟩] concatenates_S1600000x64_S1600000x64_S1600000x16_S1600000x144_d1 j 2 (show 2 < 3 by omega) S1600000x16 d rfl rfl 128 rfl (ix2 e k) ?_ ?_
  · intro c hc
    match c with
    | ⟨0, _⟩ => exact h0.symm
    | ⟨1, _⟩ => exact absurd rfl hc
  · show 128 + k.val = (j 1).val
    omega

end Joined

variable (x0 : (⟨S100000x64, .f32⟩ : BufTy).Contents (Elt Ideal)) (x1 : (⟨S2x1600000, .i32⟩ : BufTy).Contents (Elt Ideal)) (x2 : (⟨S1600000x16, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S144x15, .f32⟩ : BufTy).Contents (Elt Ideal)) (x10 : (⟨S15, .f32⟩ : BufTy).Contents (Elt Ideal))

/-- Stage 108, the logits: the three products over the three groups of joined columns, and the bias. -/
theorem v108_spec : val_main_v108 (F := Ideal) x0 x1 x2 x3 x4 x5 x6 x7 x8 x9 x10
    = Cert.Spec.logits (val_main_v94 (F := Ideal) x0 x1 x3 x4 x5 x6 x7 x8) (val_main_v103 (F := Ideal) x0 x1 x3 x4 x5 x6 x7 x8) x2
        (Cert.Spec.wSrc x9) (Cert.Spec.wDst x9) (Cert.Spec.wAttr x9) (Cert.Spec.row15 x10) := by
  funext i
  rw [val_main_v108_apply, val_main_v105_apply, val_main_v107_apply, val_main_v106_apply, Cert.Spec.sum_rows]
  unfold Cert.Spec.logits
  simp only [Ideal.addf_def]
  refine congrArg₂ (· + ·) (congrArg₂ (· + ·) (congrArg₂ (· + ·) ?_ ?_) ?_) ?_
  · refine Finset.sum_congr rfl fun k _ => ?_
    refine congrArg₂ (· * ·) ?_ ?_
    · unfold val_main_v104
      exact cat_src _ _ _ _ ⟨(i 0).val, (i 0).isLt⟩ k rfl rfl
    · unfold Cert.Spec.wSrc
      exact congrArg x9 (funext fun a => Fin.ext (by
        match a with
        | ⟨0, _⟩ => rfl
        | ⟨1, _⟩ => rfl))
  · refine Finset.sum_congr rfl fun k _ => ?_
    refine congrArg₂ (· * ·) ?_ ?_
    · unfold val_main_v104
      exact cat_dst _ _ _ _ ⟨(i 0).val, (i 0).isLt⟩ k rfl rfl
    · unfold Cert.Spec.wDst
      exact congrArg x9 (funext fun a => Fin.ext (by
        match a with
        | ⟨0, _⟩ => rfl
        | ⟨1, _⟩ => rfl))
  · refine Finset.sum_congr rfl fun k _ => ?_
    refine congrArg₂ (· * ·) ?_ ?_
    · unfold val_main_v104
      exact cat_attr _ _ _ _ ⟨(i 0).val, (i 0).isLt⟩ k rfl rfl
    · unfold Cert.Spec.wAttr
      exact congrArg x9 (funext fun a => Fin.ext (by
        match a with
        | ⟨0, _⟩ => rfl
        | ⟨1, _⟩ => rfl))
  · unfold Cert.Spec.row15
    exact congrArg x10 (funext fun a => Fin.ext (by
      match a with
      | ⟨0, _⟩ => rfl))

/-- Stage 109, the result: the row-wise log-softmax of the logits. -/
theorem v109_spec : val_main_v109 (F := Ideal) x0 x1 x2 x3 x4 x5 x6 x7 x8 x9 x10
    = Cert.Spec.logSoftmax (Cert.Spec.logits (val_main_v94 (F := Ideal) x0 x1 x3 x4 x5 x6 x7 x8) (val_main_v103 (F := Ideal) x0 x1 x3 x4 x5 x6 x7 x8) x2
        (Cert.Spec.wSrc x9) (Cert.Spec.wDst x9) (Cert.Spec.wAttr x9) (Cert.Spec.row15 x10)) := by
  rw [← v108_spec]
  exact hostLogSoftmax_eq (val_main_v108 (F := Ideal) x0 x1 x2 x3 x4 x5 x6 x7 x8 x9 x10)

end Cert.ReferenceIdeal.Whole

end
-- ==== Proof.KKeep.lean ====
/-
  Buffers a stretch of host operations leaves alone.

  Each host operation writes one buffer. A stretch is a list of operations, and the contents after it are the fold of the
  operations over the contents before it; so a buffer that is the target of none of them is unchanged by the fold. Stated
  once per stretch of @main, for a buffer given as a variable with the fact that it is not among the stretch's targets.
-/
import proofs.«149527_j74560632259283_2_alg».proof.Proof.Gen.KernelIdeal.Frame

set_option maxRecDepth 16384

noncomputable section

namespace Cert.KernelIdeal.Whole

open Idealize.ShloMosaic Idealize.ShloMosaic.TcCoe Idealize.SL.Sem Cert.KernelIdeal Cert.KernelIdeal.Gen

variable {F : FTy → Type} [FloatOps F]

/-- A buffer none of this stretch's 21 operations writes holds, after the stretch, what it held before. -/
theorem kept_hostOps0 (W : Valuation τ sig (Elt F)) (b : Ref sig .tc)
    (hb : b ∉ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc))) :
    StableHlo.after (hostOps0 (F := F)) W (Proc.devRef .tc b) = W (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 3 operations writes holds, after the stretch, what it held before. -/
theorem kept_hostOps0_1 (W : Valuation τ sig (Elt F)) (b : Ref sig .tc)
    (hb : b ∉ ([main_call0_v0, main_call0_v1, main_v16] : List (Ref sig .tc))) :
    StableHlo.after (hostOps0_1 (F := F)) W (Proc.devRef .tc b) = W (Proc.devRef .tc b) := by
  refine StableHlo.after_of_forall_not_mem (b := Proc.devRef .tc b) _ _ (List.forall_iff_forall_mem.mp ?_)
  simp only [hostOps0_1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 19 operations writes holds, after the stretch, what it held before. -/
theorem kept_hostOps0_2 (W : Valuation τ sig (Elt F)) (b : Ref sig .tc)
    (hb : b ∉ ([main_c, main_v17, main_v18, main_c_4, main_v19, main_v20, main_v21, main_v22, main_v23, main_c_5, main_v24, main_v25, main_c_6, main_v26, main_v27, main_v28, main_v29, main_v30, main_v31] : List (Ref sig .tc))) :
    StableHlo.after (hostOps0_2 (F := F)) W (Proc.devRef .tc b) = W (Proc.devRef .tc b) := by
  refine StableHlo.after_of_forall_not_mem (b := Proc.devRef .tc b) _ _ (List.forall_iff_forall_mem.mp ?_)
  simp only [hostOps0_2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 17 operations writes holds, after the stretch, what it held before. -/
theorem kept_hostOps1 (W : Valuation τ sig (Elt F)) (b : Ref sig .tc)
    (hb : b ∉ ([main_c_7, main_v33, main_v34, main_c_8, main_v35, main_v36, main_v37, main_v38, main_v39, main_v40, main_v41, main_v42, main_cst_9, main_v43, main_v44, main_v45, main_v46] : List (Ref sig .tc))) :
    StableHlo.after (hostOps1 (F := F)) W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 17 operations writes holds, after the stretch, what it held before. -/
theorem kept_hostOps2 (W : Valuation τ sig (Elt F)) (b : Ref sig .tc)
    (hb : b ∉ ([main_c_10, main_v48, main_v49, main_c_11, main_v50, main_v51, main_v52, main_v53, main_v54, main_v55, main_v56, main_v57, main_cst_12, main_v58, main_v59, main_v60, main_v61] : List (Ref sig .tc))) :
    StableHlo.after (hostOps2 (F := F)) W (Proc.devRef .tc b) = W (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 17 operations writes holds, after the stretch, what it held before. -/
theorem kept_hostOps3 (W : Valuation τ sig (Elt F)) (b : Ref sig .tc)
    (hb : b ∉ ([main_c_13, main_v63, main_v64, main_c_14, main_v65, main_v66, main_v67, main_v68, main_v69, main_v70, main_v71, main_v72, main_cst_15, main_v73, main_v74, main_v75, main_v76] : List (Ref sig .tc))) :
    StableHlo.after (hostOps3 (F := F)) W (Proc.devRef .tc b) = W (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

/-- A buffer none of this stretch's 26 operations writes holds, after the stretch, what it held before. -/
theorem kept_hostOps4 (W : Valuation τ sig (Elt F)) (b : Ref sig .tc)
    (hb : b ∉ ([main_v78, main_v79, main_c_16, main_v80, main_v81, main_c_17, main_v82, main_v83, main_v84, main_v85, main_v86, main_v87, main_v88, main_c_18, main_v89, main_v90, main_c_19, main_v91, main_v92, main_v93, main_v94, main_v95, main_v96, main_v97, main_v98, main_v99] : List (Ref sig .tc))) :
    StableHlo.after (hostOps4 (F := F)) W (Proc.devRef .tc b) = W (Proc.devRef .tc b) := by
  refine StableHlo.after_of_forall_not_mem (b := Proc.devRef .tc b) _ _ (List.forall_iff_forall_mem.mp ?_)
  simp only [hostOps4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals
    apply StableHlo.devRef_ne_of_ne
    intro e
    subst e
    exact hb (by simp)

end Cert.KernelIdeal.Whole

end
-- ==== Proof.KCarry.lean ====
/-
  What crosses a segment of @main untouched.

  The argument arrays are written by no host operation and by no kernel region (a region reads them through input
  windows, whose arrays end as they were found), so at every segment boundary each still holds its launch contents. The
  source and target index vectors and the per-edge normalisation are computed once, before the first region, and are
  targets of no later operation and arrays of no region, so at every later boundary they hold what they held then.
-/
import proofs.«149527_j74560632259283_2_alg».proof.Proof.Gen.KernelIdeal.Frame
import proofs.«149527_j74560632259283_2_alg».proof.Proof.KKeep
import Idealize.ShloMosaic.PureOps.Ideal

set_option maxRecDepth 16384

noncomputable section

namespace Cert.KernelIdeal.Whole

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-! ## The argument arrays at each boundary -/

theorem arg0_at1 : W1 (F := Ideal) m ρ c (Proc.devRef .tc main_arg0) = m ((c : Thread nD τ).loc main_arg0) :=
  (kept_hostOps0 (F := Ideal) _ main_arg0 (by decide)).trans rfl
theorem arg0_at2 : W2 (F := Ideal) m ρ c (Proc.devRef .tc main_arg0) = m ((c : Thread nD τ).loc main_arg0) :=
  (kept_hostOps0_1 (F := Ideal) _ main_arg0 (by decide)).trans (arg0_at1 m ρ c)
theorem arg0_at3 : W3 (F := Ideal) m ρ c (Proc.devRef .tc main_arg0) = m ((c : Thread nD τ).loc main_arg0) :=
  (kept_hostOps0_2 (F := Ideal) _ main_arg0 (by decide)).trans (arg0_at2 m ρ c)

theorem arg3_at1 : W1 (F := Ideal) m ρ c (Proc.devRef .tc main_arg3) = m ((c : Thread nD τ).loc main_arg3) :=
  (kept_hostOps0 (F := Ideal) _ main_arg3 (by decide)).trans rfl
theorem arg3_at2 : W2 (F := Ideal) m ρ c (Proc.devRef .tc main_arg3) = m ((c : Thread nD τ).loc main_arg3) :=
  (kept_hostOps0_1 (F := Ideal) _ main_arg3 (by decide)).trans (arg3_at1 m ρ c)
theorem arg3_at3 : W3 (F := Ideal) m ρ c (Proc.devRef .tc main_arg3) = m ((c : Thread nD τ).loc main_arg3) :=
  (kept_hostOps0_2 (F := Ideal) _ main_arg3 (by decide)).trans (arg3_at2 m ρ c)

theorem arg4_at1 : W1 (F := Ideal) m ρ c (Proc.devRef .tc main_arg4) = m ((c : Thread nD τ).loc main_arg4) :=
  (kept_hostOps0 (F := Ideal) _ main_arg4 (by decide)).trans rfl
theorem arg4_at2 : W2 (F := Ideal) m ρ c (Proc.devRef .tc main_arg4) = m ((c : Thread nD τ).loc main_arg4) :=
  (kept_hostOps0_1 (F := Ideal) _ main_arg4 (by decide)).trans (arg4_at1 m ρ c)
theorem arg4_at3 : W3 (F := Ideal) m ρ c (Proc.devRef .tc main_arg4) = m ((c : Thread nD τ).loc main_arg4) :=
  (kept_hostOps0_2 (F := Ideal) _ main_arg4 (by decide)).trans (arg4_at2 m ρ c)
theorem arg4_at4 : W4 (F := Ideal) m ρ c (Proc.devRef .tc main_arg4) = m ((c : Thread nD τ).loc main_arg4) :=
  (W4_of_ne m ρ c main_arg4 (by decide)).trans (arg4_at3 m ρ c)

theorem arg5_at1 : W1 (F := Ideal) m ρ c (Proc.devRef .tc main_arg5) = m ((c : Thread nD τ).loc main_arg5) :=
  (kept_hostOps0 (F := Ideal) _ main_arg5 (by decide)).trans rfl
theorem arg5_at2 : W2 (F := Ideal) m ρ c (Proc.devRef .tc main_arg5) = m ((c : Thread nD τ).loc main_arg5) :=
  (kept_hostOps0_1 (F := Ideal) _ main_arg5 (by decide)).trans (arg5_at1 m ρ c)
theorem arg5_at3 : W3 (F := Ideal) m ρ c (Proc.devRef .tc main_arg5) = m ((c : Thread nD τ).loc main_arg5) :=
  (kept_hostOps0_2 (F := Ideal) _ main_arg5 (by decide)).trans (arg5_at2 m ρ c)
theorem arg5_at4 : W4 (F := Ideal) m ρ c (Proc.devRef .tc main_arg5) = m ((c : Thread nD τ).loc main_arg5) :=
  (W4_of_ne m ρ c main_arg5 (by decide)).trans (arg5_at3 m ρ c)
theorem arg5_at5 : W5 (F := Ideal) m ρ c (Proc.devRef .tc main_arg5) = m ((c : Thread nD τ).loc main_arg5) :=
  (kept_hostOps1 (F := Ideal) _ main_arg5 (by decide)).trans (arg5_at4 m ρ c)

theorem arg6_at1 : W1 (F := Ideal) m ρ c (Proc.devRef .tc main_arg6) = m ((c : Thread nD τ).loc main_arg6) :=
  (kept_hostOps0 (F := Ideal) _ main_arg6 (by decide)).trans rfl
theorem arg6_at2 : W2 (F := Ideal) m ρ c (Proc.devRef .tc main_arg6) = m ((c : Thread nD τ).loc main_arg6) :=
  (kept_hostOps0_1 (F := Ideal) _ main_arg6 (by decide)).trans (arg6_at1 m ρ c)
theorem arg6_at3 : W3 (F := Ideal) m ρ c (Proc.devRef .tc main_arg6) = m ((c : Thread nD τ).loc main_arg6) :=
  (kept_hostOps0_2 (F := Ideal) _ main_arg6 (by decide)).trans (arg6_at2 m ρ c)
theorem arg6_at4 : W4 (F := Ideal) m ρ c (Proc.devRef .tc main_arg6) = m ((c : Thread nD τ).loc main_arg6) :=
  (W4_of_ne m ρ c main_arg6 (by decide)).trans (arg6_at3 m ρ c)
theorem arg6_at5 : W5 (F := Ideal) m ρ c (Proc.devRef .tc main_arg6) = m ((c : Thread nD τ).loc main_arg6) :=
  (kept_hostOps1 (F := Ideal) _ main_arg6 (by decide)).trans (arg6_at4 m ρ c)
theorem arg6_at6 : W6 (F := Ideal) m ρ c (Proc.devRef .tc main_arg6) = m ((c : Thread nD τ).loc main_arg6) :=
  (W6_of_ne m ρ c main_arg6 (by decide)).trans (arg6_at5 m ρ c)

theorem arg7_at1 : W1 (F := Ideal) m ρ c (Proc.devRef .tc main_arg7) = m ((c : Thread nD τ).loc main_arg7) :=
  (kept_hostOps0 (F := Ideal) _ main_arg7 (by decide)).trans rfl
theorem arg7_at2 : W2 (F := Ideal) m ρ c (Proc.devRef .tc main_arg7) = m ((c : Thread nD τ).loc main_arg7) :=
  (kept_hostOps0_1 (F := Ideal) _ main_arg7 (by decide)).trans (arg7_at1 m ρ c)
theorem arg7_at3 : W3 (F := Ideal) m ρ c (Proc.devRef .tc main_arg7) = m ((c : Thread nD τ).loc main_arg7) :=
  (kept_hostOps0_2 (F := Ideal) _ main_arg7 (by decide)).trans (arg7_at2 m ρ c)
theorem arg7_at4 : W4 (F := Ideal) m ρ c (Proc.devRef .tc main_arg7) = m ((c : Thread nD τ).loc main_arg7) :=
  (W4_of_ne m ρ c main_arg7 (by decide)).trans (arg7_at3 m ρ c)
theorem arg7_at5 : W5 (F := Ideal) m ρ c (Proc.devRef .tc main_arg7) = m ((c : Thread nD τ).loc main_arg7) :=
  (kept_hostOps1 (F := Ideal) _ main_arg7 (by decide)).trans (arg7_at4 m ρ c)
theorem arg7_at6 : W6 (F := Ideal) m ρ c (Proc.devRef .tc main_arg7) = m ((c : Thread nD τ).loc main_arg7) :=
  (W6_of_ne m ρ c main_arg7 (by decide)).trans (arg7_at5 m ρ c)
theorem arg7_at7 : W7 (F := Ideal) m ρ c (Proc.devRef .tc main_arg7) = m ((c : Thread nD τ).loc main_arg7) :=
  (kept_hostOps2 (F := Ideal) _ main_arg7 (by decide)).trans (arg7_at6 m ρ c)

theorem arg8_at1 : W1 (F := Ideal) m ρ c (Proc.devRef .tc main_arg8) = m ((c : Thread nD τ).loc main_arg8) :=
  (kept_hostOps0 (F := Ideal) _ main_arg8 (by decide)).trans rfl
theorem arg8_at2 : W2 (F := Ideal) m ρ c (Proc.devRef .tc main_arg8) = m ((c : Thread nD τ).loc main_arg8) :=
  (kept_hostOps0_1 (F := Ideal) _ main_arg8 (by decide)).trans (arg8_at1 m ρ c)
theorem arg8_at3 : W3 (F := Ideal) m ρ c (Proc.devRef .tc main_arg8) = m ((c : Thread nD τ).loc main_arg8) :=
  (kept_hostOps0_2 (F := Ideal) _ main_arg8 (by decide)).trans (arg8_at2 m ρ c)
theorem arg8_at4 : W4 (F := Ideal) m ρ c (Proc.devRef .tc main_arg8) = m ((c : Thread nD τ).loc main_arg8) :=
  (W4_of_ne m ρ c main_arg8 (by decide)).trans (arg8_at3 m ρ c)
theorem arg8_at5 : W5 (F := Ideal) m ρ c (Proc.devRef .tc main_arg8) = m ((c : Thread nD τ).loc main_arg8) :=
  (kept_hostOps1 (F := Ideal) _ main_arg8 (by decide)).trans (arg8_at4 m ρ c)
theorem arg8_at6 : W6 (F := Ideal) m ρ c (Proc.devRef .tc main_arg8) = m ((c : Thread nD τ).loc main_arg8) :=
  (W6_of_ne m ρ c main_arg8 (by decide)).trans (arg8_at5 m ρ c)
theorem arg8_at7 : W7 (F := Ideal) m ρ c (Proc.devRef .tc main_arg8) = m ((c : Thread nD τ).loc main_arg8) :=
  (kept_hostOps2 (F := Ideal) _ main_arg8 (by decide)).trans (arg8_at6 m ρ c)
theorem arg8_at8 : W8 (F := Ideal) m ρ c (Proc.devRef .tc main_arg8) = m ((c : Thread nD τ).loc main_arg8) :=
  (W8_of_ne m ρ c main_arg8 (by decide)).trans (arg8_at7 m ρ c)

theorem arg1_at1 : W1 (F := Ideal) m ρ c (Proc.devRef .tc main_arg1) = m ((c : Thread nD τ).loc main_arg1) :=
  (kept_hostOps0 (F := Ideal) _ main_arg1 (by decide)).trans rfl
theorem arg1_at2 : W2 (F := Ideal) m ρ c (Proc.devRef .tc main_arg1) = m ((c : Thread nD τ).loc main_arg1) :=
  (kept_hostOps0_1 (F := Ideal) _ main_arg1 (by decide)).trans (arg1_at1 m ρ c)
theorem arg1_at3 : W3 (F := Ideal) m ρ c (Proc.devRef .tc main_arg1) = m ((c : Thread nD τ).loc main_arg1) :=
  (kept_hostOps0_2 (F := Ideal) _ main_arg1 (by decide)).trans (arg1_at2 m ρ c)
theorem arg1_at4 : W4 (F := Ideal) m ρ c (Proc.devRef .tc main_arg1) = m ((c : Thread nD τ).loc main_arg1) :=
  (W4_of_ne m ρ c main_arg1 (by decide)).trans (arg1_at3 m ρ c)
theorem arg1_at5 : W5 (F := Ideal) m ρ c (Proc.devRef .tc main_arg1) = m ((c : Thread nD τ).loc main_arg1) :=
  (kept_hostOps1 (F := Ideal) _ main_arg1 (by decide)).trans (arg1_at4 m ρ c)
theorem arg1_at6 : W6 (F := Ideal) m ρ c (Proc.devRef .tc main_arg1) = m ((c : Thread nD τ).loc main_arg1) :=
  (W6_of_ne m ρ c main_arg1 (by decide)).trans (arg1_at5 m ρ c)
theorem arg1_at7 : W7 (F := Ideal) m ρ c (Proc.devRef .tc main_arg1) = m ((c : Thread nD τ).loc main_arg1) :=
  (kept_hostOps2 (F := Ideal) _ main_arg1 (by decide)).trans (arg1_at6 m ρ c)
theorem arg1_at8 : W8 (F := Ideal) m ρ c (Proc.devRef .tc main_arg1) = m ((c : Thread nD τ).loc main_arg1) :=
  (W8_of_ne m ρ c main_arg1 (by decide)).trans (arg1_at7 m ρ c)
theorem arg1_at9 : W9 (F := Ideal) m ρ c (Proc.devRef .tc main_arg1) = m ((c : Thread nD τ).loc main_arg1) :=
  (kept_hostOps3 (F := Ideal) _ main_arg1 (by decide)).trans (arg1_at8 m ρ c)
theorem arg1_at10 : W10 (F := Ideal) m ρ c (Proc.devRef .tc main_arg1) = m ((c : Thread nD τ).loc main_arg1) :=
  (W10_of_ne m ρ c main_arg1 (by decide)).trans (arg1_at9 m ρ c)

theorem arg9_at1 : W1 (F := Ideal) m ρ c (Proc.devRef .tc main_arg9) = m ((c : Thread nD τ).loc main_arg9) :=
  (kept_hostOps0 (F := Ideal) _ main_arg9 (by decide)).trans rfl
theorem arg9_at2 : W2 (F := Ideal) m ρ c (Proc.devRef .tc main_arg9) = m ((c : Thread nD τ).loc main_arg9) :=
  (kept_hostOps0_1 (F := Ideal) _ main_arg9 (by decide)).trans (arg9_at1 m ρ c)
theorem arg9_at3 : W3 (F := Ideal) m ρ c (Proc.devRef .tc main_arg9) = m ((c : Thread nD τ).loc main_arg9) :=
  (kept_hostOps0_2 (F := Ideal) _ main_arg9 (by decide)).trans (arg9_at2 m ρ c)
theorem arg9_at4 : W4 (F := Ideal) m ρ c (Proc.devRef .tc main_arg9) = m ((c : Thread nD τ).loc main_arg9) :=
  (W4_of_ne m ρ c main_arg9 (by decide)).trans (arg9_at3 m ρ c)
theorem arg9_at5 : W5 (F := Ideal) m ρ c (Proc.devRef .tc main_arg9) = m ((c : Thread nD τ).loc main_arg9) :=
  (kept_hostOps1 (F := Ideal) _ main_arg9 (by decide)).trans (arg9_at4 m ρ c)
theorem arg9_at6 : W6 (F := Ideal) m ρ c (Proc.devRef .tc main_arg9) = m ((c : Thread nD τ).loc main_arg9) :=
  (W6_of_ne m ρ c main_arg9 (by decide)).trans (arg9_at5 m ρ c)
theorem arg9_at7 : W7 (F := Ideal) m ρ c (Proc.devRef .tc main_arg9) = m ((c : Thread nD τ).loc main_arg9) :=
  (kept_hostOps2 (F := Ideal) _ main_arg9 (by decide)).trans (arg9_at6 m ρ c)
theorem arg9_at8 : W8 (F := Ideal) m ρ c (Proc.devRef .tc main_arg9) = m ((c : Thread nD τ).loc main_arg9) :=
  (W8_of_ne m ρ c main_arg9 (by decide)).trans (arg9_at7 m ρ c)
theorem arg9_at9 : W9 (F := Ideal) m ρ c (Proc.devRef .tc main_arg9) = m ((c : Thread nD τ).loc main_arg9) :=
  (kept_hostOps3 (F := Ideal) _ main_arg9 (by decide)).trans (arg9_at8 m ρ c)
theorem arg9_at10 : W10 (F := Ideal) m ρ c (Proc.devRef .tc main_arg9) = m ((c : Thread nD τ).loc main_arg9) :=
  (W10_of_ne m ρ c main_arg9 (by decide)).trans (arg9_at9 m ρ c)

theorem arg10_at1 : W1 (F := Ideal) m ρ c (Proc.devRef .tc main_arg10) = m ((c : Thread nD τ).loc main_arg10) :=
  (kept_hostOps0 (F := Ideal) _ main_arg10 (by decide)).trans rfl
theorem arg10_at2 : W2 (F := Ideal) m ρ c (Proc.devRef .tc main_arg10) = m ((c : Thread nD τ).loc main_arg10) :=
  (kept_hostOps0_1 (F := Ideal) _ main_arg10 (by decide)).trans (arg10_at1 m ρ c)
theorem arg10_at3 : W3 (F := Ideal) m ρ c (Proc.devRef .tc main_arg10) = m ((c : Thread nD τ).loc main_arg10) :=
  (kept_hostOps0_2 (F := Ideal) _ main_arg10 (by decide)).trans (arg10_at2 m ρ c)
theorem arg10_at4 : W4 (F := Ideal) m ρ c (Proc.devRef .tc main_arg10) = m ((c : Thread nD τ).loc main_arg10) :=
  (W4_of_ne m ρ c main_arg10 (by decide)).trans (arg10_at3 m ρ c)
theorem arg10_at5 : W5 (F := Ideal) m ρ c (Proc.devRef .tc main_arg10) = m ((c : Thread nD τ).loc main_arg10) :=
  (kept_hostOps1 (F := Ideal) _ main_arg10 (by decide)).trans (arg10_at4 m ρ c)
theorem arg10_at6 : W6 (F := Ideal) m ρ c (Proc.devRef .tc main_arg10) = m ((c : Thread nD τ).loc main_arg10) :=
  (W6_of_ne m ρ c main_arg10 (by decide)).trans (arg10_at5 m ρ c)
theorem arg10_at7 : W7 (F := Ideal) m ρ c (Proc.devRef .tc main_arg10) = m ((c : Thread nD τ).loc main_arg10) :=
  (kept_hostOps2 (F := Ideal) _ main_arg10 (by decide)).trans (arg10_at6 m ρ c)
theorem arg10_at8 : W8 (F := Ideal) m ρ c (Proc.devRef .tc main_arg10) = m ((c : Thread nD τ).loc main_arg10) :=
  (W8_of_ne m ρ c main_arg10 (by decide)).trans (arg10_at7 m ρ c)
theorem arg10_at9 : W9 (F := Ideal) m ρ c (Proc.devRef .tc main_arg10) = m ((c : Thread nD τ).loc main_arg10) :=
  (kept_hostOps3 (F := Ideal) _ main_arg10 (by decide)).trans (arg10_at8 m ρ c)
theorem arg10_at10 : W10 (F := Ideal) m ρ c (Proc.devRef .tc main_arg10) = m ((c : Thread nD τ).loc main_arg10) :=
  (W10_of_ne m ρ c main_arg10 (by decide)).trans (arg10_at9 m ρ c)

theorem arg2_at1 : W1 (F := Ideal) m ρ c (Proc.devRef .tc main_arg2) = m ((c : Thread nD τ).loc main_arg2) :=
  (kept_hostOps0 (F := Ideal) _ main_arg2 (by decide)).trans rfl
theorem arg2_at2 : W2 (F := Ideal) m ρ c (Proc.devRef .tc main_arg2) = m ((c : Thread nD τ).loc main_arg2) :=
  (kept_hostOps0_1 (F := Ideal) _ main_arg2 (by decide)).trans (arg2_at1 m ρ c)
theorem arg2_at3 : W3 (F := Ideal) m ρ c (Proc.devRef .tc main_arg2) = m ((c : Thread nD τ).loc main_arg2) :=
  (kept_hostOps0_2 (F := Ideal) _ main_arg2 (by decide)).trans (arg2_at2 m ρ c)
theorem arg2_at4 : W4 (F := Ideal) m ρ c (Proc.devRef .tc main_arg2) = m ((c : Thread nD τ).loc main_arg2) :=
  (W4_of_ne m ρ c main_arg2 (by decide)).trans (arg2_at3 m ρ c)
theorem arg2_at5 : W5 (F := Ideal) m ρ c (Proc.devRef .tc main_arg2) = m ((c : Thread nD τ).loc main_arg2) :=
  (kept_hostOps1 (F := Ideal) _ main_arg2 (by decide)).trans (arg2_at4 m ρ c)
theorem arg2_at6 : W6 (F := Ideal) m ρ c (Proc.devRef .tc main_arg2) = m ((c : Thread nD τ).loc main_arg2) :=
  (W6_of_ne m ρ c main_arg2 (by decide)).trans (arg2_at5 m ρ c)
theorem arg2_at7 : W7 (F := Ideal) m ρ c (Proc.devRef .tc main_arg2) = m ((c : Thread nD τ).loc main_arg2) :=
  (kept_hostOps2 (F := Ideal) _ main_arg2 (by decide)).trans (arg2_at6 m ρ c)
theorem arg2_at8 : W8 (F := Ideal) m ρ c (Proc.devRef .tc main_arg2) = m ((c : Thread nD τ).loc main_arg2) :=
  (W8_of_ne m ρ c main_arg2 (by decide)).trans (arg2_at7 m ρ c)
theorem arg2_at9 : W9 (F := Ideal) m ρ c (Proc.devRef .tc main_arg2) = m ((c : Thread nD τ).loc main_arg2) :=
  (kept_hostOps3 (F := Ideal) _ main_arg2 (by decide)).trans (arg2_at8 m ρ c)
theorem arg2_at10 : W10 (F := Ideal) m ρ c (Proc.devRef .tc main_arg2) = m ((c : Thread nD τ).loc main_arg2) :=
  (W10_of_ne m ρ c main_arg2 (by decide)).trans (arg2_at9 m ρ c)
theorem arg2_at11 : W11 (F := Ideal) m ρ c (Proc.devRef .tc main_arg2) = m ((c : Thread nD τ).loc main_arg2) :=
  (kept_hostOps4 (F := Ideal) _ main_arg2 (by decide)).trans (arg2_at10 m ρ c)

/-! ## The index vectors and the normalisation after the first region -/

theorem v3_at4 : W4 (F := Ideal) m ρ c (Proc.devRef .tc main_v3) = W3 (F := Ideal) m ρ c (Proc.devRef .tc main_v3) :=
  W4_of_ne m ρ c main_v3 (by decide)
theorem v3_at5 : W5 (F := Ideal) m ρ c (Proc.devRef .tc main_v3) = W3 (F := Ideal) m ρ c (Proc.devRef .tc main_v3) :=
  (kept_hostOps1 (F := Ideal) _ main_v3 (by decide)).trans (v3_at4 m ρ c)
theorem v3_at6 : W6 (F := Ideal) m ρ c (Proc.devRef .tc main_v3) = W3 (F := Ideal) m ρ c (Proc.devRef .tc main_v3) :=
  (W6_of_ne m ρ c main_v3 (by decide)).trans (v3_at5 m ρ c)
theorem v3_at7 : W7 (F := Ideal) m ρ c (Proc.devRef .tc main_v3) = W3 (F := Ideal) m ρ c (Proc.devRef .tc main_v3) :=
  (kept_hostOps2 (F := Ideal) _ main_v3 (by decide)).trans (v3_at6 m ρ c)
theorem v3_at8 : W8 (F := Ideal) m ρ c (Proc.devRef .tc main_v3) = W3 (F := Ideal) m ρ c (Proc.devRef .tc main_v3) :=
  (W8_of_ne m ρ c main_v3 (by decide)).trans (v3_at7 m ρ c)

theorem v6_at4 : W4 (F := Ideal) m ρ c (Proc.devRef .tc main_v6) = W3 (F := Ideal) m ρ c (Proc.devRef .tc main_v6) :=
  W4_of_ne m ρ c main_v6 (by decide)
theorem v6_at5 : W5 (F := Ideal) m ρ c (Proc.devRef .tc main_v6) = W3 (F := Ideal) m ρ c (Proc.devRef .tc main_v6) :=
  (kept_hostOps1 (F := Ideal) _ main_v6 (by decide)).trans (v6_at4 m ρ c)
theorem v6_at6 : W6 (F := Ideal) m ρ c (Proc.devRef .tc main_v6) = W3 (F := Ideal) m ρ c (Proc.devRef .tc main_v6) :=
  (W6_of_ne m ρ c main_v6 (by decide)).trans (v6_at5 m ρ c)
theorem v6_at7 : W7 (F := Ideal) m ρ c (Proc.devRef .tc main_v6) = W3 (F := Ideal) m ρ c (Proc.devRef .tc main_v6) :=
  (kept_hostOps2 (F := Ideal) _ main_v6 (by decide)).trans (v6_at6 m ρ c)
theorem v6_at8 : W8 (F := Ideal) m ρ c (Proc.devRef .tc main_v6) = W3 (F := Ideal) m ρ c (Proc.devRef .tc main_v6) :=
  (W8_of_ne m ρ c main_v6 (by decide)).trans (v6_at7 m ρ c)

theorem v31_at4 : W4 (F := Ideal) m ρ c (Proc.devRef .tc main_v31) = W3 (F := Ideal) m ρ c (Proc.devRef .tc main_v31) :=
  W4_of_ne m ρ c main_v31 (by decide)
theorem v31_at5 : W5 (F := Ideal) m ρ c (Proc.devRef .tc main_v31) = W3 (F := Ideal) m ρ c (Proc.devRef .tc main_v31) :=
  (kept_hostOps1 (F := Ideal) _ main_v31 (by decide)).trans (v31_at4 m ρ c)
theorem v31_at6 : W6 (F := Ideal) m ρ c (Proc.devRef .tc main_v31) = W3 (F := Ideal) m ρ c (Proc.devRef .tc main_v31) :=
  (W6_of_ne m ρ c main_v31 (by decide)).trans (v31_at5 m ρ c)
theorem v31_at7 : W7 (F := Ideal) m ρ c (Proc.devRef .tc main_v31) = W3 (F := Ideal) m ρ c (Proc.devRef .tc main_v31) :=
  (kept_hostOps2 (F := Ideal) _ main_v31 (by decide)).trans (v31_at6 m ρ c)
theorem v31_at8 : W8 (F := Ideal) m ρ c (Proc.devRef .tc main_v31) = W3 (F := Ideal) m ρ c (Proc.devRef .tc main_v31) :=
  (W8_of_ne m ρ c main_v31 (by decide)).trans (v31_at7 m ρ c)

end Cert.KernelIdeal.Whole

end
-- ==== Proof.Region0.lean ====
/-
  Region 0. Each of the ten grid points t multiplies rows [10000·t, 10000·(t+1)) of a 100000×64 array by one 64×64
  matrix, which is staged whole at every point. The ten row blocks tile the array, so after the region the output
  array is the product of the whole array with the matrix: entry (r, c) is the sum over k of x[r, k] · W[k, c].
  Over the extended reals the roundings to bf16 are the identity and the sum is a sum in a commutative monoid.
-/
import proofs.«149527_j74560632259283_2_alg».proof.Proof.Gen.KernelIdeal.Frame
import proofs.«149527_j74560632259283_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Whole
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

namespace Matmul0
/-- The contraction's operand indices at output entry i and contraction index s, coordinate by coordinate: the left
    operand is read at (i₀, s), the right one at (s, i₁). -/
theorem lhs_coord0 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_coord1 (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
theorem rhs_coord0 (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
theorem rhs_coord1 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- So at entry (p, q) and contraction coordinate k the operands are read at (p, k) and (k, q). -/
theorem lhs_index (p : Fin 10000) (q k : Fin 64) :
    dot_S10000x64_S64x64_S10000x64_1_0_0_1_n_n.lhsIdx (ix2 p q) ((contrEquiv1 dot_S10000x64_S64x64_S10000x64_1_0_0_1_n_n 64 rfl rfl).symm k) = ix2 p k :=
  have hk := contrEquiv1_symm_val dot_S10000x64_S64x64_S10000x64_1_0_0_1_n_n 64 rfl rfl k
  funext fun a => Fin.ext (by
    match a with
    | ⟨0, _⟩ => exact lhs_coord0 _ _
    | ⟨1, _⟩ => exact (lhs_coord1 _ _).trans hk)
theorem rhs_index (p : Fin 10000) (q k : Fin 64) :
    dot_S10000x64_S64x64_S10000x64_1_0_0_1_n_n.rhsIdx (ix2 p q) ((contrEquiv1 dot_S10000x64_S64x64_S10000x64_1_0_0_1_n_n 64 rfl rfl).symm k) = ix2 k q :=
  have hk := contrEquiv1_symm_val dot_S10000x64_S64x64_S10000x64_1_0_0_1_n_n 64 rfl rfl k
  funext fun a => Fin.ext (by
    match a with
    | ⟨0, _⟩ => exact (rhs_coord0 _ _).trans hk
    | ⟨1, _⟩ => exact rhs_coord1 _ _)

/-- The block's product at an entry: row p of the block against column q of the matrix (the roundings to bf16 are the
    identity on extended reals, and the accumulator is the zero splat). -/
theorem blockProduct_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  rw [lhs_index, rhs_index]
  rfl

/-- The same at any index of the block. -/
theorem blockProduct_at (x0 : Vec Ideal S10000x64 .f32) (x1 : Vec Ideal S64x64 .f32) (j : S10000x64.Idx) :
    k0_pay1 (F := Ideal) x0 x1 j = ∑ k : Fin 64, x0 (ix2 (j 0) k) * x1 (ix2 k (j 1)) :=
  (congrArg (k0_pay1 (F := Ideal) x0 x1) (eq_ix2 j)).trans (blockProduct_apply x0 x1 (j 0) (j 1))

/-- The zero offsets of a whole-buffer access, as a constant function. -/
theorem zeros2 : (![0, 0] : Fin 2 → Nat) = fun _ => 0 := funext fun a => by fin_cases a <;> rfl

/-- The printed index maps over the ten grid points: the row-block windows sit at block (t, 0), the matrix at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (t : Fin cfg0.N) :
    (dat0 V c).flushed 2 t = ((cfg0.win 2).blk t).view.read (Elt Ideal) (Cert.Spec.proj (V c main_arg0) (V c main_arg3)) := by
  show (cfg0.win 2).cut (grid0.coords t) ((dat0 V c).after 2 t) = _
  rw [after0_2]
  unfold out0_2
  rw [View.canon_unit_zero zeros2]
  simp only [View.ld_unit_zero (S := S10000x64) zeros2, View.ld_unit_zero (S := S64x64) zeros2]
  obtain ⟨e0, e1, e2, e3, e4, e5⟩ := index_facts t
  funext j
  show k0_pay1 (F := Ideal) (iblk0 V c 0 t) (iblk0 V c 1 t) j
    = Cert.Spec.proj (V c main_arg0) (V c main_arg3) (((cfg0.win 2).blk t).view.emb j)
  refine (blockProduct_at (iblk0 V c 0 t) (iblk0 V c 1 t) j).trans ?_
  unfold Cert.Spec.proj
  refine Finset.sum_congr rfl fun k _ => ?_
  have hj0 : (j 0).val < 10000 := (j 0).isLt
  have hj1 : (j 1).val < 64 := (j 1).isLt
  have h0 : (iblk0 V c 0 t : S10000x64.Idx → EReal) (ix2 (j 0) k)
      = (V c main_arg0 : S100000x64.Idx → EReal) (ix2 ((((cfg0.win 2).blk t).view.emb j) 0) k) := by
    show (V c main_arg0 : S100000x64.Idx → EReal) (((cfg0.win 0).blk t).view.emb (ix2 (j 0) k)) = _
    refine congrArg (V c main_arg0 : S100000x64.Idx → EReal) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : (iblk0 V c 1 t : S64x64.Idx → EReal) (ix2 k (j 1))
      = (V c main_arg3 : S64x64.Idx → EReal) (ix2 k ((((cfg0.win 2).blk t).view.emb j) 1)) := by
    show (V c main_arg3 : S64x64.Idx → EReal) (((cfg0.win 1).blk t).view.emb (ix2 k (j 1))) = _
    refine congrArg (V c main_arg3 : S64x64.Idx → EReal) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (· * ·) h0 h1

/-- An index of the array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r lies in the block of point r / 10000: the ten row blocks tile the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, Nat.lt_of_lt_of_eq (by omega) hN.symm⟩
  have ht : t.val = (i 0).val / 10000 := rfl
  obtain ⟨-, -, -, -, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

end Matmul0

/-- The output array after the region: the whole array times the matrix. -/
theorem array0 : (dat0 (F := Ideal) V c).arrAt 2 cfg0.N = Cert.Spec.proj (V c main_arg0) (V c main_arg3) :=
  (dat0 V c).arrAt_eq_of_cover 2 (Cert.Spec.proj (V c main_arg0) (V c main_arg3))
    (fun t _ => Matmul0.flushed_eq V c t) Matmul0.cover

end Cert.KernelIdeal.Whole
end
-- ==== Proof.Region1.lean ====
/-
  Region 1. Each of the ten grid points t takes rows [10000·t, 10000·(t+1)) of a 100000×64 array, adds the 1×64 bias
  row to every row, takes the positive part, and multiplies the result by one 64×64 matrix; the bias row and the
  matrix are staged whole at every point. The ten row blocks tile the array, so after the region the output array is
  the product of the biased, positive-part array with the matrix: entry (r, c) is the sum over k of
  max (a[r, k] + b[0, k]) 0 · W[k, c]. Over the extended reals the roundings to bf16 are the identity.
-/
import proofs.«149527_j74560632259283_2_alg».proof.Proof.Gen.KernelIdeal.Frame
import proofs.«149527_j74560632259283_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Whole
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

namespace PreactMatmul1
/-- The contraction's operand indices at output entry i and contraction index s, coordinate by coordinate: the left
    operand is read at (i₀, s), the right one at (s, i₁). -/
theorem lhs_coord0 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_coord1 (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
theorem rhs_coord0 (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
theorem rhs_coord1 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- So at entry (p, q) and contraction coordinate k the operands are read at (p, k) and (k, q). -/
theorem lhs_index (p : Fin 10000) (q k : Fin 64) :
    dot_S10000x64_S64x64_S10000x64_1_0_0_1_n_n.lhsIdx (ix2 p q) ((contrEquiv1 dot_S10000x64_S64x64_S10000x64_1_0_0_1_n_n 64 rfl rfl).symm k) = ix2 p k :=
  have hk := contrEquiv1_symm_val dot_S10000x64_S64x64_S10000x64_1_0_0_1_n_n 64 rfl rfl k
  funext fun a => Fin.ext (by
    match a with
    | ⟨0, _⟩ => exact lhs_coord0 _ _
    | ⟨1, _⟩ => exact (lhs_coord1 _ _).trans hk)
theorem rhs_index (p : Fin 10000) (q k : Fin 64) :
    dot_S10000x64_S64x64_S10000x64_1_0_0_1_n_n.rhsIdx (ix2 p q) ((contrEquiv1 dot_S10000x64_S64x64_S10000x64_1_0_0_1_n_n 64 rfl rfl).symm k) = ix2 k q :=
  have hk := contrEquiv1_symm_val dot_S10000x64_S64x64_S10000x64_1_0_0_1_n_n 64 rfl rfl k
  funext fun a => Fin.ext (by
    match a with
    | ⟨0, _⟩ => exact (rhs_coord0 _ _).trans hk
    | ⟨1, _⟩ => exact rhs_coord1 _ _)

/-- The body at an entry: row p of the block, with the bias row added and the positive part taken, against column q of
    the matrix (the shape casts are to the same shapes, the roundings to bf16 are the identity on extended reals, the
    accumulator is the zero splat and the zero word is the real 0). -/
theorem preactProduct_apply (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, max (x0 (ix2 p k) + x1 (ix2 (0 : Fin 1) k)) 0 * x2 (ix2 k q) := by
  unfold k1_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  rw [lhs_index, rhs_index]
  show max (x0 (ix2 p k) + broadcastTo S10000x64 x1 broadcasts_S1x64_S10000x64 (ix2 p k)) (Ideal.ofBits .f32 0x00000000#32) * x2 (ix2 k q) = _
  rw [broadcastTo_1b_ab_apply x1 broadcasts_S1x64_S10000x64 p k, Ideal.ofBits_zero_f32]

/-- The same at any index of the block. -/
theorem preactProduct_at (x0 : Vec Ideal S10000x64 .f32) (x1 : Vec Ideal S1x64 .f32) (x2 : Vec Ideal S64x64 .f32) (j : S10000x64.Idx) :
    k1_pay1 (F := Ideal) x0 x1 x2 j
      = ∑ k : Fin 64, max (x0 (ix2 (j 0) k) + x1 (ix2 (0 : Fin 1) k)) 0 * x2 (ix2 k (j 1)) :=
  (congrArg (k1_pay1 (F := Ideal) x0 x1 x2) (eq_ix2 j)).trans (preactProduct_apply x0 x1 x2 (j 0) (j 1))

/-- The zero offsets of a whole-buffer access, as a constant function. -/
theorem zeros2 : (![0, 0] : Fin 2 → Nat) = fun _ => 0 := funext fun a => by fin_cases a <;> rfl

/-- The printed index maps over the ten grid points: the row-block windows sit at block (t, 0), the bias row and the
    matrix at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole array, biased and cut at zero, times the matrix. -/
theorem flushed_eq (t : Fin cfg1.N) :
    (dat1 V c).flushed 3 t = ((cfg1.win 3).blk t).view.read (Elt Ideal)
      (Cert.Spec.proj (Cert.Spec.act (V c main_v45) (V c main_v46)) (V c main_arg5)) := by
  show (cfg1.win 3).cut (grid1.coords t) ((dat1 V c).after 3 t) = _
  rw [after1_3]
  unfold out1_3
  rw [View.canon_unit_zero zeros2]
  simp only [View.ld_unit_zero (S := S10000x64) zeros2, View.ld_unit_zero (S := S1x64) zeros2, View.ld_unit_zero (S := S64x64) zeros2]
  obtain ⟨e0, e1, e2, e3, e4, e5, e6, e7⟩ := index_facts t
  funext j
  show k1_pay1 (F := Ideal) (iblk1 V c 0 t) (iblk1 V c 1 t) (iblk1 V c 2 t) j
    = Cert.Spec.proj (Cert.Spec.act (V c main_v45) (V c main_v46)) (V c main_arg5) (((cfg1.win 3).blk t).view.emb j)
  refine (preactProduct_at (iblk1 V c 0 t) (iblk1 V c 1 t) (iblk1 V c 2 t) j).trans ?_
  unfold Cert.Spec.proj Cert.Spec.act
  refine Finset.sum_congr rfl fun k _ => ?_
  have hj0 : (j 0).val < 10000 := (j 0).isLt
  have hj1 : (j 1).val < 64 := (j 1).isLt
  have h0 : (iblk1 V c 0 t : S10000x64.Idx → EReal) (ix2 (j 0) k)
      = (V c main_v45 : S100000x64.Idx → EReal) (ix2 ((((cfg1.win 3).blk t).view.emb j) 0) k) := by
    show (V c main_v45 : S100000x64.Idx → EReal) (((cfg1.win 0).blk t).view.emb (ix2 (j 0) k)) = _
    refine congrArg (V c main_v45 : S100000x64.Idx → EReal) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : (iblk1 V c 1 t : S1x64.Idx → EReal) (ix2 (0 : Fin 1) k)
      = (V c main_v46 : S1x64.Idx → EReal) (ix2 (0 : Fin 1) k) := by
    show (V c main_v46 : S1x64.Idx → EReal) (((cfg1.win 1).blk t).view.emb (ix2 (0 : Fin 1) k)) = _
    refine congrArg (V c main_v46 : S1x64.Idx → EReal) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : (iblk1 V c 2 t : S64x64.Idx → EReal) (ix2 k (j 1))
      = (V c main_arg5 : S64x64.Idx → EReal) (ix2 k ((((cfg1.win 3).blk t).view.emb j) 1)) := by
    show (V c main_arg5 : S64x64.Idx → EReal) (((cfg1.win 2).blk t).view.emb (ix2 k (j 1))) = _
    refine congrArg (V c main_arg5 : S64x64.Idx → EReal) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  exact congrArg₂ (· * ·) (congrArg₂ (fun a b : EReal => max (a + b) 0) h0 h1) h2

/-- An index of the array is in point t's block iff each coordinate is in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Row r lies in the block of point r / 10000: the ten row blocks tile the array. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  let t : Fin cfg1.N := ⟨(i 0).val / 10000, Nat.lt_of_lt_of_eq (by omega) hN.symm⟩
  have ht : t.val = (i 0).val / 10000 := rfl
  obtain ⟨-, -, -, -, -, -, e6, e7⟩ := index_facts t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

end PreactMatmul1

/-- The output array after the region: the input array with the bias row added to every row and the positive part
    taken, times the matrix. -/
theorem array1 : (dat1 (F := Ideal) V c).arrAt 3 cfg1.N
    = Cert.Spec.proj (Cert.Spec.act (V c main_v45) (V c main_v46)) (V c main_arg5) :=
  (dat1 V c).arrAt_eq_of_cover 3 (Cert.Spec.proj (Cert.Spec.act (V c main_v45) (V c main_v46)) (V c main_arg5))
    (fun t _ => PreactMatmul1.flushed_eq V c t) PreactMatmul1.cover

end Cert.KernelIdeal.Whole
end
-- ==== Proof.Region2.lean ====
/-
  Region 2. Each of the ten grid points t takes rows [10000·t, 10000·(t+1)) of a 100000×64 array, adds the 1×64 bias
  row to every row, takes the positive part, and multiplies the result by one 64×64 matrix; the bias row and the
  matrix are staged whole at every point. The ten row blocks tile the array, so after the region the output array is
  the product of the biased, positive-part array with the matrix: entry (r, c) is the sum over k of
  max (a[r, k] + b[0, k]) 0 · W[k, c]. Over the extended reals the roundings to bf16 are the identity.
-/
import proofs.«149527_j74560632259283_2_alg».proof.Proof.Gen.KernelIdeal.Frame
import proofs.«149527_j74560632259283_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Whole
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

namespace PreactMatmul2
/-- The contraction's operand indices at output entry i and contraction index s, coordinate by coordinate: the left
    operand is read at (i₀, s), the right one at (s, i₁). -/
theorem lhs_coord0 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_coord1 (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
theorem rhs_coord0 (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
theorem rhs_coord1 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- So at entry (p, q) and contraction coordinate k the operands are read at (p, k) and (k, q). -/
theorem lhs_index (p : Fin 10000) (q k : Fin 64) :
    dot_S10000x64_S64x64_S10000x64_1_0_0_1_n_n.lhsIdx (ix2 p q) ((contrEquiv1 dot_S10000x64_S64x64_S10000x64_1_0_0_1_n_n 64 rfl rfl).symm k) = ix2 p k :=
  have hk := contrEquiv1_symm_val dot_S10000x64_S64x64_S10000x64_1_0_0_1_n_n 64 rfl rfl k
  funext fun a => Fin.ext (by
    match a with
    | ⟨0, _⟩ => exact lhs_coord0 _ _
    | ⟨1, _⟩ => exact (lhs_coord1 _ _).trans hk)
theorem rhs_index (p : Fin 10000) (q k : Fin 64) :
    dot_S10000x64_S64x64_S10000x64_1_0_0_1_n_n.rhsIdx (ix2 p q) ((contrEquiv1 dot_S10000x64_S64x64_S10000x64_1_0_0_1_n_n 64 rfl rfl).symm k) = ix2 k q :=
  have hk := contrEquiv1_symm_val dot_S10000x64_S64x64_S10000x64_1_0_0_1_n_n 64 rfl rfl k
  funext fun a => Fin.ext (by
    match a with
    | ⟨0, _⟩ => exact (rhs_coord0 _ _).trans hk
    | ⟨1, _⟩ => exact rhs_coord1 _ _)

/-- The body at an entry: row p of the block, with the bias row added and the positive part taken, against column q of
    the matrix (the shape casts are to the same shapes, the roundings to bf16 are the identity on extended reals, the
    accumulator is the zero splat and the zero word is the real 0). -/
theorem preactProduct_apply (x0 : Vec Ideal S10000x64 .f32) (x1 : Vec Ideal S1x64 .f32) (x2 : Vec Ideal S64x64 .f32)
    (p : Fin 10000) (q : Fin 64) :
    k2_pay1 (F := Ideal) x0 x1 x2 (ix2 p q)
      = ∑ k : Fin 64, max (x0 (ix2 p k) + x1 (ix2 (0 : Fin 1) k)) 0 * x2 (ix2 k q) := by
  unfold k2_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  rw [lhs_index, rhs_index]
  show max (x0 (ix2 p k) + broadcastTo S10000x64 x1 broadcasts_S1x64_S10000x64 (ix2 p k)) (Ideal.ofBits .f32 0x00000000#32) * x2 (ix2 k q) = _
  rw [broadcastTo_1b_ab_apply x1 broadcasts_S1x64_S10000x64 p k, Ideal.ofBits_zero_f32]

/-- The same at any index of the block. -/
theorem preactProduct_at (x0 : Vec Ideal S10000x64 .f32) (x1 : Vec Ideal S1x64 .f32) (x2 : Vec Ideal S64x64 .f32) (j : S10000x64.Idx) :
    k2_pay1 (F := Ideal) x0 x1 x2 j
      = ∑ k : Fin 64, max (x0 (ix2 (j 0) k) + x1 (ix2 (0 : Fin 1) k)) 0 * x2 (ix2 k (j 1)) :=
  (congrArg (k2_pay1 (F := Ideal) x0 x1 x2) (eq_ix2 j)).trans (preactProduct_apply x0 x1 x2 (j 0) (j 1))

/-- The zero offsets of a whole-buffer access, as a constant function. -/
theorem zeros2 : (![0, 0] : Fin 2 → Nat) = fun _ => 0 := funext fun a => by fin_cases a <;> rfl

/-- The printed index maps over the ten grid points: the row-block windows sit at block (t, 0), the bias row and the
    matrix at (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole array, biased and cut at zero, times the matrix. -/
theorem flushed_eq (t : Fin cfg2.N) :
    (dat2 V c).flushed 3 t = ((cfg2.win 3).blk t).view.read (Elt Ideal)
      (Cert.Spec.proj (Cert.Spec.act (V c main_v60) (V c main_v61)) (V c main_arg7)) := by
  show (cfg2.win 3).cut (grid2.coords t) ((dat2 V c).after 3 t) = _
  rw [after2_3]
  unfold out2_3
  rw [View.canon_unit_zero zeros2]
  simp only [View.ld_unit_zero (S := S10000x64) zeros2, View.ld_unit_zero (S := S1x64) zeros2, View.ld_unit_zero (S := S64x64) zeros2]
  obtain ⟨e0, e1, e2, e3, e4, e5, e6, e7⟩ := index_facts t
  funext j
  show k2_pay1 (F := Ideal) (iblk2 V c 0 t) (iblk2 V c 1 t) (iblk2 V c 2 t) j
    = Cert.Spec.proj (Cert.Spec.act (V c main_v60) (V c main_v61)) (V c main_arg7) (((cfg2.win 3).blk t).view.emb j)
  refine (preactProduct_at (iblk2 V c 0 t) (iblk2 V c 1 t) (iblk2 V c 2 t) j).trans ?_
  unfold Cert.Spec.proj Cert.Spec.act
  refine Finset.sum_congr rfl fun k _ => ?_
  have hj0 : (j 0).val < 10000 := (j 0).isLt
  have hj1 : (j 1).val < 64 := (j 1).isLt
  have h0 : (iblk2 V c 0 t : S10000x64.Idx → EReal) (ix2 (j 0) k)
      = (V c main_v60 : S100000x64.Idx → EReal) (ix2 ((((cfg2.win 3).blk t).view.emb j) 0) k) := by
    show (V c main_v60 : S100000x64.Idx → EReal) (((cfg2.win 0).blk t).view.emb (ix2 (j 0) k)) = _
    refine congrArg (V c main_v60 : S100000x64.Idx → EReal) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have h1 : (iblk2 V c 1 t : S1x64.Idx → EReal) (ix2 (0 : Fin 1) k)
      = (V c main_v61 : S1x64.Idx → EReal) (ix2 (0 : Fin 1) k) := by
    show (V c main_v61 : S1x64.Idx → EReal) (((cfg2.win 1).blk t).view.emb (ix2 (0 : Fin 1) k)) = _
    refine congrArg (V c main_v61 : S1x64.Idx → EReal) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  have h2 : (iblk2 V c 2 t : S64x64.Idx → EReal) (ix2 k (j 1))
      = (V c main_arg7 : S64x64.Idx → EReal) (ix2 k ((((cfg2.win 3).blk t).view.emb j) 1)) := by
    show (V c main_arg7 : S64x64.Idx → EReal) (((cfg2.win 2).blk t).view.emb (ix2 k (j 1))) = _
    refine congrArg (V c main_arg7 : S64x64.Idx → EReal) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  exact congrArg₂ (· * ·) (congrArg₂ (fun a b : EReal => max (a + b) 0) h0 h1) h2

/-- An index of the array is in point t's block iff each coordinate is in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v62).slice (win2_3.rect t)).set ↔ _
  rw [View.set_slice_whole, Rect.mem_set_unit]
  exact Iff.rfl

/-- Row r lies in the block of point r / 10000: the ten row blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  let t : Fin cfg2.N := ⟨(i 0).val / 10000, Nat.lt_of_lt_of_eq (by omega) hN.symm⟩
  have ht : t.val = (i 0).val / 10000 := rfl
  obtain ⟨-, -, -, -, -, -, e6, e7⟩ := index_facts t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

end PreactMatmul2

/-- The output array after the region: the input array with the bias row added to every row and the positive part
    taken, times the matrix. -/
theorem array2 : (dat2 (F := Ideal) V c).arrAt 3 cfg2.N
    = Cert.Spec.proj (Cert.Spec.act (V c main_v60) (V c main_v61)) (V c main_arg7) :=
  (dat2 V c).arrAt_eq_of_cover 3 (Cert.Spec.proj (Cert.Spec.act (V c main_v60) (V c main_v61)) (V c main_arg7))
    (fun t _ => PreactMatmul2.flushed_eq V c t) PreactMatmul2.cover

end Cert.KernelIdeal.Whole
end
-- ==== Proof.Region3.lean ====
/-
  Region 3. Each of the ten grid points t takes rows [10000·t, 10000·(t+1)) of a 100000×64 array, adds the 1×64 bias
  row (staged whole at every point) to every row and takes the positive part. The ten row blocks tile the array, so
  after the region the output array is, entry by entry, max (a[r, c] + b[0, c]) 0.
-/
import proofs.«149527_j74560632259283_2_alg».proof.Proof.Gen.KernelIdeal.Frame
import proofs.«149527_j74560632259283_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Whole
open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

namespace BiasRelu3
/-- The body at an entry: the block's entry plus the bias row's entry in that column, then the positive part (the
    shape casts are to the same shapes, the bias row is broadcast over the rows, the zero word is the real 0). -/
theorem biasRelu_apply (x0 : Vec Ideal S10000x64 .f32) (x1 : Vec Ideal S1x64 .f32) (p : Fin 10000) (q : Fin 64) :
    k3_pay1 (F := Ideal) x0 x1 (ix2 p q) = max (x0 (ix2 p q) + x1 (ix2 (0 : Fin 1) q)) 0 := by
  unfold k3_pay1
  simp only [shapeCast_self]
  show max (x0 (ix2 p q) + broadcastTo S10000x64 x1 broadcasts_S1x64_S10000x64 (ix2 p q)) (Ideal.ofBits .f32 0x00000000#32) = _
  rw [broadcastTo_1b_ab_apply x1 broadcasts_S1x64_S10000x64 p q, Ideal.ofBits_zero_f32]

/-- The same at any index of the block. -/
theorem biasRelu_at (x0 : Vec Ideal S10000x64 .f32) (x1 : Vec Ideal S1x64 .f32) (j : S10000x64.Idx) :
    k3_pay1 (F := Ideal) x0 x1 j = max (x0 j + x1 (ix2 (0 : Fin 1) (j 1))) 0 :=
  (congrArg (k3_pay1 (F := Ideal) x0 x1) (eq_ix2 j)).trans
    ((biasRelu_apply x0 x1 (j 0) (j 1)).trans
      (congrArg (fun z : S10000x64.Idx => max (x0 z + x1 (ix2 (0 : Fin 1) (j 1))) 0) (eq_ix2 j).symm))

/-- The zero offsets of a whole-buffer access, as a constant function. -/
theorem zeros2 : (![0, 0] : Fin 2 → Nat) = fun _ => 0 := funext fun a => by fin_cases a <;> rfl

/-- The printed index maps over the ten grid points: the row-block windows sit at block (t, 0), the bias row at (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole array with the bias added and the positive part taken. -/
theorem flushed_eq (t : Fin cfg3.N) :
    (dat3 V c).flushed 2 t = ((cfg3.win 2).blk t).view.read (Elt Ideal) (Cert.Spec.act (V c main_v75) (V c main_v76)) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S1x64) zeros2]
  obtain ⟨e0, e1, e2, e3, e4, e5⟩ := index_facts t
  funext j
  show k3_pay1 (F := Ideal) (iblk3 V c 0 t) (iblk3 V c 1 t) j
    = Cert.Spec.act (V c main_v75) (V c main_v76) (((cfg3.win 2).blk t).view.emb j)
  refine (biasRelu_at (iblk3 V c 0 t) (iblk3 V c 1 t) j).trans ?_
  unfold Cert.Spec.act
  have hj0 : (j 0).val < 10000 := (j 0).isLt
  have hj1 : (j 1).val < 64 := (j 1).isLt
  have h0 : (iblk3 V c 0 t : S10000x64.Idx → EReal) j
      = (V c main_v75 : S100000x64.Idx → EReal) (((cfg3.win 2).blk t).view.emb j) := by
    show (V c main_v75 : S100000x64.Idx → EReal) (((cfg3.win 0).blk t).view.emb j) = _
    refine congrArg (V c main_v75 : S100000x64.Idx → EReal) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : (iblk3 V c 1 t : S1x64.Idx → EReal) (ix2 (0 : Fin 1) (j 1))
      = (V c main_v76 : S1x64.Idx → EReal) (ix2 (0 : Fin 1) ((((cfg3.win 2).blk t).view.emb j) 1)) := by
    show (V c main_v76 : S1x64.Idx → EReal) (((cfg3.win 1).blk t).view.emb (ix2 (0 : Fin 1) (j 1))) = _
    refine congrArg (V c main_v76 : S1x64.Idx → EReal) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact congrArg₂ (fun a b : EReal => max (a + b) 0) h0 h1

/-- An index of the array is in point t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v77).slice (win3_2.rect t)).set ↔ _
  rw [View.set_slice_whole, Rect.mem_set_unit]
  exact Iff.rfl

/-- Row r lies in the block of point r / 10000: the ten row blocks tile the array. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  let t : Fin cfg3.N := ⟨(i 0).val / 10000, Nat.lt_of_lt_of_eq (by omega) hN.symm⟩
  have ht : t.val = (i 0).val / 10000 := rfl
  obtain ⟨-, -, -, -, e4, e5⟩ := index_facts t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

end BiasRelu3

/-- The output array after the region: the bias row added to every row of the input array, then the positive part. -/
theorem array3 : (dat3 (F := Ideal) V c).arrAt 2 cfg3.N = Cert.Spec.act (V c main_v75) (V c main_v76) :=
  (dat3 V c).arrAt_eq_of_cover 2 (Cert.Spec.act (V c main_v75) (V c main_v76))
    (fun t _ => BiasRelu3.flushed_eq V c t) BiasRelu3.cover

end Cert.KernelIdeal.Whole
end
-- ==== Proof.Region4.lean ====
/-
  Region 4, the edge classifier, as one function of whole arrays.

  The grid has 400 points. Point t holds rows [4000·t, 4000·(t+1)) of the source features, of the target features and of the
  edge attributes (blocks of 4000×64, 4000×64 and 4000×16), the three pieces of the classifier matrix (64×15, 64×15, 16×15) and
  the bias row (1×15) whole, and writes rows [4000·t, 4000·(t+1)) of the 1600000×15 result.

  On a block the body computes the logits z = x₀·W₀ + x₁·W₁ + x₂·W₂ + b: three contractions accumulated into zero and added
  left to right, then the bias row repeated down the rows. For every row p it takes the maximum M p of z p q over the 15
  columns, folded from −∞; the shifted row z p q − M p; and last z p q − M p − log (∑ q', exp (z p q' − M p)). Read at
  element (p, q) of block t, that is the row-wise log-softmax of the logits at row 4000·t + p and column q of the whole
  arrays. Row r of the array lies in the block of point r / 4000, so after the 400 points the array holds the log-softmax of
  the logits everywhere.

  A format change is the identity on extended reals, and a sum of extended reals is a sum in a commutative monoid: nothing
  about finiteness is used.
-/
import proofs.«149527_j74560632259283_2_alg».proof.Proof.Gen.KernelIdeal.Frame
import proofs.«149527_j74560632259283_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Whole
open Idealize.ShloMosaic Idealize.ShloMosaic.TcCoe Idealize.SL.Sem Cert.KernelIdeal Cert.KernelIdeal.Gen
variable (V : (c : Dev nD) → (b : Ref sig .tc) → Buf (Elt Ideal) ((c : Thread nD τ).loc b)) (c : Dev nD)
open Idealize.ShloMosaic.ValueIdx

namespace Region4

/-! ## Layout operations of a column, read at an index -/

section Column
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two contractions -/

theorem lhs64_0 (i : S4000x15.Idx) (k : dot_S4000x64_S64x15_S4000x15_1_0_0_1_n_n.contr.Idx) :
    (dot_S4000x64_S64x15_S4000x15_1_0_0_1_n_n.lhsIdx i k 0).val = (i 0).val := by
  unfold DotDims.lhsIdx
  rw [dif_neg (show ¬(0 : Fin S4000x64.rank) ∈ dot_S4000x64_S64x15_S4000x15_1_0_0_1_n_n.lhsBatch by decide), dif_pos (show (0 : Fin S4000x64.rank) ∈ dot_S4000x64_S64x15_S4000x15_1_0_0_1_n_n.lhsNonContracting by decide)]
  rfl
theorem lhs64_1 (i : S4000x15.Idx) (k : dot_S4000x64_S64x15_S4000x15_1_0_0_1_n_n.contr.Idx) :
    (dot_S4000x64_S64x15_S4000x15_1_0_0_1_n_n.lhsIdx i k 1).val = (k ⟨0, by decide⟩).val :=
  dot_S4000x64_S64x15_S4000x15_1_0_0_1_n_n.lhsIdx_val_of_single rfl i k
theorem rhs64_0 (i : S4000x15.Idx) (k : dot_S4000x64_S64x15_S4000x15_1_0_0_1_n_n.contr.Idx) :
    (dot_S4000x64_S64x15_S4000x15_1_0_0_1_n_n.rhsIdx i k 0).val = (k ⟨0, by decide⟩).val :=
  dot_S4000x64_S64x15_S4000x15_1_0_0_1_n_n.rhsIdx_val_of_single rfl i k
theorem rhs64_1 (i : S4000x15.Idx) (k : dot_S4000x64_S64x15_S4000x15_1_0_0_1_n_n.contr.Idx) :
    (dot_S4000x64_S64x15_S4000x15_1_0_0_1_n_n.rhsIdx i k 1).val = (i 1).val := by
  unfold DotDims.rhsIdx
  rw [dif_neg (show ¬(1 : Fin S64x15.rank) ∈ dot_S4000x64_S64x15_S4000x15_1_0_0_1_n_n.rhsBatch by decide), dif_pos (show (1 : Fin S64x15.rank) ∈ dot_S4000x64_S64x15_S4000x15_1_0_0_1_n_n.rhsNonContracting by decide)]
  rfl

/-- A 4000×64 block times a 64×15 matrix, accumulated into zero: entry (p, q) is the sum over k of a[p, k] · b[k, q]. -/
theorem matmul64_apply (a : FVec Ideal S4000x64 .bf16) (b : FVec Ideal S64x15 .bf16) (p : Fin 4000) (q : Fin 15) :
    matmul dot_S4000x64_S64x15_S4000x15_1_0_0_1_n_n none a b (constant (F := Ideal) S4000x15 .f32 0x00000000#32) (ix2 p q)
      = ∑ k : Fin 64, a (ix2 p k) * b (ix2 k q) := by
  show FloatOps.matmul dot_S4000x64_S64x15_S4000x15_1_0_0_1_n_n none a b (constant (F := Ideal) S4000x15 .f32 0x00000000#32) (ix2 p q) = _
  rw [Ideal.matmul_constant_zero_apply, ← Equiv.sum_comp (ValueIdx.contrEquiv1 dot_S4000x64_S64x15_S4000x15_1_0_0_1_n_n 64 rfl rfl).symm]
  refine Finset.sum_congr rfl fun k _ => ?_
  have hk := ValueIdx.contrEquiv1_symm_val dot_S4000x64_S64x15_S4000x15_1_0_0_1_n_n 64 rfl rfl k
  have el : dot_S4000x64_S64x15_S4000x15_1_0_0_1_n_n.lhsIdx (ix2 p q) ((ValueIdx.contrEquiv1 dot_S4000x64_S64x15_S4000x15_1_0_0_1_n_n 64 rfl rfl).symm k) = ix2 p k := funext fun a => Fin.ext (by
    match a with
    | ⟨0, _⟩ => exact lhs64_0 _ _
    | ⟨1, _⟩ => exact (lhs64_1 _ _).trans hk)
  have er : dot_S4000x64_S64x15_S4000x15_1_0_0_1_n_n.rhsIdx (ix2 p q) ((ValueIdx.contrEquiv1 dot_S4000x64_S64x15_S4000x15_1_0_0_1_n_n 64 rfl rfl).symm k) = ix2 k q := funext fun a => Fin.ext (by
    match a with
    | ⟨0, _⟩ => exact (rhs64_0 _ _).trans hk
    | ⟨1, _⟩ => exact rhs64_1 _ _)
  rw [el, er]

theorem lhs16_0 (i : S4000x15.Idx) (k : dot_S4000x16_S16x15_S4000x15_1_0_0_1_n_n.contr.Idx) :
    (dot_S4000x16_S16x15_S4000x15_1_0_0_1_n_n.lhsIdx i k 0).val = (i 0).val := by
  unfold DotDims.lhsIdx
  rw [dif_neg (show ¬(0 : Fin S4000x16.rank) ∈ dot_S4000x16_S16x15_S4000x15_1_0_0_1_n_n.lhsBatch by decide), dif_pos (show (0 : Fin S4000x16.rank) ∈ dot_S4000x16_S16x15_S4000x15_1_0_0_1_n_n.lhsNonContracting by decide)]
  rfl
theorem lhs16_1 (i : S4000x15.Idx) (k : dot_S4000x16_S16x15_S4000x15_1_0_0_1_n_n.contr.Idx) :
    (dot_S4000x16_S16x15_S4000x15_1_0_0_1_n_n.lhsIdx i k 1).val = (k ⟨0, by decide⟩).val :=
  dot_S4000x16_S16x15_S4000x15_1_0_0_1_n_n.lhsIdx_val_of_single rfl i k
theorem rhs16_0 (i : S4000x15.Idx) (k : dot_S4000x16_S16x15_S4000x15_1_0_0_1_n_n.contr.Idx) :
    (dot_S4000x16_S16x15_S4000x15_1_0_0_1_n_n.rhsIdx i k 0).val = (k ⟨0, by decide⟩).val :=
  dot_S4000x16_S16x15_S4000x15_1_0_0_1_n_n.rhsIdx_val_of_single rfl i k
theorem rhs16_1 (i : S4000x15.Idx) (k : dot_S4000x16_S16x15_S4000x15_1_0_0_1_n_n.contr.Idx) :
    (dot_S4000x16_S16x15_S4000x15_1_0_0_1_n_n.rhsIdx i k 1).val = (i 1).val := by
  unfold DotDims.rhsIdx
  rw [dif_neg (show ¬(1 : Fin S16x15.rank) ∈ dot_S4000x16_S16x15_S4000x15_1_0_0_1_n_n.rhsBatch by decide), dif_pos (show (1 : Fin S16x15.rank) ∈ dot_S4000x16_S16x15_S4000x15_1_0_0_1_n_n.rhsNonContracting by decide)]
  rfl

/-- A 4000×16 block times a 16×15 matrix, accumulated into zero: entry (p, q) is the sum over k of a[p, k] · b[k, q]. -/
theorem matmul16_apply (a : FVec Ideal S4000x16 .bf16) (b : FVec Ideal S16x15 .bf16) (p : Fin 4000) (q : Fin 15) :
    matmul dot_S4000x16_S16x15_S4000x15_1_0_0_1_n_n none a b (constant (F := Ideal) S4000x15 .f32 0x00000000#32) (ix2 p q)
      = ∑ k : Fin 16, a (ix2 p k) * b (ix2 k q) := by
  show FloatOps.matmul dot_S4000x16_S16x15_S4000x15_1_0_0_1_n_n none a b (constant (F := Ideal) S4000x15 .f32 0x00000000#32) (ix2 p q) = _
  rw [Ideal.matmul_constant_zero_apply, ← Equiv.sum_comp (ValueIdx.contrEquiv1 dot_S4000x16_S16x15_S4000x15_1_0_0_1_n_n 16 rfl rfl).symm]
  refine Finset.sum_congr rfl fun k _ => ?_
  have hk := ValueIdx.contrEquiv1_symm_val dot_S4000x16_S16x15_S4000x15_1_0_0_1_n_n 16 rfl rfl k
  have el : dot_S4000x16_S16x15_S4000x15_1_0_0_1_n_n.lhsIdx (ix2 p q) ((ValueIdx.contrEquiv1 dot_S4000x16_S16x15_S4000x15_1_0_0_1_n_n 16 rfl rfl).symm k) = ix2 p k := funext fun a => Fin.ext (by
    match a with
    | ⟨0, _⟩ => exact lhs16_0 _ _
    | ⟨1, _⟩ => exact (lhs16_1 _ _).trans hk)
  have er : dot_S4000x16_S16x15_S4000x15_1_0_0_1_n_n.rhsIdx (ix2 p q) ((ValueIdx.contrEquiv1 dot_S4000x16_S16x15_S4000x15_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-! ## The two lane reductions over a row's 15 entries -/

/-- The index of row `p` with column `q` put back. -/
theorem lift_row (p : Fin 4000) (q : Fin 15) : reduces_S4000x15_S4000.lift (ix1 p) q = ix2 p q :=
  funext fun a => Fin.ext (by
    match a with
    | ⟨0, _⟩ => rfl
    | ⟨1, _⟩ => rfl)

/-- A row's maximum: the fold of `max` from the accumulator's value over the row's entries. -/
theorem rowMax_apply (v : FVec Ideal S4000x15 .f32) (p : Fin 4000) :
    multiReduction (F := Ideal) .maximumf [1] S4000 v 0xFF800000#32 reduces_S4000x15_S4000 (.inl rfl) rfl (ix1 p)
      = (Finset.univ : Finset (Fin 15)).fold max (Ideal.ofBits .f32 0xFF800000#32) (fun q => v (ix2 p q)) :=
  (Ideal.multiReduction_maximumf_single v _ reduces_S4000x15_S4000 (.inl rfl) rfl (ix1 p)).trans
    (congrArg ((Finset.univ : Finset (Fin 15)).fold max (Ideal.ofBits .f32 0xFF800000#32)) (funext fun q => congrArg v (lift_row p q)))

/-- A row's sum. -/
theorem rowSum_apply (v : FVec Ideal S4000x15 .f32) (p : Fin 4000) :
    multiReduction (F := Ideal) .add [1] S4000 v 0x00000000#32 reduces_S4000x15_S4000 (.inl rfl) rfl (ix1 p)
      = ∑ q : Fin 15, v (ix2 p q) :=
  (Ideal.multiReduction_add_single v _ reduces_S4000x15_S4000 (.inl rfl) rfl (ix1 p)).trans
    (Finset.sum_congr rfl fun q _ => congrArg v (lift_row p q))

/-! ## The body's arithmetic in three stages -/

/-- Exponential and logarithm of a vector, read at an index. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- Stage 1, the logits of a block: the three products added left to right, then the bias row. -/
def blockZ (v0 : Vec Ideal S4000x64 .f32) (v3 : Vec Ideal S4000x64 .f32) (v6 : Vec Ideal S4000x16 .f32) (v8 : Vec Ideal S64x15 .f32) (v11 : Vec Ideal S64x15 .f32) (v14 : Vec Ideal S16x15 .f32) (v22 : Vec Ideal S1x15 .f32) : FVec Ideal S4000x15 .f32 :=
  have v1 : FVec Ideal S4000x64 .f32 := shapeCast S4000x64 v0 shapeCasts_S4000x64_S4000x64
  have v2 : FVec Ideal S4000x64 .bf16 := truncf .bf16 v1 bitsLt_bf16_f32
  have v4 : FVec Ideal S4000x64 .f32 := shapeCast S4000x64 v3 shapeCasts_S4000x64_S4000x64
  have v5 : FVec Ideal S4000x64 .bf16 := truncf .bf16 v4 bitsLt_bf16_f32
  have v7 : FVec Ideal S4000x16 .bf16 := truncf .bf16 v6 bitsLt_bf16_f32
  have v9 : FVec Ideal S64x15 .f32 := shapeCast S64x15 v8 shapeCasts_S64x15_S64x15
  have v10 : FVec Ideal S64x15 .bf16 := truncf .bf16 v9 bitsLt_bf16_f32
  have v12 : FVec Ideal S64x15 .f32 := shapeCast S64x15 v11 shapeCasts_S64x15_S64x15
  have v13 : FVec Ideal S64x15 .bf16 := truncf .bf16 v12 bitsLt_bf16_f32
  have v15 : FVec Ideal S16x15 .f32 := shapeCast S16x15 v14 shapeCasts_S16x15_S16x15
  have v16 : FVec Ideal S16x15 .bf16 := truncf .bf16 v15 bitsLt_bf16_f32
  have cst : FVec Ideal S4000x15 .f32 := constant S4000x15 .f32 0x00000000#32
  have v17 : FVec Ideal S4000x15 .f32 := matmul dot_S4000x64_S64x15_S4000x15_1_0_0_1_n_n none v2 v10 cst
  have cst_11 : FVec Ideal S4000x15 .f32 := constant S4000x15 .f32 0x00000000#32
  have v18 : FVec Ideal S4000x15 .f32 := matmul dot_S4000x64_S64x15_S4000x15_1_0_0_1_n_n none v5 v13 cst_11
  have v19 : FVec Ideal S4000x15 .f32 := addf v17 v18
  have cst_12 : FVec Ideal S4000x15 .f32 := constant S4000x15 .f32 0x00000000#32
  have v20 : FVec Ideal S4000x15 .f32 := matmul dot_S4000x16_S16x15_S4000x15_1_0_0_1_n_n none v7 v16 cst_12
  have v21 : FVec Ideal S4000x15 .f32 := addf v19 v20
  have v23 : FVec Ideal S1x15 .f32 := shapeCast S1x15 v22 shapeCasts_S1x15_S1x15
  have v24 : FVec Ideal S4000x15 .f32 := broadcastTo S4000x15 v23 broadcasts_S1x15_S4000x15
  have v25 : FVec Ideal S4000x15 .f32 := addf v21 v24
  v25

/-- Stage 2: every row shifted by its maximum. -/
def shiftRows (v25 : FVec Ideal S4000x15 .f32) : FVec Ideal S4000x15 .f32 :=
  have v26 : FVec Ideal S4000 .f32 := multiReduction .maximumf [1] S4000 v25 0xFF800000#32 reduces_S4000x15_S4000 (.inl rfl) rfl
  have v27 : FVec Ideal S4000x1 .f32 := shapeCast S4000x1 v26 shapeCasts_S4000_S4000x1
  have v28 : FVec Ideal S4000x15 .f32 := broadcastTo S4000x15 v27 broadcasts_S4000x1_S4000x15
  have v29 : FVec Ideal S4000x15 .f32 := subf v25 v28
  v29

/-- Stage 3: the logarithm of each row's sum of exponentials, subtracted from the row. -/
def subLogSumExp (v29 : FVec Ideal S4000x15 .f32) : FVec Ideal S4000x15 .f32 :=
  have v30 : FVec Ideal S4000x15 .f32 := exp v29
  have v31 : FVec Ideal S4000 .f32 := multiReduction .add [1] S4000 v30 0x00000000#32 reduces_S4000x15_S4000 (.inl rfl) rfl
  have v32 : FVec Ideal S4000x1 .f32 := shapeCast S4000x1 v31 shapeCasts_S4000_S4000x1
  have v33 : FVec Ideal S4000x1 .f32 := log v32
  have v34 : FVec Ideal S4000x15 .f32 := broadcastTo S4000x15 v33 broadcasts_S4000x1_S4000x15
  have v35 : FVec Ideal S4000x15 .f32 := subf v29 v34
  v35

/-- The body's payload is the three stages composed. -/
theorem pay4_stages (x0 x1 : Vec Ideal S4000x64 .f32) (x2 : Vec Ideal S4000x16 .f32) (x3 x4 : Vec Ideal S64x15 .f32) (x5 : Vec Ideal S16x15 .f32) (x6 : Vec Ideal S1x15 .f32) :
    k4_pay1 (F := Ideal) x0 x1 x2 x3 x4 x5 x6 = subLogSumExp (shiftRows (blockZ x0 x1 x2 x3 x4 x5 x6)) := rfl

/-- The logit of row `p` of a block at column `q`: the three products' sums, then the bias. -/
def blockLogit (x0 x1 : S4000x64.Idx → EReal) (x2 : S4000x16.Idx → EReal) (x3 x4 : S64x15.Idx → EReal) (x5 : S16x15.Idx → EReal) (x6 : S1x15.Idx → EReal)
    (p : Fin 4000) (q : Fin 15) : EReal :=
  (∑ k : Fin 64, x0 (ix2 p k) * x3 (ix2 k q)) + (∑ k : Fin 64, x1 (ix2 p k) * x4 (ix2 k q))
    + (∑ k : Fin 16, x2 (ix2 p k) * x5 (ix2 k q)) + x6 (ix2 0 q)

/-- A row's maximum, folded from the accumulator's value. -/
def foldMax (z : Fin 15 → EReal) : EReal :=
  (Finset.univ : Finset (Fin 15)).fold max (Ideal.ofBits .f32 0xFF800000#32) z

theorem blockZ_apply (x0 x1 : Vec Ideal S4000x64 .f32) (x2 : Vec Ideal S4000x16 .f32) (x3 x4 : Vec Ideal S64x15 .f32) (x5 : Vec Ideal S16x15 .f32) (x6 : Vec Ideal S1x15 .f32) (p : Fin 4000) (q : Fin 15) :
    blockZ x0 x1 x2 x3 x4 x5 x6 (ix2 p q) = blockLogit x0 x1 x2 x3 x4 x5 x6 p q := by
  unfold blockZ
  rw [addf_apply, addf_apply, addf_apply, matmul64_apply, matmul64_apply, matmul16_apply, broadcastTo_1b_ab_apply]
  simp only [truncf_apply, shapeCast_self]
  rfl

theorem shiftRows_apply (z : FVec Ideal S4000x15 .f32) (p : Fin 4000) (q : Fin 15) :
    shiftRows z (ix2 p q) = z (ix2 p q) - foldMax (fun q' => z (ix2 p q')) := by
  unfold shiftRows
  rw [subf_apply, broadcastTo_a1_ab_apply, shapeCast_a_a1_apply, rowMax_apply]
  rfl

theorem subLogSumExp_apply (s : FVec Ideal S4000x15 .f32) (p : Fin 4000) (q : Fin 15) :
    subLogSumExp s (ix2 p q) = s (ix2 p q) - Ideal.log (∑ q' : Fin 15, Ideal.exp (s (ix2 p q'))) := by
  unfold subLogSumExp
  rw [subf_apply, broadcastTo_a1_ab_apply, log_apply, shapeCast_a_a1_apply, rowSum_apply]
  rfl

/-- THE PAYLOAD AT AN INDEX: the row-wise log-softmax of the block's logits. -/
theorem pay4_apply (x0 x1 : Vec Ideal S4000x64 .f32) (x2 : Vec Ideal S4000x16 .f32) (x3 x4 : Vec Ideal S64x15 .f32) (x5 : Vec Ideal S16x15 .f32) (x6 : Vec Ideal S1x15 .f32) (p : Fin 4000) (q : Fin 15) :
    k4_pay1 (F := Ideal) x0 x1 x2 x3 x4 x5 x6 (ix2 p q)
      = (blockLogit x0 x1 x2 x3 x4 x5 x6 p q - foldMax (blockLogit x0 x1 x2 x3 x4 x5 x6 p))
        - Ideal.log (∑ q' : Fin 15, Ideal.exp (blockLogit x0 x1 x2 x3 x4 x5 x6 p q' - foldMax (blockLogit x0 x1 x2 x3 x4 x5 x6 p))) := by
  rw [pay4_stages, subLogSumExp_apply]
  simp only [shiftRows_apply, blockZ_apply]

/-! ## One grid point against the whole-array function -/

/-- A block's logit is the array's, when the block holds rows `[4000·t, 4000·(t+1))` of the edge arrays. -/
theorem blockLogit_eq (x0 x1 : S4000x64.Idx → EReal) (x2 : S4000x16.Idx → EReal)
    (hs hd : Cert.Spec.Arr 1600000 64) (ea : Cert.Spec.Arr 1600000 16) (ws wd : Cert.Spec.Arr 64 15) (we : Cert.Spec.Arr 16 15) (bf : Cert.Spec.Arr 1 15)
    (p : Fin 4000) (r : Fin 1600000)
    (e0 : ∀ k : Fin 64, x0 (ix2 p k) = hs (ix2 r k)) (e1 : ∀ k : Fin 64, x1 (ix2 p k) = hd (ix2 r k))
    (e2 : ∀ k : Fin 16, x2 (ix2 p k) = ea (ix2 r k)) (q : Fin 15) :
    blockLogit x0 x1 x2 ws wd we bf p q = Cert.Spec.logits hs hd ea ws wd we bf (ix2 r q) := by
  show (∑ k : Fin 64, x0 (ix2 p k) * ws (ix2 k q)) + (∑ k : Fin 64, x1 (ix2 p k) * wd (ix2 k q))
      + (∑ k : Fin 16, x2 (ix2 p k) * we (ix2 k q)) + bf (ix2 0 q)
    = (∑ k : Fin 64, hs (ix2 r k) * ws (ix2 k q)) + (∑ k : Fin 64, hd (ix2 r k) * wd (ix2 k q))
      + (∑ k : Fin 16, ea (ix2 r k) * we (ix2 k q)) + bf (ix2 0 q)
  simp only [e0, e1, e2]

/-- THE BODY'S RESULT AT ONE ELEMENT: when the three row blocks hold rows `[4000·t, 4000·(t+1))` of their arrays and the
    four small windows hold theirs whole, element `j` of the result block is the log-softmax of the logits at row
    `4000·t + j₀`, column `j₁`. -/
theorem point_eq (x0 x1 : Vec Ideal S4000x64 .f32) (x2 : Vec Ideal S4000x16 .f32) (x3 x4 : Vec Ideal S64x15 .f32) (x5 : Vec Ideal S16x15 .f32) (x6 : Vec Ideal S1x15 .f32)
    (hs hd : Cert.Spec.Arr 1600000 64) (ea : Cert.Spec.Arr 1600000 16) (ws wd : Cert.Spec.Arr 64 15) (we : Cert.Spec.Arr 16 15) (bf : Cert.Spec.Arr 1 15)
    (t : ℕ)
    (h0 : ∀ (p : Fin 4000) (k : Fin 64) (r : Fin 1600000), r.val = t * 4000 + p.val → x0 (ix2 p k) = hs (ix2 r k))
    (h1 : ∀ (p : Fin 4000) (k : Fin 64) (r : Fin 1600000), r.val = t * 4000 + p.val → x1 (ix2 p k) = hd (ix2 r k))
    (h2 : ∀ (p : Fin 4000) (k : Fin 16) (r : Fin 1600000), r.val = t * 4000 + p.val → x2 (ix2 p k) = ea (ix2 r k))
    (h3 : x3 = ws) (h4 : x4 = wd) (h5 : x5 = we) (h6 : x6 = bf)
    (j : S4000x15.Idx) (i : S1600000x15.Idx) (hi0 : (i 0).val = t * 4000 + (j 0).val) (hi1 : (i 1).val = (j 1).val) :
    k4_pay1 (F := Ideal) x0 x1 x2 x3 x4 x5 x6 j = Cert.Spec.logSoftmax (Cert.Spec.logits hs hd ea ws wd we bf) i := by
  obtain ⟨p, q, rfl⟩ : ∃ (p : Fin 4000) (q : Fin 15), j = ix2 p q := ⟨j 0, j 1, eq_ix2 j⟩
  obtain ⟨r, s, rfl⟩ : ∃ (r : Fin 1600000) (s : Fin 15), i = ix2 r s := ⟨i 0, i 1, eq_ix2 i⟩
  obtain rfl : s = q := Fin.ext hi1
  subst h3 h4 h5 h6
  have hz : ∀ q' : Fin 15, blockLogit x0 x1 x2 x3 x4 x5 x6 p q' = Cert.Spec.logits hs hd ea x3 x4 x5 x6 (ix2 r q') :=
    blockLogit_eq x0 x1 x2 hs hd ea x3 x4 x5 x6 p r (fun k => h0 p k r hi0) (fun k => h1 p k r hi0) (fun k => h2 p k r hi0)
  have hM : foldMax (blockLogit x0 x1 x2 x3 x4 x5 x6 p) = Cert.Spec.rowMax (Cert.Spec.logits hs hd ea x3 x4 x5 x6) r :=
    congrArg ((Finset.univ : Finset (Fin 15)).fold max (Ideal.ofBits .f32 0xFF800000#32)) (funext hz)
  rw [pay4_apply, hM]
  simp only [hz]
  rfl

/-! ## From the grid's blocks to the array -/

theorem zero_offsets : (![0, 0] : Fin 2 → Nat) = fun _ => 0 := funext fun a => by fin_cases a <;> rfl

/-- The index maps over the 400 grid points: the three row-blocked inputs and the output sit at block row `t`, the four
    small windows at block (0, 0). -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Window 0's block at point `t` holds rows `[4000·t, 4000·(t+1))` of the source features. -/
theorem block0_apply (t : Fin cfg4.N) (p : Fin 4000) (k : Fin 64) (r : Fin 1600000) (hr : r.val = t.val * 4000 + p.val) :
    iblk4 V c 0 t (ix2 p k) = V c main_v86 (ix2 r k) := by
  obtain ⟨e0, e1, -⟩ := index_facts t
  show V c main_v86 (((cfg4.win 0).blk t).view.emb (ix2 p k)) = V c main_v86 (ix2 r k)
  refine congrArg (V c main_v86) (funext fun a => Fin.ext ?_)
  match a with
  | ⟨0, _⟩ => show win4_0.index t (0 : Fin 2) * 4000 + 1 * p.val = r.val; omega
  | ⟨1, _⟩ => show win4_0.index t (1 : Fin 2) * 64 + 1 * k.val = k.val; omega

/-- Window 1's block at point `t` holds rows `[4000·t, 4000·(t+1))` of the target features. -/
theorem block1_apply (t : Fin cfg4.N) (p : Fin 4000) (k : Fin 64) (r : Fin 1600000) (hr : r.val = t.val * 4000 + p.val) :
    iblk4 V c 1 t (ix2 p k) = V c main_v95 (ix2 r k) := by
  obtain ⟨-, -, e0, e1, -⟩ := index_facts t
  show V c main_v95 (((cfg4.win 1).blk t).view.emb (ix2 p k)) = V c main_v95 (ix2 r k)
  refine congrArg (V c main_v95) (funext fun a => Fin.ext ?_)
  match a with
  | ⟨0, _⟩ => show win4_1.index t (0 : Fin 2) * 4000 + 1 * p.val = r.val; omega
  | ⟨1, _⟩ => show win4_1.index t (1 : Fin 2) * 64 + 1 * k.val = k.val; omega

/-- Window 2's block at point `t` holds rows `[4000·t, 4000·(t+1))` of the edge attributes. -/
theorem block2_apply (t : Fin cfg4.N) (p : Fin 4000) (k : Fin 16) (r : Fin 1600000) (hr : r.val = t.val * 4000 + p.val) :
    iblk4 V c 2 t (ix2 p k) = V c main_arg2 (ix2 r k) := by
  obtain ⟨-, -, -, -, e0, e1, -⟩ := index_facts t
  show V c main_arg2 (((cfg4.win 2).blk t).view.emb (ix2 p k)) = V c main_arg2 (ix2 r k)
  refine congrArg (V c main_arg2) (funext fun a => Fin.ext ?_)
  match a with
  | ⟨0, _⟩ => show win4_2.index t (0 : Fin 2) * 4000 + 1 * p.val = r.val; omega
  | ⟨1, _⟩ => show win4_2.index t (1 : Fin 2) * 16 + 1 * k.val = k.val; omega

/-- Windows 3 to 6 hold their arrays whole at every point. -/
theorem block3_eq (t : Fin cfg4.N) : iblk4 V c 3 t = V c main_v96 := by
  obtain ⟨-, -, -, -, -, -, e0, e1, -⟩ := index_facts t
  funext y
  show V c main_v96 (((cfg4.win 3).blk t).view.emb y) = V c main_v96 y
  refine congrArg (V c main_v96) (funext fun a => Fin.ext ?_)
  match a with
  | ⟨0, _⟩ => show win4_3.index t (0 : Fin 2) * 64 + 1 * (y 0).val = (y 0).val; omega
  | ⟨1, _⟩ => show win4_3.index t (1 : Fin 2) * 15 + 1 * (y 1).val = (y 1).val; omega

theorem block4_eq (t : Fin cfg4.N) : iblk4 V c 4 t = V c main_v97 := by
  obtain ⟨-, -, -, -, -, -, -, -, e0, e1, -⟩ := index_facts t
  funext y
  show V c main_v97 (((cfg4.win 4).blk t).view.emb y) = V c main_v97 y
  refine congrArg (V c main_v97) (funext fun a => Fin.ext ?_)
  match a with
  | ⟨0, _⟩ => show win4_4.index t (0 : Fin 2) * 64 + 1 * (y 0).val = (y 0).val; omega
  | ⟨1, _⟩ => show win4_4.index t (1 : Fin 2) * 15 + 1 * (y 1).val = (y 1).val; omega

theorem block5_eq (t : Fin cfg4.N) : iblk4 V c 5 t = V c main_v98 := by
  obtain ⟨-, -, -, -, -, -, -, -, -, -, e0, e1, -⟩ := index_facts t
  funext y
  show V c main_v98 (((cfg4.win 5).blk t).view.emb y) = V c main_v98 y
  refine congrArg (V c main_v98) (funext fun a => Fin.ext ?_)
  match a with
  | ⟨0, _⟩ => show win4_5.index t (0 : Fin 2) * 16 + 1 * (y 0).val = (y 0).val; omega
  | ⟨1, _⟩ => show win4_5.index t (1 : Fin 2) * 15 + 1 * (y 1).val = (y 1).val; omega

theorem block6_eq (t : Fin cfg4.N) : iblk4 V c 6 t = V c main_v99 := by
  obtain ⟨-, -, -, -, -, -, -, -, -, -, -, -, e0, e1, -⟩ := index_facts t
  funext y
  show V c main_v99 (((cfg4.win 6).blk t).view.emb y) = V c main_v99 y
  refine congrArg (V c main_v99) (funext fun a => Fin.ext ?_)
  match a with
  | ⟨0, _⟩ => show win4_6.index t (0 : Fin 2) * 1 + 1 * (y 0).val = (y 0).val; omega
  | ⟨1, _⟩ => show win4_6.index t (1 : Fin 2) * 15 + 1 * (y 1).val = (y 1).val; omega

/-- The whole-array function the region computes: the row-wise log-softmax of the edge classifier's logits. -/
abbrev result4 : Cert.Spec.Arr 1600000 15 :=
  Cert.Spec.logSoftmax (Cert.Spec.logits (V c main_v86) (V c main_v95) (V c main_arg2) (V c main_v96) (V c main_v97) (V c main_v98) (V c main_v99))

/-- WHAT POINT `t` WRITES BACK is block `t` of that function. -/
theorem flushed4_eq (t : Fin cfg4.N) :
    (dat4 (F := Ideal) V c).flushed 7 t = ((cfg4.win 7).blk t).view.read (Elt Ideal) (result4 V c) := by
  show (cfg4.win 7).cut (grid4.coords t) ((dat4 (F := Ideal) V c).after 7 t) = _
  rw [after4_7]
  unfold out4_7
  rw [View.canon_unit_zero zero_offsets]
  simp only [View.ld_unit_zero (S := S4000x64) zero_offsets, View.ld_unit_zero (S := S4000x16) zero_offsets,
    View.ld_unit_zero (S := S64x15) zero_offsets, View.ld_unit_zero (S := S16x15) zero_offsets,
    View.ld_unit_zero (S := S1x15) zero_offsets]
  have e7 := (index_facts t).2.2.2.2.2.2.2.2.2.2.2.2.2.2
  funext j
  show k4_pay1 (F := Ideal) (iblk4 V c 0 t) (iblk4 V c 1 t) (iblk4 V c 2 t) (iblk4 V c 3 t) (iblk4 V c 4 t) (iblk4 V c 5 t) (iblk4 V c 6 t)
      ((cfg4.win 7).xinj (grid4.coords t) j) = result4 V c (((cfg4.win 7).blk t).view.emb j)
  refine point_eq _ _ _ _ _ _ _ (V c main_v86) (V c main_v95) (V c main_arg2) (V c main_v96) (V c main_v97) (V c main_v98) (V c main_v99) t.val
    (block0_apply V c t) (block1_apply V c t) (block2_apply V c t) (block3_eq V c t) (block4_eq V c t) (block5_eq V c t) (block6_eq V c t)
    _ _ ?_ ?_
  · show win4_7.index t (0 : Fin 2) * 4000 + 1 * (j 0).val = t.val * 4000 + (j 0).val
    omega
  · show win4_7.index t (1 : Fin 2) * 15 + 1 * (j 1).val = (j 1).val
    omega

/-- An index of the array is in point `t`'s block iff each coordinate is in the block's range on its axis. -/
theorem mem_block4 (t : Fin cfg4.N) (i : S1600000x15.Idx) :
    i ∈ ((cfg4.win 7).blk t).view.set ↔ ∀ a : Fin 2, win4_7.index t a * S4000x15.size a ≤ (i a).val ∧ (i a).val < win4_7.index t a * S4000x15.size a + S4000x15.size a := by
  show i ∈ ((View.whole main_v100).slice (win4_7.rect t)).set ↔ _
  rw [View.set_slice_whole, Rect.mem_set_unit]
  exact Iff.rfl

/-- Row `r` of the array is in the block of point `r / 4000`, which writes back. -/
theorem covered4 (i : S1600000x15.Idx) :
    ∃ t : Fin cfg4.N, (cfg4.win 7).flush t = true ∧ i ∈ ((cfg4.win 7).blk t).view.set := by
  have hN : cfg4.N = 400 := N_4
  have hi0 : (i 0).val < 1600000 := (i 0).isLt
  have hi1 : (i 1).val < 15 := (i 1).isLt
  obtain ⟨t, ht⟩ : ∃ t : Fin cfg4.N, t.val = (i 0).val / 4000 := ⟨⟨(i 0).val / 4000, by rw [hN]; omega⟩, rfl⟩
  have e7 := (index_facts t).2.2.2.2.2.2.2.2.2.2.2.2.2.2
  refine ⟨t, flush4_7 t, ?_⟩
  rw [mem_block4]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 15 ≤ (i 1).val ∧ (i 1).val < win4_7.index t (1 : Fin 2) * 15 + 15; omega

end Region4

open Region4 in
/-- THE ARRAY after the region: the row-wise log-softmax of the edge classifier's logits. -/
theorem array4 : (dat4 (F := Ideal) V c).arrAt 7 cfg4.N = Cert.Spec.logSoftmax (Cert.Spec.logits (V c main_v86) (V c main_v95) (V c main_arg2) (V c main_v96) (V c main_v97) (V c main_v98) (V c main_v99)) :=
  (dat4 (F := Ideal) V c).arrAt_eq_of_cover 7 (result4 V c) (fun t _ => flushed4_eq V c t) covered4

end Cert.KernelIdeal.Whole
end
-- ==== Proof.KSlices.lean ====
/-
  The last stretch of host operations before the edge classifier cuts the 144×15 classifier matrix into its three
  groups of rows — rows 0–63 for the source node's features, rows 64–127 for the target's, rows 128–143 for the edge's —
  and lays the 15-entry bias vector out as one 1×15 row. Each of the four results, read at an index, is the operand at
  the index shifted by the slice's row offset (or, for the row, at the same column); nothing else in the stretch writes
  these four buffers or their operands.
-/
import proofs.«149527_j74560632259283_2_alg».proof.Proof.Gen.KernelIdeal.Frame
import proofs.«149527_j74560632259283_2_alg».proof.Proof.Spec
import Idealize.ShloMosaic.Lib.StableHlo.Run
import Idealize.ShloMosaic.Lib.Pipeline.Value
import Idealize.ShloMosaic.Lib.ValueIdx
import Idealize.ShloMosaic.Lib.ValueLayout
set_option maxRecDepth 16384
noncomputable section
namespace Cert.KernelIdeal.Whole
open Idealize.ShloMosaic Idealize.ShloMosaic.TcCoe Idealize.SL.Sem Cert.KernelIdeal Cert.KernelIdeal.Gen
open Idealize.ShloMosaic.StableHlo Idealize.ShloMosaic.ValueIdx

variable (m : (ℓ : Loc nD τ sig) → Buf (Elt Ideal) ℓ) (ρ : Dev nD → PrngReg) (c : Dev nD)

/-- The first 64 rows of the classifier matrix, as the last host stretch slices them off. -/
theorem wsrc11 : W11 (F := Ideal) m ρ c (Proc.devRef .tc main_v96) = Cert.Spec.wSrc (W10 (F := Ideal) m ρ c (Proc.devRef .tc main_arg9)) := by
  show StableHlo.after hostOps4 (W10 m ρ c) (Proc.devRef .tc main_v96) = _
  simp only [hostOps4]
  after_results
  generalize W10 m ρ c (Proc.tc.devRef main_arg9) = X
  funext j
  obtain ⟨p, q, rfl⟩ : ∃ (p : Fin 64) (q : Fin 15), j = ix2 p q := ⟨j 0, j 1, eq_ix2 j⟩
  exact slice2_axis0_apply 0 X slices_S144x15_S64x15_0_0 p q ⟨p.val, by omega⟩ (Nat.zero_add _).symm

/-- Rows 64–127 of the classifier matrix. -/
theorem wdst11 : W11 (F := Ideal) m ρ c (Proc.devRef .tc main_v97) = Cert.Spec.wDst (W10 (F := Ideal) m ρ c (Proc.devRef .tc main_arg9)) := by
  show StableHlo.after hostOps4 (W10 m ρ c) (Proc.devRef .tc main_v97) = _
  simp only [hostOps4]
  after_results
  generalize W10 m ρ c (Proc.tc.devRef main_arg9) = X
  funext j
  obtain ⟨p, q, rfl⟩ : ∃ (p : Fin 64) (q : Fin 15), j = ix2 p q := ⟨j 0, j 1, eq_ix2 j⟩
  exact slice2_axis0_apply 64 X slices_S144x15_S64x15_64_0 p q ⟨64 + p.val, by omega⟩ rfl

/-- Rows 128–143 of the classifier matrix. -/
theorem wattr11 : W11 (F := Ideal) m ρ c (Proc.devRef .tc main_v98) = Cert.Spec.wAttr (W10 (F := Ideal) m ρ c (Proc.devRef .tc main_arg9)) := by
  show StableHlo.after hostOps4 (W10 m ρ c) (Proc.devRef .tc main_v98) = _
  simp only [hostOps4]
  after_results
  generalize W10 m ρ c (Proc.tc.devRef main_arg9) = X
  funext j
  obtain ⟨p, q, rfl⟩ : ∃ (p : Fin 16) (q : Fin 15), j = ix2 p q := ⟨j 0, j 1, eq_ix2 j⟩
  exact slice2_axis0_apply 128 X slices_S144x15_S16x15_128_0 p q ⟨128 + p.val, by omega⟩ rfl

/-- The classifier's bias vector, as the one row the last host stretch reshapes it to. -/
theorem bias11 : W11 (F := Ideal) m ρ c (Proc.devRef .tc main_v99) = Cert.Spec.row15 (W10 (F := Ideal) m ρ c (Proc.devRef .tc main_arg10)) := by
  show StableHlo.after hostOps4 (W10 m ρ c) (Proc.devRef .tc main_v99) = _
  simp only [hostOps4]
  after_results
  generalize W10 m ρ c (Proc.tc.devRef main_arg10) = X
  funext j
  obtain ⟨u, q, rfl⟩ : ∃ (u : Fin 1) (q : Fin 15), j = ix2 u q := ⟨j 0, j 1, eq_ix2 j⟩
  show shapeCast S1x15 X shapeCasts_S15_S1x15 (ix2 u q) = _
  exact shapeCast_a_1a_apply X shapeCasts_S15_S1x15 u q

end Cert.KernelIdeal.Whole
end
-- ==== Proof.KChain.lean ====
/-
  The kernel program's buffers, stage by stage, are the reference's.

  Before the first kernel both programs compute, by the same host operations on the edge index array, the source and target
  index vectors (with a self-loop per node) and the per-edge normalisation. Each layer then aggregates the previous stage —
  gather by source, scale, scatter-add by target: again the same host operations in both programs — and hands the aggregate
  to a kernel whose output array, as a whole-array function, is the reference's next stage (bias, positive part, matrix
  product). The last kernel's output is the log-softmax of the edge classifier's logits. So the result buffer of the
  kernel program holds the reference's result term of the same arguments.
-/
import proofs.«149527_j74560632259283_2_alg».proof.Proof.Gen.KernelIdeal.Frame
import proofs.«149527_j74560632259283_2_alg».proof.Proof.RefReadP
import proofs.«149527_j74560632259283_2_alg».proof.Proof.RefStages
import proofs.«149527_j74560632259283_2_alg».proof.Proof.RefEdge
import proofs.«149527_j74560632259283_2_alg».proof.Proof.KKeep
import proofs.«149527_j74560632259283_2_alg».proof.Proof.KCarry
import proofs.«149527_j74560632259283_2_alg».proof.Proof.Region0
import proofs.«149527_j74560632259283_2_alg».proof.Proof.Region1
import proofs.«149527_j74560632259283_2_alg».proof.Proof.Region2
import proofs.«149527_j74560632259283_2_alg».proof.Proof.Region3
import proofs.«149527_j74560632259283_2_alg».proof.Proof.Region4
import proofs.«149527_j74560632259283_2_alg».proof.Proof.KSlices
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen Cert.ReferenceIdeal.ReadP

variable (m : (ℓ : Loc nD τ sig) → Buf (Elt Ideal) ℓ) (ρ : Dev nD → PrngReg) (c : Dev nD)

/-! ## Before the first kernel -/

/-- The source index of every edge and self-loop. -/
theorem src1 : W1 (F := Ideal) m ρ c (Proc.devRef .tc main_v3) = val_main_v3 (F := Ideal) (m ((c : Thread nD τ).loc main_arg1)) := by
  show StableHlo.after hostOps0 (W0 m ρ c) (Proc.devRef .tc main_v3) = _
  have h1 : W0 m ρ c (Proc.devRef .tc main_arg1) = (m ((c : Thread nD τ).loc main_arg1)) := rfl
  generalize W0 m ρ c = V at h1 ⊢
  simp only [hostOps0]
  after_results
  rw [h1]
  generalize m ((c : Thread nD τ).loc main_arg1) = x1
  rw [val_main_v3, val_main_v2, val_main_v1, val_main_v0]
  rfl

/-- The target index of every edge and self-loop. -/
theorem dst1 : W1 (F := Ideal) m ρ c (Proc.devRef .tc main_v6) = val_main_v6 (F := Ideal) (m ((c : Thread nD τ).loc main_arg1)) := by
  show StableHlo.after hostOps0 (W0 m ρ c) (Proc.devRef .tc main_v6) = _
  have h1 : W0 m ρ c (Proc.devRef .tc main_arg1) = (m ((c : Thread nD τ).loc main_arg1)) := rfl
  generalize W0 m ρ c = V at h1 ⊢
  simp only [hostOps0]
  after_results
  rw [h1]
  generalize m ((c : Thread nD τ).loc main_arg1) = x1
  rw [val_main_v6, val_main_v5, val_main_v4, val_main_v0]
  rfl

/-- Which nodes have a positive degree (the degree is the scatter-add of ones by target index). -/
theorem pos1 : W1 (F := Ideal) m ρ c (Proc.devRef .tc main_v12) = val_main_v12 (F := Ideal) (m ((c : Thread nD τ).loc main_arg1)) := by
  show StableHlo.after hostOps0 (W0 m ρ c) (Proc.devRef .tc main_v12) = _
  have h1 : W0 m ρ c (Proc.devRef .tc main_arg1) = (m ((c : Thread nD τ).loc main_arg1)) := rfl
  generalize W0 m ρ c = V at h1 ⊢
  simp only [hostOps0]
  after_results
  rw [h1]
  generalize m ((c : Thread nD τ).loc main_arg1) = x1
  rw [val_main_v12, val_main_v10, val_main_v11, val_main_v8, val_main_v9, val_main_v7, val_main_cst_1, val_main_cst_0,
    val_main_cst, val_main_v6, val_main_v5, val_main_v4, val_main_v0]
  rfl

/-- The inverse square root of the degree, the degree first raised to the tiny floor. -/
theorem rsq1 : W1 (F := Ideal) m ρ c (Proc.devRef .tc main_v15) = val_main_v15 (F := Ideal) (m ((c : Thread nD τ).loc main_arg1)) := by
  show StableHlo.after hostOps0 (W0 m ρ c) (Proc.devRef .tc main_v15) = _
  have h1 : W0 m ρ c (Proc.devRef .tc main_arg1) = (m ((c : Thread nD τ).loc main_arg1)) := rfl
  generalize W0 m ρ c = V at h1 ⊢
  simp only [hostOps0]
  after_results
  rw [h1]
  generalize m ((c : Thread nD τ).loc main_arg1) = x1
  rw [val_main_v15, val_main_v14, val_main_v13, val_main_cst_2, val_main_v10, val_main_v8, val_main_v9, val_main_v7,
    val_main_cst_0, val_main_cst, val_main_v6, val_main_v5, val_main_v4, val_main_v0]
  rfl

/-- The zero that stands in where a node has no edge. -/
theorem zero1 : W1 (F := Ideal) m ρ c (Proc.devRef .tc main_cst_3) = val_main_cst_3 (F := Ideal) := by
  show StableHlo.after hostOps0 (W0 m ρ c) (Proc.devRef .tc main_cst_3) = _
  generalize W0 m ρ c = V
  simp only [hostOps0]
  after_results
  rw [val_main_cst_3]

/-- The per-node factor: the inverse square root where the degree is positive, zero elsewhere. -/
theorem fac2 : W2 (F := Ideal) m ρ c (Proc.devRef .tc main_v16) = val_main_v16 (F := Ideal) (m ((c : Thread nD τ).loc main_arg1)) := by
  show StableHlo.after hostOps0_1 (W1 m ρ c) (Proc.devRef .tc main_v16) = _
  have h1 := pos1 m ρ c
  have h2 := rsq1 m ρ c
  have h3 := zero1 m ρ c
  generalize W1 m ρ c = V at h1 h2 h3 ⊢
  simp only [hostOps0_1]
  after_results
  rw [val_main_v16, val_main_call0_v1, val_main_call0_v0, ← h1, ← h2, ← h3]
  rfl
theorem src2 : W2 (F := Ideal) m ρ c (Proc.devRef .tc main_v3) = val_main_v3 (F := Ideal) (m ((c : Thread nD τ).loc main_arg1)) :=
  (kept_hostOps0_1 (F := Ideal) _ main_v3 (by decide)).trans (src1 m ρ c)
theorem dst2 : W2 (F := Ideal) m ρ c (Proc.devRef .tc main_v6) = val_main_v6 (F := Ideal) (m ((c : Thread nD τ).loc main_arg1)) :=
  (kept_hostOps0_1 (F := Ideal) _ main_v6 (by decide)).trans (dst1 m ρ c)
theorem src3 : W3 (F := Ideal) m ρ c (Proc.devRef .tc main_v3) = val_main_v3 (F := Ideal) (m ((c : Thread nD τ).loc main_arg1)) :=
  (kept_hostOps0_2 (F := Ideal) _ main_v3 (by decide)).trans (src2 m ρ c)
theorem dst3 : W3 (F := Ideal) m ρ c (Proc.devRef .tc main_v6) = val_main_v6 (F := Ideal) (m ((c : Thread nD τ).loc main_arg1)) :=
  (kept_hostOps0_2 (F := Ideal) _ main_v6 (by decide)).trans (dst2 m ρ c)

/-- The per-edge normalisation: the two end nodes' factors, gathered and multiplied. -/
theorem nrm3 : W3 (F := Ideal) m ρ c (Proc.devRef .tc main_v31) = val_main_v31 (F := Ideal) (m ((c : Thread nD τ).loc main_arg1)) := by
  show StableHlo.after hostOps0_2 (W2 m ρ c) (Proc.devRef .tc main_v31) = _
  have h1 := fac2 m ρ c
  have h2 := src2 m ρ c
  have h3 := dst2 m ρ c
  generalize W2 m ρ c = V at h1 h2 h3 ⊢
  simp only [hostOps0_2]
  after_results_simp
  rw [h1, h2, h3]
  generalize m ((c : Thread nD τ).loc main_arg1) = x1
  simp only [val_main_v31, val_main_v23, val_main_v30, val_main_v22, val_main_v29, val_main_v21, val_main_v28,
    val_main_v18, val_main_v20, val_main_v25, val_main_v27, val_main_v17, val_main_v19, val_main_v24, val_main_v26,
    val_main_c, val_main_c_4, val_main_c_5, val_main_c_6]
  rfl

/-! ## The first kernel: the node features times the first matrix -/

theorem out0 : W4 (F := Ideal) m ρ c (Proc.devRef .tc main_v32) = val_main_v32 (F := Ideal) (m ((c : Thread nD τ).loc main_arg0)) (m ((c : Thread nD τ).loc main_arg3)) :=
  (W4_arr m ρ c 2).trans ((array0 (V3 m ρ) c).trans (by
    rw [show V3 m ρ c main_arg0 = _ from arg0_at3 m ρ c, show V3 m ρ c main_arg3 = _ from arg3_at3 m ρ c]
    exact (Cert.ReferenceIdeal.Whole.v32_spec _ _).symm))

/-! ## Layer 1 -/

/-- The aggregate that enters layer 1's kernel: the gather by source index, the scaling by the edge normalisation and the
    scatter-add by target index, applied to the previous stage — the same operations the reference applies to its own. -/
theorem agg1 : W5 (F := Ideal) m ρ c (Proc.devRef .tc main_v45) = val_main_v45 (F := Ideal) (m ((c : Thread nD τ).loc main_arg0)) (m ((c : Thread nD τ).loc main_arg1)) (m ((c : Thread nD τ).loc main_arg3)) := by
  show StableHlo.after hostOps1 (W4 m ρ c) (Proc.devRef .tc main_v45) = _
  have h1 := out0 m ρ c
  have h2 := (v3_at4 m ρ c).trans (src3 m ρ c)
  have h3 := (v6_at4 m ρ c).trans (dst3 m ρ c)
  have h4 := (v31_at4 m ρ c).trans (nrm3 m ρ c)
  generalize W4 m ρ c = V at h1 h2 h3 h4 ⊢
  simp only [hostOps1]
  after_results_simp
  rw [h1, h2, h3, h4]
  generalize m ((c : Thread nD τ).loc main_arg0) = x0
  generalize m ((c : Thread nD τ).loc main_arg1) = x1
  generalize m ((c : Thread nD τ).loc main_arg3) = x3
  simp only [val_main_v45, val_main_v43, val_main_v44, val_main_v42, val_main_cst_9, val_main_v39, val_main_v41,
    val_main_v38, val_main_v40, val_main_v37, val_main_v34, val_main_v36, val_main_v33, val_main_v35, val_main_c_7,
    val_main_c_8]
  rfl

/-- The bias vector reshaped to one row. -/
theorem bias1 : W5 (F := Ideal) m ρ c (Proc.devRef .tc main_v46) = Cert.Spec.row64 (m ((c : Thread nD τ).loc main_arg4)) := by
  show StableHlo.after hostOps1 (W4 m ρ c) (Proc.devRef .tc main_v46) = _
  have h1 := arg4_at4 m ρ c
  generalize W4 m ρ c = V at h1 ⊢
  simp only [hostOps1]
  after_results_simp
  rw [h1]
  funext j
  obtain ⟨u, i, rfl⟩ : ∃ (u : Fin 1) (i : Fin 64), j = ix2 u i := ⟨j 0, j 1, eq_ix2 j⟩
  exact shapeCast_a_1a_apply _ _ u i

/-- Layer 1's kernel leaves the reference's stage 50 in its output array. -/
theorem out1 : W6 (F := Ideal) m ρ c (Proc.devRef .tc main_v47) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 3).trans ((array1 (V5 m ρ) c).trans (by
    rw [show V5 m ρ c main_v45 = _ from agg1 m ρ c, show V5 m ρ c main_v46 = _ from bias1 m ρ c, show V5 m ρ c main_arg5 = _ from arg5_at5 m ρ c]
    exact (Cert.ReferenceIdeal.Whole.v50_spec _ _ _ _ _).symm))

/-! ## Layer 2 -/

/-- The aggregate that enters layer 2's kernel: the gather by source index, the scaling by the edge normalisation and the
    scatter-add by target index, applied to the previous stage — the same operations the reference applies to its own. -/
theorem agg2 : W7 (F := Ideal) m ρ c (Proc.devRef .tc main_v60) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v60) = _
  have h1 := out1 m ρ c
  have h2 := (v3_at6 m ρ c).trans (src3 m ρ c)
  have h3 := (v6_at6 m ρ c).trans (dst3 m ρ c)
  have h4 := (v31_at6 m ρ c).trans (nrm3 m ρ c)
  generalize W6 m ρ c = V at h1 h2 h3 h4 ⊢
  simp only [hostOps2]
  after_results_simp
  rw [h1, h2, h3, h4]
  generalize m ((c : Thread nD τ).loc main_arg0) = x0
  generalize m ((c : Thread nD τ).loc main_arg1) = x1
  generalize m ((c : Thread nD τ).loc main_arg3) = x3
  generalize m ((c : Thread nD τ).loc main_arg4) = x4
  generalize m ((c : Thread nD τ).loc main_arg5) = x5
  simp only [val_main_v63, val_main_v61, val_main_v62, val_main_v60, val_main_cst_12, val_main_v57, val_main_v59, val_main_v56, val_main_v58, val_main_v55, val_main_v52, val_main_v54, val_main_v51, val_main_v53, val_main_c_10, val_main_c_11]
  rfl

/-- The bias vector reshaped to one row. -/
theorem bias2 : W7 (F := Ideal) m ρ c (Proc.devRef .tc main_v61) = Cert.Spec.row64 (m ((c : Thread nD τ).loc main_arg6)) := by
  show StableHlo.after hostOps2 (W6 m ρ c) (Proc.devRef .tc main_v61) = _
  have h1 := arg6_at6 m ρ c
  generalize W6 m ρ c = V at h1 ⊢
  simp only [hostOps2]
  after_results_simp
  rw [h1]
  funext j
  obtain ⟨u, i, rfl⟩ : ∃ (u : Fin 1) (i : Fin 64), j = ix2 u i := ⟨j 0, j 1, eq_ix2 j⟩
  exact shapeCast_a_1a_apply _ _ u i

/-- Layer 2's kernel leaves the reference's stage 68 in its output array. -/
theorem out2 : W8 (F := Ideal) m ρ c (Proc.devRef .tc main_v62) = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 3).trans ((array2 (V7 m ρ) c).trans (by
    rw [show V7 m ρ c main_v60 = _ from agg2 m ρ c, show V7 m ρ c main_v61 = _ from bias2 m ρ c, show V7 m ρ c main_arg7 = _ from arg7_at7 m ρ c]
    exact (Cert.ReferenceIdeal.Whole.v68_spec _ _ _ _ _ _ _).symm))

/-! ## Layer 3 -/

/-- The aggregate that enters layer 3's kernel: the gather by source index, the scaling by the edge normalisation and the
    scatter-add by target index, applied to the previous stage — the same operations the reference applies to its own. -/
theorem agg3 : W9 (F := Ideal) m ρ c (Proc.devRef .tc main_v75) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v75) = _
  have h1 := out2 m ρ c
  have h2 := (v3_at8 m ρ c).trans (src3 m ρ c)
  have h3 := (v6_at8 m ρ c).trans (dst3 m ρ c)
  have h4 := (v31_at8 m ρ c).trans (nrm3 m ρ c)
  generalize W8 m ρ c = V at h1 h2 h3 h4 ⊢
  simp only [hostOps3]
  after_results_simp
  rw [h1, h2, h3, h4]
  generalize m ((c : Thread nD τ).loc main_arg0) = x0
  generalize m ((c : Thread nD τ).loc main_arg1) = x1
  generalize m ((c : Thread nD τ).loc main_arg3) = x3
  generalize m ((c : Thread nD τ).loc main_arg4) = x4
  generalize m ((c : Thread nD τ).loc main_arg5) = x5
  generalize m ((c : Thread nD τ).loc main_arg6) = x6
  generalize m ((c : Thread nD τ).loc main_arg7) = x7
  simp only [val_main_v81, val_main_v79, val_main_v80, val_main_v78, val_main_cst_15, val_main_v75, val_main_v77, val_main_v74, val_main_v76, val_main_v73, val_main_v70, val_main_v72, val_main_v69, val_main_v71, val_main_c_13, val_main_c_14]
  rfl

/-- The bias vector reshaped to one row. -/
theorem bias3 : W9 (F := Ideal) m ρ c (Proc.devRef .tc main_v76) = Cert.Spec.row64 (m ((c : Thread nD τ).loc main_arg8)) := by
  show StableHlo.after hostOps3 (W8 m ρ c) (Proc.devRef .tc main_v76) = _
  have h1 := arg8_at8 m ρ c
  generalize W8 m ρ c = V at h1 ⊢
  simp only [hostOps3]
  after_results_simp
  rw [h1]
  funext j
  obtain ⟨u, i, rfl⟩ : ∃ (u : Fin 1) (i : Fin 64), j = ix2 u i := ⟨j 0, j 1, eq_ix2 j⟩
  exact shapeCast_a_1a_apply _ _ u i

/-- Layer 3's kernel leaves the reference's stage 85 in its output array. -/
theorem out3 : W10 (F := Ideal) m ρ c (Proc.devRef .tc main_v77) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 2).trans ((array3 (V9 m ρ) c).trans (by
    rw [show V9 m ρ c main_v75 = _ from agg3 m ρ c, show V9 m ρ c main_v76 = _ from bias3 m ρ c]
    exact (Cert.ReferenceIdeal.Whole.v85_spec _ _ _ _ _ _ _ _).symm))

/-! ## The edge classifier -/

/-- Per edge, the source node's features: the gather of the last node array by the first row of the edge index array. -/
theorem hsrc : W11 (F := Ideal) m ρ c (Proc.devRef .tc main_v86) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W10 m ρ c) (Proc.devRef .tc main_v86) = _
  have h1 := out3 m ρ c
  have h2 := arg1_at10 m ρ c
  generalize W10 m ρ c = V at h1 h2 ⊢
  simp only [hostOps4]
  after_results_simp
  rw [h1, h2]
  generalize m ((c : Thread nD τ).loc main_arg0) = x0
  generalize m ((c : Thread nD τ).loc main_arg1) = x1
  generalize m ((c : Thread nD τ).loc main_arg3) = x3
  generalize m ((c : Thread nD τ).loc main_arg4) = x4
  generalize m ((c : Thread nD τ).loc main_arg5) = x5
  generalize m ((c : Thread nD τ).loc main_arg6) = x6
  generalize m ((c : Thread nD τ).loc main_arg7) = x7
  generalize m ((c : Thread nD τ).loc main_arg8) = x8
  simp only [val_main_v94, val_main_v93, val_main_v92, val_main_v89, val_main_v91, val_main_v87, val_main_v88, val_main_v90, val_main_v86, val_main_c_16, val_main_c_17]
  rfl

/-- Per edge, the target node's features: the gather by the second row of the edge index array. -/
theorem hdst : W11 (F := Ideal) m ρ c (Proc.devRef .tc main_v95) = val_main_v103 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W10 m ρ c) (Proc.devRef .tc main_v95) = _
  have h1 := out3 m ρ c
  have h2 := arg1_at10 m ρ c
  generalize W10 m ρ c = V at h1 h2 ⊢
  simp only [hostOps4]
  after_results_simp
  rw [h1, h2]
  generalize m ((c : Thread nD τ).loc main_arg0) = x0
  generalize m ((c : Thread nD τ).loc main_arg1) = x1
  generalize m ((c : Thread nD τ).loc main_arg3) = x3
  generalize m ((c : Thread nD τ).loc main_arg4) = x4
  generalize m ((c : Thread nD τ).loc main_arg5) = x5
  generalize m ((c : Thread nD τ).loc main_arg6) = x6
  generalize m ((c : Thread nD τ).loc main_arg7) = x7
  generalize m ((c : Thread nD τ).loc main_arg8) = x8
  simp only [val_main_v103, val_main_v102, val_main_v101, val_main_v98, val_main_v100, val_main_v96, val_main_v97, val_main_v99, val_main_v95, val_main_c_18, val_main_c_19]
  rfl

/-- The last kernel leaves the reference's result term in the result array. -/
theorem result : W12 (F := Ideal) m ρ c (Proc.devRef .tc main_v100) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 7).trans ((array4 (V11 m ρ) c).trans (by
    rw [show V11 m ρ c main_v86 = _ from hsrc m ρ c, show V11 m ρ c main_v95 = _ from hdst m ρ c,
      show V11 m ρ c main_arg2 = _ from arg2_at11 m ρ c,
      show V11 m ρ c main_v96 = _ from (wsrc11 m ρ c).trans (congrArg Cert.Spec.wSrc (arg9_at10 m ρ c)),
      show V11 m ρ c main_v97 = _ from (wdst11 m ρ c).trans (congrArg Cert.Spec.wDst (arg9_at10 m ρ c)),
      show V11 m ρ c main_v98 = _ from (wattr11 m ρ c).trans (congrArg Cert.Spec.wAttr (arg9_at10 m ρ c)),
      show V11 m ρ c main_v99 = _ from (bias11 m ρ c).trans (congrArg Cert.Spec.row15 (arg10_at10 m ρ c))]
    exact (Cert.ReferenceIdeal.Whole.v109_spec _ _ _ _ _ _ _ _ _ _ _).symm))

end Cert.KernelIdeal.Whole

end
-- ==== Proof.lean ====
/-
  A three-layer graph convolution network with an edge classifier, as five kernels among host operations, against its plain
  reference: equal results over the extended reals.

  Both programs compute the index vectors and the edge normalisation by the same host operations, and aggregate each layer
  by the same gather, scaling and scatter-add. They differ in the dense steps: the kernel program computes each layer's
  matrix product, bias and positive part block of rows by block of rows, and the edge classifier as three products against
  the three groups of rows of the classifier matrix where the reference joins the three feature arrays and multiplies once.
  Over the extended reals a matrix product is a sum in a commutative monoid, so blocking the rows changes nothing and the
  sum over 144 joined columns is the sum over its three groups; no other law is needed, and the precondition is never used.

  The frames of the two kernel programs are the generated ones; the reference's frame is its run (read chunk by chunk, RefRun) with the result dropped;
  the idealization rewrote no operation. For the results: the kernel program's run ends with its memory at the last link of
  the chain of boundary contents (KRun), that link at the result array is the reference's result term of the same
  arguments (KChain), and the reference's run ends at that term of its own arguments, which agree.
-/
import proofs.«149527_j74560632259283_2_alg».proof.Defs
import proofs.«149527_j74560632259283_2_alg».proof.Proof.Gen.Kernel
import proofs.«149527_j74560632259283_2_alg».proof.Proof.Gen.Kernel.Frame
import proofs.«149527_j74560632259283_2_alg».proof.Proof.Gen.KernelIdeal
import proofs.«149527_j74560632259283_2_alg».proof.Proof.Gen.KernelIdeal.Frame
import proofs.«149527_j74560632259283_2_alg».proof.Proof.Gen.ReferenceIdeal
import proofs.«149527_j74560632259283_2_alg».proof.Proof.Gen.Pre_finite_inputs
import proofs.«149527_j74560632259283_2_alg».proof.Proof.RefReadP
import proofs.«149527_j74560632259283_2_alg».proof.Proof.RefRun
import proofs.«149527_j74560632259283_2_alg».proof.Proof.KRun
import proofs.«149527_j74560632259283_2_alg».proof.Proof.KChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Whole.run m ρ)

/-- Both runs end at one term of the arguments: the reference's result term. -/
theorem algebraic : Cert.algebraic_KernelIdeal_ReferenceIdeal := by
  intro m ρ m' ρ' _ hagree
  refine ⟨fun c => Cert.ReferenceIdeal.ReadP.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result m ρ c), (h c).2⟩) (Cert.KernelIdeal.Whole.run_value (F := Ideal) m ρ)
  · refine (θ_run Cert.ReferenceIdeal.defs _ _).mono (fun _ h c => ⟨(h c).1.trans ?_, (h c).2⟩) (Cert.ReferenceIdeal.Whole.run m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
